-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S2x200000 : Shape := ⟨2, ![2, 200000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S64 .f32) (main_arg7 : FVec F S1x64 .f32) (main_arg8 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1x64 .f32 := Host.absf main_arg7
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x128 .f32) (main_arg1 : IVec S2x600000 32) (main_arg2 : IVec S2x200000 32) (main_arg3 : FVec F S128x128 .f32) (main_arg4 : FVec F S128 .f32) (main_arg5 : FVec F S64x128 .f32) (main_arg6 : FVec F S64 .f32) (main_arg7 : FVec F S1x64 .f32) (main_arg8 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_arg7 main_arg8 main_v13 main_v16
-- ==== Kernel.lean ====
abbrev S50000x128 : Shape := ⟨2, ![50000, 128]⟩
abbrev S2x600000 : Shape := ⟨2, ![2, 600000]⟩
abbrev S2x200000 : Shape := ⟨2, ![2, 200000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S50000x1 : Shape := ⟨2, ![50000, 1]⟩
abbrev S650000x128 : Shape := ⟨2, ![650000, 128]⟩
abbrev S1x128 : Shape := ⟨2, ![1, 128]⟩
abbrev S5000x128 : Shape := ⟨2, ![5000, 128]⟩
abbrev S1x200000 : Shape := ⟨2, ![1, 200000]⟩
abbrev S200000 : Shape := ⟨1, ![200000]⟩
abbrev S204800 : Shape := ⟨1, ![204800]⟩
abbrev S204800x1 : Shape := ⟨2, ![204800, 1]⟩
abbrev S204800x128 : Shape := ⟨2, ![204800, 128]⟩
abbrev S128x64 : Shape := ⟨2, ![128, 64]⟩
abbrev S1x1 : Shape := ⟨2, ![1, 1]⟩
abbrev S8192x128 : Shape := ⟨2, ![8192, 128]⟩
abbrev S8192 : Shape := ⟨1, ![8192]⟩
abbrev S8192x64 : Shape := ⟨2, ![8192, 64]⟩
abbrev S8192x1 : Shape := ⟨2, ![8192, 1]⟩

abbrev nBuf : Space → Nat
  | .hbm => 104
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S2x200000, .i32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S64, .f32⟩
  | .hbm, ⟨7, _⟩ => ⟨S1x64, .f32⟩
  | .hbm, ⟨8, _⟩ => ⟨S1, .f32⟩
  | .hbm, ⟨9, _⟩ => ⟨S50000, .i32⟩
  | .hbm, ⟨10, _⟩ => ⟨S1x600000, .i32⟩
  | .hbm, ⟨11, _⟩ => ⟨S600000, .i32⟩
  | .hbm, ⟨12, _⟩ => ⟨S650000, .i32⟩
  | .hbm, ⟨13, _⟩ => ⟨S1x600000, .i32⟩
  | .hbm, ⟨14, _⟩ => ⟨S600000, .i32⟩
  | .hbm, ⟨15, _⟩ => ⟨S650000, .i32⟩
  | .hbm, ⟨16, _⟩ => ⟨S_, .f32⟩
  | .hbm, ⟨17, _⟩ => ⟨S650000, .f32⟩
  | .hbm, ⟨18, _⟩ => ⟨S_, .f32⟩
  | .hbm, ⟨19, _⟩ => ⟨S50000, .f32⟩
  | .hbm, ⟨20, _⟩ => ⟨S650000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S50000x1, .f32⟩
  | .hbm, ⟨34, _⟩ => ⟨S_, .i32⟩
  | .hbm, ⟨35, _⟩ => ⟨S650000, .i32⟩
  | .hbm, ⟨36, _⟩ => ⟨S650000, .i1⟩
  | .hbm, ⟨37, _⟩ => ⟨S_, .i32⟩
  | .hbm, ⟨38, _⟩ => ⟨S650000, .i32⟩
  | .hbm, ⟨39, _⟩ => ⟨S650000, .i32⟩
  | .hbm, ⟨40, _⟩ => ⟨S650000, .i32⟩
  | .hbm, ⟨41, _⟩ => ⟨S650000x1, .i32⟩
  | .hbm, ⟨42, _⟩ => ⟨S650000x128, .f32⟩
  | .hbm, ⟨43, _⟩ => ⟨S_, .f32⟩
  | .hbm, ⟨44, _⟩ => ⟨S50000x128, .f32⟩
  | .hbm, ⟨45, _⟩ => ⟨S650000x1, .i32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S50000x1, .f32⟩
  | .hbm, ⟨50, _⟩ => ⟨S50000x128, .f32⟩
  | .hbm, ⟨51, _⟩ => ⟨S50000x128, .f32⟩
  | .hbm, ⟨52, _⟩ => ⟨S50000x1, .f32⟩
  | .hbm, ⟨53, _⟩ => ⟨S_, .i32⟩
  | .hbm, ⟨54, _⟩ => ⟨S650000, .i32⟩
  | .hbm, ⟨55, _⟩ => ⟨S650000, .i1⟩
  | .hbm, ⟨56, _⟩ => ⟨S_, .i32⟩
  | .hbm, ⟨57, _⟩ => ⟨S650000, .i32⟩
  | .hbm, ⟨58, _⟩ => ⟨S650000, .i32⟩
  | .hbm, ⟨59, _⟩ => ⟨S650000, .i32⟩
  | .hbm, ⟨60, _⟩ => ⟨S650000x1, .i32⟩
  | .hbm, ⟨61, _⟩ => ⟨S650000x128, .f32⟩
  | .hbm, ⟨62, _⟩ => ⟨S_, .f32⟩
  | .hbm, ⟨63, _⟩ => ⟨S50000x128, .f32⟩
  | .hbm, ⟨64, _⟩ => ⟨S650000x1, .i32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S128x128, .f32⟩
  | .hbm, ⟨69, _⟩ => ⟨S1x128, .f32⟩
  | .hbm, ⟨70, _⟩ => ⟨S50000x128, .bf16⟩
  | .hbm, ⟨71, _⟩ => ⟨S1x200000, .i32⟩
  | .hbm, ⟨72, _⟩ => ⟨S200000, .i32⟩
  | .hbm, ⟨73, _⟩ => ⟨S_, .i32⟩
  | .hbm, ⟨74, _⟩ => ⟨S_, .i32⟩
  | .hbm, ⟨75, _⟩ => ⟨S204800, .i32⟩
  | .hbm, ⟨76, _⟩ => ⟨S1x200000, .i32⟩
  | .hbm, ⟨77, _⟩ => ⟨S200000, .i32⟩
  | .hbm, ⟨78, _⟩ => ⟨S_, .i32⟩
  | .hbm, ⟨79, _⟩ => ⟨S_, .i32⟩
  | .hbm, ⟨80, _⟩ => ⟨S204800, .i32⟩
  | .hbm, ⟨81, _⟩ => ⟨S_, .i32⟩
  | .hbm, ⟨82, _⟩ => ⟨S204800, .i32⟩
  | .hbm, ⟨83, _⟩ => ⟨S204800, .i1⟩
  | .hbm, ⟨84, _⟩ => ⟨S_, .i32⟩
  | .hbm, ⟨85, _⟩ => ⟨S204800, .i32⟩
  | .hbm, ⟨86, _⟩ => ⟨S204800, .i32⟩
  | .hbm, ⟨87, _⟩ => ⟨S204800, .i32⟩
  | .hbm, ⟨88, _⟩ => ⟨S204800x1, .i32⟩
  | .hbm, ⟨89, _⟩ => ⟨S204800x128, .bf16⟩
  | .hbm, ⟨90, _⟩ => ⟨S_, .i32⟩
  | .hbm, ⟨91, _⟩ => ⟨S204800, .i32⟩
  | .hbm, ⟨92, _⟩ => ⟨S204800, .i1⟩
  | .hbm, ⟨93, _⟩ => ⟨S_, .i32⟩
  | .hbm, ⟨94, _⟩ => ⟨S204800, .i32⟩
  | .hbm, ⟨95, _⟩ => ⟨S204800, .i32⟩
  | .hbm, ⟨96, _⟩ => ⟨S204800, .i32⟩
  | .hbm, ⟨97, _⟩ => ⟨S204800x1, .i32⟩
  | .hbm, ⟨98, _⟩ => ⟨S204800x128, .bf16⟩
  | .hbm, ⟨99, _⟩ => ⟨S128x64, .f32⟩
  | .hbm, ⟨100, _⟩ => ⟨S1x64, .f32⟩
  | .hbm, ⟨101, _⟩ => ⟨S1x1, .f32⟩
  | .hbm, ⟨102, _⟩ => ⟨S204800, .f32⟩
  | .hbm, ⟨103, _⟩ => ⟨S200000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .bf16⟩
  | .local _ .vmem, ⟨5, _⟩ => ⟨S5000x128, .bf16⟩
  | .local _ .vmem, ⟨6, _⟩ => ⟨S8192x128, .bf16⟩
  | .local _ .vmem, ⟨7, _⟩ => ⟨S8192x128, .bf16⟩
  | .local _ .vmem, ⟨8, _⟩ => ⟨S8192x128, .bf16⟩
  | .local _ .vmem, ⟨9, _⟩ => ⟨S8192x128, .bf16⟩
  | .local _ .vmem, ⟨10, _⟩ => ⟨S128x64, .f32⟩
  | .local _ .vmem, ⟨11, _⟩ => ⟨S1x64, .f32⟩
  | .local _ .vmem, ⟨12, _⟩ => ⟨S1x64, .f32⟩
  | .local _ .vmem, ⟨13, _⟩ => ⟨S1x1, .f32⟩
  | .local _ .vmem, ⟨14, _⟩ => ⟨S8192, .f32⟩
  | .local _ .vmem, ⟨15, _⟩ => ⟨S8192, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_8 : Ref sig .tc := ⟨.hbm, 73, rfl⟩
abbrev main_call1_v0 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_9 : Ref sig .tc := ⟨.hbm, 78, rfl⟩
abbrev main_call2_v0 : Ref sig .tc := ⟨.hbm, 79, rfl⟩
abbrev main_v55 : Ref sig .tc := ⟨.hbm, 80, rfl⟩
abbrev main_c_10 : Ref sig .tc := ⟨.hbm, 81, rfl⟩
abbrev main_v56 : Ref sig .tc := ⟨.hbm, 82, rfl⟩
abbrev main_v57 : Ref sig .tc := ⟨.hbm, 83, rfl⟩
abbrev main_c_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_12 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S8192x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8192 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  slices_S2x200000_S1x200000_0_0 : S2x200000.Slices ![0, 0] S1x200000
  shapeCasts_S1x200000_S200000 : S1x200000.ShapeCasts S200000
  pads_S200000_S204800_048000 : S200000.Pads (![0] : Fin 1 → Nat) ![4800] ![0] S204800
  h_S_ : 0 < S_.numel
  slices_S2x200000_S1x200000_1_0 : S2x200000.Slices ![1, 0] S1x200000
  bcast_S_S204800 : S_.BroadcastsInDim S204800 (![] : Fin 0 → Fin S204800.rank)
  bcast_S204800_S204800x1_0 : S204800.BroadcastsInDim S204800x1 (![0] : Fin 1 → Fin S204800x1.rank)
  transposes_S64x128_S128x64_1_0 : S64x128.Transposes [1, 0] S128x64
  shapeCasts_S64_S1x64 : S64.ShapeCasts S1x64
  shapeCasts_S1_S1x1 : S1.ShapeCasts S1x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  reduces_S8192x64_S8192 : S8192x64.Reduces [1] S8192
  shapeCasts_S8192_S8192x1 : S8192.ShapeCasts S8192x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8192x1 : S1x1.Broadcasts S8192x1
  shapeCasts_S8192x1_S8192 : S8192x1.ShapeCasts S8192
  inb_S8192_S8192_0 : ∀ a, (![0] : Fin 1 → Nat) a + S8192.size a ≤ S8192.size a
  h_S8192 : 0 < S8192.numel
  slices_S204800_S200000_0 : S204800.Slices ![0] S200000
  scatter_S50000_S650000x1_S650000_n_0_0_1_wf : ScatterDims.WF S50000 S650000x1 S650000 [] [0] [0] 1
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x128_S5000x128_1_0_0_1_n_n_wf : DotDims.WF S5000x128 S128x128 S5000x128 [1] [0] [0] [1] [] []
  gather_S50000x128_S204800x1_S204800x128_1_0_n_n_0_1_1128_wf : GatherDims.WF S50000x128 S204800x1 S204800x128 [1] [0] [] [0] [] 1 ![1, 128]
  dot_S8192x128_S128x64_S8192x64_1_0_0_1_n_n_wf : DotDims.WF S8192x128 S128x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S204800x128.size a
  hwx1_0 : ∀ i : grid1.Coords, EltTy.bits .bf16 = 32 ∨ (Rect.block (s := S204800x128) S8192x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S204800x128.size a
  hwx1_1 : ∀ i : grid1.Coords, EltTy.bits .bf16 = 32 ∨ (Rect.block (s := S204800x128) S8192x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8192.size a ≤ S204800.size a
  hwx1_6 : ∀ i : grid1.Coords, EltTy.bits .f32 = 32 ∨ (Rect.block (s := S204800) S8192.size (cc1_transform_6 i) (hinb1_6 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S204800x1_S204800x128_1_0_n_n_0_1_1128 : GatherDims S50000x128 S204800x1 S204800x128 where
  offsetDims := [1]
  collapsedSliceDims := [0]
  operandBatchingDims := []
  startIndicesBatchingDims := []
  startIndexMap := [0]
  indexVectorDim := 1
  sliceSizes := ![1, 128]
  wf := gather_S50000x128_S204800x1_S204800x128_1_0_n_n_0_1_1128_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf

abbrev win0_0 : Pipeline.Window sig grid0 :=
  Pipeline.Window.ofSpec (Memref.whole main_v46) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v48) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v49) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v62) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v69) S8192x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v70) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v71) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v72) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v73) S8192.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S2x200000 : Shape := ⟨2, ![2, 200000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S128x64 : Shape := ⟨2, ![128, 64]⟩
abbrev S200000x64 : Shape := ⟨2, ![200000, 64]⟩
abbrev S64x1 : Shape := ⟨2, ![64, 1]⟩
abbrev S1x1 : Shape := ⟨2, ![1, 1]⟩

abbrev nBuf : Space → Nat
  | .hbm => 124
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S2x200000, .i32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S64, .f32⟩
  | .hbm, ⟨7, _⟩ => ⟨S1x64, .f32⟩
  | .hbm, ⟨8, _⟩ => ⟨S1, .f32⟩
  | .hbm, ⟨9, _⟩ => ⟨S50000, .i32⟩
  | .hbm, ⟨10, _⟩ => ⟨S1x600000, .i32⟩
  | .hbm, ⟨11, _⟩ => ⟨S600000, .i32⟩
  | .hbm, ⟨12, _⟩ => ⟨S650000, .i32⟩
  | .hbm, ⟨13, _⟩ => ⟨S1x600000, .i32⟩
  | .hbm, ⟨14, _⟩ => ⟨S600000, .i32⟩
  | .hbm, ⟨15, _⟩ => ⟨S650000, .i32⟩
  | .hbm, ⟨16, _⟩ => ⟨S_, .f32⟩
  | .hbm, ⟨17, _⟩ => ⟨S650000, .f32⟩
  | .hbm, ⟨18, _⟩ => ⟨S_, .f32⟩
  | .hbm, ⟨19, _⟩ => ⟨S50000, .f32⟩
  | .hbm, ⟨20, _⟩ => ⟨S650000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S650000, .i32⟩
  | .hbm, ⟨32, _⟩ => ⟨S650000, .i1⟩
  | .hbm, ⟨33, _⟩ => ⟨S_, .i32⟩
  | .hbm, ⟨34, _⟩ => ⟨S650000, .i32⟩
  | .hbm, ⟨35, _⟩ => ⟨S650000, .i32⟩
  | .hbm, ⟨36, _⟩ => ⟨S650000, .i32⟩
  | .hbm, ⟨37, _⟩ => ⟨S650000x1, .i32⟩
  | .hbm, ⟨38, _⟩ => ⟨S650000, .f32⟩
  | .hbm, ⟨39, _⟩ => ⟨S_, .i32⟩
  | .hbm, ⟨40, _⟩ => ⟨S650000, .i32⟩
  | .hbm, ⟨41, _⟩ => ⟨S650000, .i1⟩
  | .hbm, ⟨42, _⟩ => ⟨S_, .i32⟩
  | .hbm, ⟨43, _⟩ => ⟨S650000, .i32⟩
  | .hbm, ⟨44, _⟩ => ⟨S650000, .i32⟩
  | .hbm, ⟨45, _⟩ => ⟨S650000, .i32⟩
  | .hbm, ⟨46, _⟩ => ⟨S650000x1, .i32⟩
  | .hbm, ⟨47, _⟩ => ⟨S650000, .f32⟩
  | .hbm, ⟨48, _⟩ => ⟨S650000, .f32⟩
  | .hbm, ⟨49, _⟩ => ⟨S_, .i32⟩
  | .hbm, ⟨50, _⟩ => ⟨S650000, .i32⟩
  | .hbm, ⟨51, _⟩ => ⟨S650000, .i1⟩
  | .hbm, ⟨52, _⟩ => ⟨S_, .i32⟩
  | .hbm, ⟨53, _⟩ => ⟨S650000, .i32⟩
  | .hbm, ⟨54, _⟩ => ⟨S650000, .i32⟩
  | .hbm, ⟨55, _⟩ => ⟨S650000, .i32⟩
  | .hbm, ⟨56, _⟩ => ⟨S650000x1, .i32⟩
  | .hbm, ⟨57, _⟩ => ⟨S650000x128, .f32⟩
  | .hbm, ⟨58, _⟩ => ⟨S650000x1, .f32⟩
  | .hbm, ⟨59, _⟩ => ⟨S650000x128, .f32⟩
  | .hbm, ⟨60, _⟩ => ⟨S650000x128, .f32⟩
  | .hbm, ⟨61, _⟩ => ⟨S_, .f32⟩
  | .hbm, ⟨62, _⟩ => ⟨S50000x128, .f32⟩
  | .hbm, ⟨63, _⟩ => ⟨S650000x1, .i32⟩
  | .hbm, ⟨64, _⟩ => ⟨S50000x128, .f32⟩
  | .hbm, ⟨65, _⟩ => ⟨S_, .i32⟩
  | .hbm, ⟨66, _⟩ => ⟨S650000, .i32⟩
  | .hbm, ⟨67, _⟩ => ⟨S650000, .i1⟩
  | .hbm, ⟨68, _⟩ => ⟨S_, .i32⟩
  | .hbm, ⟨69, _⟩ => ⟨S650000, .i32⟩
  | .hbm, ⟨70, _⟩ => ⟨S650000, .i32⟩
  | .hbm, ⟨71, _⟩ => ⟨S650000, .i32⟩
  | .hbm, ⟨72, _⟩ => ⟨S650000x1, .i32⟩
  | .hbm, ⟨73, _⟩ => ⟨S650000x128, .f32⟩
  | .hbm, ⟨74, _⟩ => ⟨S650000x1, .f32⟩
  | .hbm, ⟨75, _⟩ => ⟨S650000x128, .f32⟩
  | .hbm, ⟨76, _⟩ => ⟨S650000x128, .f32⟩
  | .hbm, ⟨77, _⟩ => ⟨S_, .f32⟩
  | .hbm, ⟨78, _⟩ => ⟨S50000x128, .f32⟩
  | .hbm, ⟨79, _⟩ => ⟨S650000x1, .i32⟩
  | .hbm, ⟨80, _⟩ => ⟨S50000x128, .f32⟩
  | .hbm, ⟨81, _⟩ => ⟨S128x128, .f32⟩
  | .hbm, ⟨82, _⟩ => ⟨S50000x128, .f32⟩
  | .hbm, ⟨83, _⟩ => ⟨S1x128, .f32⟩
  | .hbm, ⟨84, _⟩ => ⟨S50000x128, .f32⟩
  | .hbm, ⟨85, _⟩ => ⟨S50000x128, .f32⟩
  | .hbm, ⟨86, _⟩ => ⟨S1x200000, .i32⟩
  | .hbm, ⟨87, _⟩ => ⟨S200000, .i32⟩
  | .hbm, ⟨88, _⟩ => ⟨S_, .i32⟩
  | .hbm, ⟨89, _⟩ => ⟨S200000, .i32⟩
  | .hbm, ⟨90, _⟩ => ⟨S200000, .i1⟩
  | .hbm, ⟨91, _⟩ => ⟨S_, .i32⟩
  | .hbm, ⟨92, _⟩ => ⟨S200000, .i32⟩
  | .hbm, ⟨93, _⟩ => ⟨S200000, .i32⟩
  | .hbm, ⟨94, _⟩ => ⟨S200000, .i32⟩
  | .hbm, ⟨95, _⟩ => ⟨S200000x1, .i32⟩
  | .hbm, ⟨96, _⟩ => ⟨S200000x128, .f32⟩
  | .hbm, ⟨97, _⟩ => ⟨S1x200000, .i32⟩
  | .hbm, ⟨98, _⟩ => ⟨S200000, .i32⟩
  | .hbm, ⟨99, _⟩ => ⟨S_, .i32⟩
  | .hbm, ⟨100, _⟩ => ⟨S200000, .i32⟩
  | .hbm, ⟨101, _⟩ => ⟨S200000, .i1⟩
  | .hbm, ⟨102, _⟩ => ⟨S_, .i32⟩
  | .hbm, ⟨103, _⟩ => ⟨S200000, .i32⟩
  | .hbm, ⟨104, _⟩ => ⟨S200000, .i32⟩
  | .hbm, ⟨105, _⟩ => ⟨S200000, .i32⟩
  | .hbm, ⟨106, _⟩ => ⟨S200000x1, .i32⟩
  | .hbm, ⟨107, _⟩ => ⟨S200000x128, .f32⟩
  | .hbm, ⟨108, _⟩ => ⟨S200000x128, .f32⟩
  | .hbm, ⟨109, _⟩ => ⟨S128x64, .f32⟩
  | .hbm, ⟨110, _⟩ => ⟨S200000x64, .f32⟩
  | .hbm, ⟨111, _⟩ => ⟨S1x64, .f32⟩
  | .hbm, ⟨112, _⟩ => ⟨S200000x64, .f32⟩
  | .hbm, ⟨113, _⟩ => ⟨S200000x64, .f32⟩
  | .hbm, ⟨114, _⟩ => ⟨S_, .f32⟩
  | .hbm, ⟨115, _⟩ => ⟨S200000x64, .f32⟩
  | .hbm, ⟨116, _⟩ => ⟨S200000x64, .f32⟩
  | .hbm, ⟨117, _⟩ => ⟨S64x1, .f32⟩
  | .hbm, ⟨118, _⟩ => ⟨S200000x1, .f32⟩
  | .hbm, ⟨119, _⟩ => ⟨S1x1, .f32⟩
  | .hbm, ⟨120, _⟩ => ⟨S200000x1, .f32⟩
  | .hbm, ⟨121, _⟩ => ⟨S200000x1, .f32⟩
  | .hbm, ⟨122, _⟩ => ⟨S_, .f32⟩
  | .hbm, ⟨123, _⟩ => ⟨S200000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_9 : Ref sig .tc := ⟨.hbm, 65, rfl⟩
abbrev main_v43 : Ref sig .tc := ⟨.hbm, 66, rfl⟩
abbrev main_v44 : Ref sig .tc := ⟨.hbm, 67, rfl⟩
abbrev main_c_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_12 : Ref sig .tc := ⟨.hbm, 88, rfl⟩
abbrev main_v63 : Ref sig .tc := ⟨.hbm, 89, rfl⟩
abbrev main_v64 : Ref sig .tc := ⟨.hbm, 90, rfl⟩
abbrev main_c_13 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_14 : Ref sig .tc := ⟨.hbm, 99, rfl⟩
abbrev main_v72 : Ref sig .tc := ⟨.hbm, 100, rfl⟩
abbrev main_v73 : Ref sig .tc := ⟨.hbm, 101, rfl⟩
abbrev main_c_15 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_call1_cst : Ref sig .tc := ⟨.hbm, 114, rfl⟩
abbrev main_call1_v0 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_16 : Ref sig .tc := ⟨.hbm, 122, rfl⟩
abbrev main_v91 : Ref sig .tc := ⟨.hbm, 123, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  transposes_S64x128_S128x64_1_0 : S64x128.Transposes [1, 0] S128x64
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  transposes_S1x64_S64x1_1_0 : S1x64.Transposes [1, 0] S64x1
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  reducesTo_S200000x1_S200000_d1 : S200000x1.ReducesTo [1] S200000
  h_S_ : 0 < S_.numel
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x128_S50000x128_1_0_0_1_n_n_wf : DotDims.WF S50000x128 S128x128 S50000x128 [1] [0] [0] [1] [] []
  gather_S50000x128_S200000x1_S200000x128_1_0_n_n_0_1_1128_wf : GatherDims.WF S50000x128 S200000x1 S200000x128 [1] [0] [] [0] [] 1 ![1, 128]
  dot_S200000x128_S128x64_S200000x64_1_0_0_1_n_n_wf : DotDims.WF S200000x128 S128x64 S200000x64 [1] [0] [0] [1] [] []
  dot_S200000x64_S64x1_S200000x1_1_0_0_1_n_n_wf : DotDims.WF S200000x64 S64x1 S200000x1 [1] [0] [0] [1] [] []

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def dot_S200000x64_S64x1_S200000x1_1_0_0_1_n_n : DotDims S200000x64 S64x1 S200000x1 where
  lhsContracting := [1]
  rhsContracting := [0]
  lhsNonContracting := [0]
  rhsNonContracting := [1]
  lhsBatch := []
  rhsBatch := []
  wf := dot_S200000x64_S64x1_S200000x1_1_0_0_1_n_n_wf

class Facts : Prop extends Facts₀ where

variable [Facts]
-- ==== Proof.KRun.lean ====
/-
  The kernel program's run with its result named: every weakly fair execution of @main terminates, nothing faults,
  the result array ends at the contents the last host operation leaves (the fold of @main's stretches and regions
  read at the result's buffer), and the argument arrays end unchanged. The segments, the thread state and the chain
  are those of the frame; only the final reading keeps one more buffer.
-/
import proofs.«155874_j48129403519234_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_value : θ_run defs (onTc (τ := τ) (main (F := F))) ⟨m, fun _ => 0, ρ⟩ (fun r => ∀ c : Dev nD,
      r.2.mem ((c.tc : Thread nD τ).loc main_v74) = W11 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v74 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.KernelIdeal.Hand

end
-- ==== Proof.LibScatterAdd.lean ====
/-
  The host's accumulating float scatter, for row scatters, read at an index on the extended reals.

  A ROW SCATTER has scatter indices of shape [N, 1] holding one row number each; that number names the
  operand's axis 0, which is inserted; the update's remaining axes (none, or one axis of C columns) go to the
  operand's remaining axes. Update row j then lands on operand row (I j), the index read signed, column for
  column, and is dropped when that row is outside the operand. On the extended reals the scatter-add is the
  operand plus the exact sum of the updates landing on each element, so

    result (r)    = Z (r)    + the sum over the update rows j with I j = r of U (j)        (no columns)
    result (r, c) = Z (r, c) + the sum over the update rows j with I j = r of U (j, c)     (C columns)

  for any sizes R (operand rows), N (update rows), C (columns) and any index width. The lemmas are stated for
  the dimension numbers as a record built from any proof of their well-formedness (`dims1 wf`, `dims2 wf`); a
  program's own record of the same four lists is that record, so they apply to it by unification.
-/
import Idealize.ShloMosaic.Lib.ValueIdx
import Idealize.ShloMosaic.Lib.IdealHost
import Idealize.ShloMosaic.Lib.Pipeline.Value
import Idealize.ShloMosaic.PureOps.Contract

noncomputable section

open scoped BigOperators

namespace Cert.ScatterRows

open Idealize.ShloMosaic Idealize.ShloMosaic.ValueIdx

theorem coord_val_congr {s : Shape} (j : s.Idx) {a b : Fin s.rank} (h : a = b) : (j a).val = (j b).val := by
  subst h; rfl

section rank1
variable {R N w : Nat}

/-- The 1-D scatter's dimension numbers, over any sizes. -/
abbrev dims1 (wf : ScatterDims.WF ⟨1, ![R]⟩ ⟨2, ![N, 1]⟩ ⟨1, ![N]⟩ [] [0] [0] 1) :
    ScatterDims ⟨1, ![R]⟩ ⟨2, ![N, 1]⟩ ⟨1, ![N]⟩ := ⟨[], [0], [0], 1, wf⟩

theorem start1 (wf) (a : Fin N) (I : IVec ⟨2, ![N, 1]⟩ w) :
    (dims1 (R := R) wf).start (ix1 a) I 0 = (I (ix2 a 0)).toInt := by
  unfold ScatterDims.start
  rw [dif_pos (List.mem_singleton.2 rfl)]
  congr 2
  funext b
  match b with
  | ⟨0, _⟩ =>
    apply Fin.ext
    simp only [ScatterDims.siIdx, ScatterDims.siCoord]
    rw [dif_neg (by decide)]
    simp only [Fin.coe_cast]
    exact coord_val_congr (ix1 a) rfl
  | ⟨1, _⟩ =>
    apply Fin.ext
    simp [ScatterDims.siIdx]

theorem window1 (wf) (j : (⟨1, ![N]⟩ : Shape).Idx) :
    (dims1 (R := R) wf).window j 0 = 0 := by
  unfold ScatterDims.window
  rw [dif_neg (by simp [Shape.kept])]

theorem resultIdx1 (wf) (a : Fin N) (I : IVec ⟨2, ![N, 1]⟩ w) (r : Fin R) :
    (dims1 (R := R) wf).resultIdx? (ix1 a) I = some (ix1 r) ↔ (I (ix2 a 0)).toInt = (r.val : ℤ) := by
  unfold ScatterDims.resultIdx?
  constructor
  · intro h
    split at h
    · rename_i hh
      have h0 := congrFun (Option.some.inj h) 0
      have h1 := congrArg Fin.val h0
      have h2 := hh 0
      rw [start1, window1] at h2
      change ((dims1 (R := R) wf).start (ix1 a) I 0 + ((dims1 (R := R) wf).window (ix1 a) 0 : ℤ)).toNat = r.val at h1
      rw [start1, window1] at h1
      omega
    · exact absurd h (by simp)
  · intro h
    have hh : ∀ b, 0 ≤ (dims1 (R := R) wf).start (ix1 a) I b + ((dims1 (R := R) wf).window (ix1 a) b : ℤ)
        ∧ (dims1 (R := R) wf).start (ix1 a) I b + ((dims1 (R := R) wf).window (ix1 a) b : ℤ)
          < ((⟨1, ![R]⟩ : Shape).size b : ℤ) := by
      intro b
      match b with
      | ⟨0, _⟩ =>
        have := r.isLt
        change _ ∧ (dims1 (R := R) wf).start (ix1 a) I 0 + ((dims1 (R := R) wf).window (ix1 a) 0 : ℤ) < (R : ℤ)
        change 0 ≤ (dims1 (R := R) wf).start (ix1 a) I 0 + ((dims1 (R := R) wf).window (ix1 a) 0 : ℤ) ∧ _
        rw [start1, window1, h]
        omega
    rw [dif_pos hh]
    congr 1
    funext b
    match b with
    | ⟨0, _⟩ =>
      apply Fin.ext
      change ((dims1 (R := R) wf).start (ix1 a) I 0 + ((dims1 (R := R) wf).window (ix1 a) 0 : ℤ)).toNat = r.val
      rw [start1, window1, h]
      omega

end rank1

section rank1sum
variable {R N w : Nat}

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem scatterAdd1_apply (wf) (Z : (⟨1, ![R]⟩ : Shape).Idx → EReal) (I : IVec ⟨2, ![N, 1]⟩ w)
    (U : (⟨1, ![N]⟩ : Shape).Idx → EReal) (r : Fin R) :
    Ideal.hostScatterAdd (dims1 (R := R) wf) Z I U (ix1 r)
      = Z (ix1 r) + ∑ a : Fin N, if (I (ix2 a 0)).toInt = (r.val : ℤ) then U (ix1 a) else 0 := by
  unfold Ideal.hostScatterAdd
  rw [Finset.sum_filter, sum_idx1]
  congr 1
  apply Finset.sum_congr rfl
  intro a _
  exact if_congr (resultIdx1 wf a I r) rfl rfl

end rank1sum

section rank2
variable {R N C w : Nat}

/-- The row scatter's dimension numbers, over any sizes: the update's rows go to the operand's rows
    the indices name, its columns to the same columns. -/
abbrev dims2 (wf : ScatterDims.WF ⟨2, ![R, C]⟩ ⟨2, ![N, 1]⟩ ⟨2, ![N, C]⟩ [1] [0] [0] 1) :
    ScatterDims ⟨2, ![R, C]⟩ ⟨2, ![N, 1]⟩ ⟨2, ![N, C]⟩ := ⟨[1], [0], [0], 1, wf⟩

theorem start2_0 (wf) (a : Fin N) (c : Fin C) (I : IVec ⟨2, ![N, 1]⟩ w) :
    (dims2 (R := R) wf).start (ix2 a c) I 0 = (I (ix2 a 0)).toInt := by
  unfold ScatterDims.start
  rw [dif_pos (List.mem_singleton.2 rfl)]
  congr 2
  funext b
  match b with
  | ⟨0, _⟩ =>
    apply Fin.ext
    simp only [ScatterDims.siIdx, ScatterDims.siCoord]
    rw [dif_neg (by decide)]
    simp only [Fin.coe_cast]
    exact coord_val_congr (ix2 a c) rfl
  | ⟨1, _⟩ =>
    apply Fin.ext
    simp [ScatterDims.siIdx]

theorem start2_1 (wf) (j : (⟨2, ![N, C]⟩ : Shape).Idx) (I : IVec ⟨2, ![N, 1]⟩ w) :
    (dims2 (R := R) wf).start j I 1 = 0 := by
  unfold ScatterDims.start
  rw [dif_neg (by simp)]

theorem window2_0 (wf) (j : (⟨2, ![N, C]⟩ : Shape).Idx) :
    (dims2 (R := R) wf).window j 0 = 0 := by
  unfold ScatterDims.window
  rw [dif_neg (by simp [Shape.kept])]

theorem window2_1 (wf) (a : Fin N) (c : Fin C) :
    (dims2 (R := R) wf).window (ix2 a c) 1 = c.val := by
  unfold ScatterDims.window
  rw [dif_pos (by simp [Shape.kept])]
  exact coord_val_congr (ix2 a c) rfl

end rank2

section rank2sum
variable {R N C w : Nat}

theorem resultIdx2 (wf) (a : Fin N) (c : Fin C) (I : IVec ⟨2, ![N, 1]⟩ w) (r : Fin R) (c' : Fin C) :
    (dims2 (R := R) wf).resultIdx? (ix2 a c) I = some (ix2 r c')
      ↔ (I (ix2 a 0)).toInt = (r.val : ℤ) ∧ c = c' := by
  unfold ScatterDims.resultIdx?
  constructor
  · intro h
    split at h
    · rename_i hh
      have e := Option.some.inj h
      have h0 := congrArg Fin.val (congrFun e 0)
      have h1 := congrArg Fin.val (congrFun e 1)
      have g0 := hh 0
      rw [start2_0, window2_0] at g0
      change ((dims2 (R := R) wf).start (ix2 a c) I 0 + ((dims2 (R := R) wf).window (ix2 a c) 0 : ℤ)).toNat = r.val at h0
      change ((dims2 (R := R) wf).start (ix2 a c) I 1 + ((dims2 (R := R) wf).window (ix2 a c) 1 : ℤ)).toNat = c'.val at h1
      rw [start2_0, window2_0] at h0
      rw [start2_1, window2_1] at h1
      refine ⟨by omega, Fin.ext (by omega)⟩
    · exact absurd h (by simp)
  · rintro ⟨h, rfl⟩
    have hh : ∀ b, 0 ≤ (dims2 (R := R) wf).start (ix2 a c) I b + ((dims2 (R := R) wf).window (ix2 a c) b : ℤ)
        ∧ (dims2 (R := R) wf).start (ix2 a c) I b + ((dims2 (R := R) wf).window (ix2 a c) b : ℤ)
          < ((⟨2, ![R, C]⟩ : Shape).size b : ℤ) := by
      intro b
      match b with
      | ⟨0, _⟩ =>
        have := r.isLt
        change _ ∧ (dims2 (R := R) wf).start (ix2 a c) I 0 + ((dims2 (R := R) wf).window (ix2 a c) 0 : ℤ) < (R : ℤ)
        change 0 ≤ (dims2 (R := R) wf).start (ix2 a c) I 0 + ((dims2 (R := R) wf).window (ix2 a c) 0 : ℤ) ∧ _
        rw [start2_0, window2_0, h]
        omega
      | ⟨1, _⟩ =>
        have := c.isLt
        change _ ∧ (dims2 (R := R) wf).start (ix2 a c) I 1 + ((dims2 (R := R) wf).window (ix2 a c) 1 : ℤ) < (C : ℤ)
        change 0 ≤ (dims2 (R := R) wf).start (ix2 a c) I 1 + ((dims2 (R := R) wf).window (ix2 a c) 1 : ℤ) ∧ _
        rw [start2_1, window2_1]
        omega
    rw [dif_pos hh]
    congr 1
    funext b
    match b with
    | ⟨0, _⟩ =>
      apply Fin.ext
      change ((dims2 (R := R) wf).start (ix2 a c) I 0 + ((dims2 (R := R) wf).window (ix2 a c) 0 : ℤ)).toNat = r.val
      rw [start2_0, window2_0, h]
      omega
    | ⟨1, _⟩ =>
      apply Fin.ext
      change ((dims2 (R := R) wf).start (ix2 a c) I 1 + ((dims2 (R := R) wf).window (ix2 a c) 1 : ℤ)).toNat = c.val
      rw [start2_1, window2_1]
      omega

/-- Of a row of terms, the ones at one column under a condition that does not depend on the column. -/
theorem sum_and_eq (p : Prop) [Decidable p] (c : Fin C) (f : Fin C → EReal) :
    ∑ c' : Fin C, (if p ∧ c' = c then f c' else 0) = if p then f c else 0 := by
  by_cases hp : p
  · simp [hp]
  · simp [hp]

theorem scatterAdd2_apply (wf) (Z : (⟨2, ![R, C]⟩ : Shape).Idx → EReal) (I : IVec ⟨2, ![N, 1]⟩ w)
    (U : (⟨2, ![N, C]⟩ : Shape).Idx → EReal) (r : Fin R) (c : Fin C) :
    Ideal.hostScatterAdd (dims2 (R := R) wf) Z I U (ix2 r c)
      = Z (ix2 r c) + ∑ a : Fin N, if (I (ix2 a 0)).toInt = (r.val : ℤ) then U (ix2 a c) else 0 := by
  unfold Ideal.hostScatterAdd
  rw [Finset.sum_filter, sum_idx2]
  congr 1
  apply Finset.sum_congr rfl
  intro a _
  rw [← sum_and_eq ((I (ix2 a 0)).toInt = (r.val : ℤ)) c (fun c' => U (ix2 a c'))]
  apply Finset.sum_congr rfl
  intro c' _
  exact if_congr (resultIdx2 wf a c' I r c) rfl rfl

end rank2sum

end Cert.ScatterRows

end
-- ==== Proof.LibGatherRows.lean ====
/-
  The host's gather, for row gathers, read at an index.

  A ROW GATHER has start indices of shape [E, 1] holding one row number each; that number names the operand's
  axis 0, which is collapsed; the operand's remaining axes (none, or one axis of C columns) are taken whole. Result
  row a is then the operand's row (rowOf G a): the start index G (a, 0) read signed and clamped into [0, N - 1], as
  the gather clamps every start index so that the slice fits. So

    result (a)    = operand (rowOf G a)         (no columns)
    result (a, c) = operand (rowOf G a, c)      (C columns)

  for any sizes N (operand rows, positive), E (result rows), C (columns) and any index width. The lemmas are stated
  for the dimension numbers as a record built from any proof of their well-formedness (`dims1 wf`, `dims2 wf`); a
  program's own record of the same lists is that record, so they apply to it by unification.
-/
import Idealize.ShloMosaic.Lib.ValueIdx

noncomputable section

namespace Cert.GatherRows

open Idealize.ShloMosaic Idealize.ShloMosaic.ValueIdx

variable {α : Type} {N E C w : Nat}

/-- The operand row a start index names: read signed, clamped into [0, N - 1]. -/
def rowOf (hN : 0 < N) (G : IVec ⟨2, ![E, 1]⟩ w) (a : Fin E) : Fin N :=
  ⟨min (G (ix2 a 0)).toInt.toNat (N - 1), by omega⟩

/-- A start index that reads as a row number in range names that row. -/
theorem rowOf_eq (hN : 0 < N) (G : IVec ⟨2, ![E, 1]⟩ w) (a : Fin E) (r : Fin N) (h : (G (ix2 a 0)).toInt = (r.val : ℤ)) :
    rowOf hN G a = r := by
  apply Fin.ext
  have := r.isLt
  show min (G (ix2 a 0)).toInt.toNat (N - 1) = r.val
  rw [h]
  simp only [Int.toNat_natCast]
  omega

/-- The 1-D gather's dimension numbers, over any sizes. -/
abbrev dims1 (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ := ⟨[], [0], [], [], [0], 1, ![1], wf⟩

/-- The row gather's dimension numbers, over any sizes. -/
abbrev dims2 (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ := ⟨[1], [0], [], [], [0], 1, ![1, C], wf⟩

/-- THE 1-D GATHER READ AT a: the operand at the row the start index names. -/
theorem gather1_apply (hN : 0 < N) (wf) (x : (⟨1, ![N]⟩ : Shape).Idx → α) (G : IVec ⟨2, ![E, 1]⟩ w) (a : Fin E) :
    Host.gather (dims1 (N := N) (E := E) wf) x G (ix1 a) = x (ix1 (rowOf hN G a)) := by
  unfold Host.gather
  congr 1
  funext b
  obtain rfl : b = 0 := Subsingleton.elim _ _
  refine Fin.ext ?_
  show (dims1 (N := N) (E := E) wf).start (ix1 a) G 0 + (dims1 (N := N) (E := E) wf).batchCoord (ix1 a) 0
      + (dims1 (N := N) (E := E) wf).offCoord (ix1 a) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (dims1 (N := N) (E := E) wf).startIndexMap from List.mem_singleton.mpr rfl)]
  have hsi : (dims1 (N := N) (E := E) wf).siIdx (ix1 a) ⟨List.idxOf (0 : Fin 1) (dims1 (N := N) (E := E) wf).startIndexMap,
      List.idxOf_lt_length_iff.2 (List.mem_singleton.mpr rfl)⟩ = ix2 a 0 := by
    funext c; refine Fin.ext ?_
    match c with
    | ⟨0, _⟩ => rfl
    | ⟨1, _⟩ => rfl
  rw [hsi]
  rfl

/-- THE ROW GATHER READ AT (a, c): the operand at the row the start index names, same column. -/
theorem gather2_apply (hN : 0 < N) (wf) (x : (⟨2, ![N, C]⟩ : Shape).Idx → α) (G : IVec ⟨2, ![E, 1]⟩ w) (a : Fin E) (c : Fin C) :
    Host.gather (dims2 (N := N) (E := E) (C := C) wf) x G (ix2 a c) = x (ix2 (rowOf hN G a) c) := by
  unfold Host.gather
  congr 1
  funext b
  refine Fin.ext ?_
  match b with
  | ⟨0, _⟩ =>
    -- the collapsed row axis: the clamped start index, no batching coordinate, no offset
    show (dims2 (N := N) (E := E) (C := C) wf).start (ix2 a c) G 0
        + (dims2 (N := N) (E := E) (C := C) wf).batchCoord (ix2 a c) 0
        + (dims2 (N := N) (E := E) (C := C) wf).offCoord (ix2 a c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims2 (N := N) (E := E) (C := C) wf).startIndexMap from List.mem_singleton.mpr rfl)]
    have hsi : (dims2 (N := N) (E := E) (C := C) wf).siIdx (ix2 a c)
        ⟨List.idxOf (0 : Fin 2) (dims2 (N := N) (E := E) (C := C) wf).startIndexMap,
          List.idxOf_lt_length_iff.2 (List.mem_singleton.mpr rfl)⟩ = ix2 a 0 := by
      funext e; refine Fin.ext ?_
      match e with
      | ⟨0, _⟩ => rfl
      | ⟨1, _⟩ => rfl
    rw [hsi]
    rfl
  | ⟨1, _⟩ =>
    -- the column axis, taken whole: start 0, no batching coordinate, the result's column as offset
    show (dims2 (N := N) (E := E) (C := C) wf).start (ix2 a c) G 1
        + (dims2 (N := N) (E := E) (C := C) wf).batchCoord (ix2 a c) 1
        + (dims2 (N := N) (E := E) (C := C) wf).offCoord (ix2 a c) 1 = c.val
    rw [GatherDims.batchCoord_eq_zero _ _ _ List.not_mem_nil]
    have hst : (dims2 (N := N) (E := E) (C := C) wf).start (ix2 a c) G 1 = 0 := by
      unfold GatherDims.start
      rw [dif_neg (by simp)]
    have hk : (1 : Fin 2) ∈ (dims2 (N := N) (E := E) (C := C) wf).sKept :=
      (GatherDims.mem_sKept _ _).mpr ⟨by simp, List.not_mem_nil⟩
    have hoff : (dims2 (N := N) (E := E) (C := C) wf).offCoord (ix2 a c) 1 = c.val := by
      unfold GatherDims.offCoord
      rw [dif_pos hk]
      rfl
    rw [hst, hoff]
    simp

end Cert.GatherRows

end
-- ==== Proof.LibIndexWrap.lean ====
/-
  Integer index arrays: what a signed "non-negative" test says at an index, and that the normalisation of a
  negative index leaves a non-negative index as it is.

  An index array v is normalised as  where (v < 0) (v + n) v  (n the extent of the axis indexed), so that -1
  names the last position. Where the index is already non-negative the normalised index is the index itself;
  a program that normalises and one that does not then read, and write, the same positions. The facts are
  stated at one index of arrays of any shape and width: the comparand only has to be the zero word THERE,
  which a broadcast zero is everywhere.
-/
import Idealize.ShloMosaic.Lib.ValueIdx
import Idealize.ShloMosaic.Lib.Affine

namespace Cert.IndexWrap

open Idealize.ShloMosaic

variable {s : Shape} {w : Nat}

/-- The signed test  v ≥ z  holding at an index where z is the zero word says the index there, read signed,
    is non-negative. -/
theorem nonneg_of_sge (v z : IVec s w) (i : s.Idx) (hz : z i = 0#w) (h : cmpi .sge v z i = 1#1) :
    0 ≤ (v i).toInt := by
  have h' : (z i).toInt ≤ (v i).toInt := IntOp.cmpi_sge.1 h
  rw [hz, BitVec.toInt_zero] at h'
  exact h'

/-- The signed test  v < z  at an index where z is the zero word and v is non-negative is the word 0. -/
theorem slt_eq_zero_of_nonneg (v z : IVec s w) (i : s.Idx) (hz : z i = 0#w) (hv : 0 ≤ (v i).toInt) :
    cmpi .slt v z i = 0#1 := by
  rcases BitVec.eq_zero_or_eq_one (cmpi .slt v z i) with h0 | h1
  · exact h0
  · have h' : (v i).toInt < (z i).toInt := IntOp.cmpi_slt.1 h1
    rw [hz, BitVec.toInt_zero] at h'
    omega

/-- THE NORMALISATION OF A NON-NEGATIVE INDEX IS THE INDEX:  where (v < 0) (v + n) v  at an index where v,
    read signed, is non-negative, is v there — whatever n is. -/
theorem wrap_of_nonneg (v z n : IVec s w) (i : s.Idx) (hz : z i = 0#w) (hv : 0 ≤ (v i).toInt) :
    select (cmpi .slt v z) (addi v n) v i = v i := by
  show Scalar.select (cmpi .slt v z i) (addi v n i) (v i) = v i
  rw [slt_eq_zero_of_nonneg v z i hz hv]
  exact if_neg (by decide)

/-- The same for the whole array, when the comparand is zero and the index non-negative everywhere. -/
theorem wrap_eq_self (v z n : IVec s w) (hz : ∀ i, z i = 0#w) (hv : ∀ i, 0 ≤ (v i).toInt) :
    select (cmpi .slt v z) (addi v n) v = v :=
  funext fun i => wrap_of_nonneg v z n i (hz i) (hv i)

end Cert.IndexWrap
-- ==== Proof.LibHostRead.lean ====
/-
  Host operations of an array program read at an index of literal coordinates, on the extended reals.

  A reference written with array operations spreads a row statistic over the row, views a flat axis as two, cuts one
  plane out of a stack, and sums along the last axis. Each operation, applied at an index built from its coordinates,
  reads its operand at ONE index; the lemmas below name that index.

  * broadcasts: `[a,b] → [a,b,1]`, `[a,b,1] → [a,b,c]`, `[b,c] → [1,b,c]`, `[1,b,c] → [a,b,c]`, `[a] → [a,1]`,
    `[a,1] → [a,c]`, `[c] → [1,c]`, `[1,c] → [a,c]`;
  * reshapes: `[a,n] → [a,b,c]` and `[n] → [b,c]` with `n = b·c` (position `g·c + k` of the flat axis), and
    `[a,1,c] → [a,c]`;
  * a unit-thick slice `[a,b,c] → [a,1,c]` at offset `g` of the middle axis;
  * the sum along the last axis of a rank-3 and of a rank-2 array: the initial value plus `∑ k`;
  * a product of two matrices contracting ONE axis of extent `n`: `∑ k : Fin n` of the operands at index families
    the caller names once.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.HostRead

open Idealize.ShloMosaic Idealize.ShloMosaic.ValueIdx

variable {α : Type}

/-! ## Broadcasts -/

/-- `[a,b] → [a,b,1]`: at `(r, g, u)` the operand at `(r, g)`. -/
theorem bcast_ab_ab1_apply {a b : ℕ} (x : (⟨2, ![a, b]⟩ : Shape).Idx → α)
    (h : (⟨2, ![a, b]⟩ : Shape).BroadcastsInDim ⟨3, ![a, b, 1]⟩ (![0, 1] : Fin 2 → Fin (⟨3, ![a, b, 1]⟩ : Shape).rank))
    (r : Fin a) (g : Fin b) (u : Fin 1) :
    broadcastInDim ⟨3, ![a, b, 1]⟩ ![0, 1] h x (ix3 r g u) = x (ix2 r g) := by
  refine broadcastInDim_apply _ h x (ix3 r g u) (ix2 r g) fun ax => ?_
  match ax with
  | ⟨0, _⟩ =>
    show r.val = if a = 1 then 0 else r.val
    split
    · have := r.isLt; omega
    · rfl
  | ⟨1, _⟩ =>
    show g.val = if b = 1 then 0 else g.val
    split
    · have := g.isLt; omega
    · rfl

/-- `[a,b,1] → [a,b,c]`: at `(r, g, k)` the operand at `(r, g, 0)`. -/
theorem bcast_ab1_abc_apply {a b c : ℕ} (v : (⟨3, ![a, b, 1]⟩ : Shape).Idx → α)
    (h : (⟨3, ![a, b, 1]⟩ : Shape).BroadcastsInDim ⟨3, ![a, b, c]⟩ (![0, 1, 2] : Fin 3 → Fin (⟨3, ![a, b, c]⟩ : Shape).rank))
    (r : Fin a) (g : Fin b) (k : Fin c) :
    broadcastInDim ⟨3, ![a, b, c]⟩ ![0, 1, 2] h v (ix3 r g k) = v (ix3 r g (0 : Fin 1)) := by
  refine broadcastInDim_apply _ h v (ix3 r g k) (ix3 r g (0 : Fin 1)) fun ax => ?_
  match ax with
  | ⟨0, _⟩ =>
    show r.val = if a = 1 then 0 else r.val
    split
    · have := r.isLt; omega
    · rfl
  | ⟨1, _⟩ =>
    show g.val = if b = 1 then 0 else g.val
    split
    · have := g.isLt; omega
    · rfl
  | ⟨2, _⟩ => rfl

/-- `[b,c] → [1,b,c]`: at `(u, g, k)` the operand at `(g, k)`. -/
theorem bcast_bc_1bc_apply {b c : ℕ} (x : (⟨2, ![b, c]⟩ : Shape).Idx → α)
    (h : (⟨2, ![b, c]⟩ : Shape).BroadcastsInDim ⟨3, ![1, b, c]⟩ (![1, 2] : Fin 2 → Fin (⟨3, ![1, b, c]⟩ : Shape).rank))
    (u : Fin 1) (g : Fin b) (k : Fin c) :
    broadcastInDim ⟨3, ![1, b, c]⟩ ![1, 2] h x (ix3 u g k) = x (ix2 g k) := by
  refine broadcastInDim_apply _ h x (ix3 u g k) (ix2 g k) fun ax => ?_
  match ax with
  | ⟨0, _⟩ =>
    show g.val = if b = 1 then 0 else g.val
    split
    · have := g.isLt; omega
    · rfl
  | ⟨1, _⟩ =>
    show k.val = if c = 1 then 0 else k.val
    split
    · have := k.isLt; omega
    · rfl

/-- `[1,b,c] → [a,b,c]`: at `(r, g, k)` the operand at `(0, g, k)`. -/
theorem bcast_1bc_abc_apply {a b c : ℕ} (v : (⟨3, ![1, b, c]⟩ : Shape).Idx → α)
    (h : (⟨3, ![1, b, c]⟩ : Shape).BroadcastsInDim ⟨3, ![a, b, c]⟩ (![0, 1, 2] : Fin 3 → Fin (⟨3, ![a, b, c]⟩ : Shape).rank))
    (r : Fin a) (g : Fin b) (k : Fin c) :
    broadcastInDim ⟨3, ![a, b, c]⟩ ![0, 1, 2] h v (ix3 r g k) = v (ix3 (0 : Fin 1) g k) := by
  refine broadcastInDim_apply _ h v (ix3 r g k) (ix3 (0 : Fin 1) g k) fun ax => ?_
  match ax with
  | ⟨0, _⟩ => rfl
  | ⟨1, _⟩ =>
    show g.val = if b = 1 then 0 else g.val
    split
    · have := g.isLt; omega
    · rfl
  | ⟨2, _⟩ =>
    show k.val = if c = 1 then 0 else k.val
    split
    · have := k.isLt; omega
    · rfl

/-- `[a] → [a,1]`: at `(r, u)` the operand at `r`. -/
theorem bcast_a_a1_apply {a : ℕ} (x : (⟨1, ![a]⟩ : Shape).Idx → α)
    (h : (⟨1, ![a]⟩ : Shape).BroadcastsInDim ⟨2, ![a, 1]⟩ (![0] : Fin 1 → Fin (⟨2, ![a, 1]⟩ : Shape).rank))
    (r : Fin a) (u : Fin 1) :
    broadcastInDim ⟨2, ![a, 1]⟩ ![0] h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- `[a,1] → [a,c]`: at `(r, k)` the operand at `(r, 0)`. -/
theorem bcast_a1_ac_apply {a c : ℕ} (v : (⟨2, ![a, 1]⟩ : Shape).Idx → α)
    (h : (⟨2, ![a, 1]⟩ : Shape).BroadcastsInDim ⟨2, ![a, c]⟩ (![0, 1] : Fin 2 → Fin (⟨2, ![a, c]⟩ : Shape).rank))
    (r : Fin a) (k : Fin c) :
    broadcastInDim ⟨2, ![a, c]⟩ ![0, 1] h v (ix2 r k) = v (ix2 r (0 : Fin 1)) := by
  refine broadcastInDim_apply _ h v (ix2 r k) (ix2 r (0 : Fin 1)) fun ax => ?_
  match ax with
  | ⟨0, _⟩ =>
    show r.val = if a = 1 then 0 else r.val
    split
    · have := r.isLt; omega
    · rfl
  | ⟨1, _⟩ => rfl

/-- `[c] → [1,c]`: at `(u, k)` the operand at `k`. -/
theorem bcast_c_1c_apply {c : ℕ} (x : (⟨1, ![c]⟩ : Shape).Idx → α)
    (h : (⟨1, ![c]⟩ : Shape).BroadcastsInDim ⟨2, ![1, c]⟩ (![1] : Fin 1 → Fin (⟨2, ![1, c]⟩ : Shape).rank))
    (u : Fin 1) (k : Fin c) :
    broadcastInDim ⟨2, ![1, c]⟩ ![1] h x (ix2 u k) = x (ix1 k) := by
  refine broadcastInDim_apply _ h x (ix2 u k) (ix1 k) fun ax => ?_
  match ax with
  | ⟨0, _⟩ =>
    show k.val = if c = 1 then 0 else k.val
    split
    · have := k.isLt; omega
    · rfl

/-- `[1,c] → [a,c]`: at `(r, k)` the operand at `(0, k)`. -/
theorem bcast_1c_ac_apply {a c : ℕ} (v : (⟨2, ![1, c]⟩ : Shape).Idx → α)
    (h : (⟨2, ![1, c]⟩ : Shape).BroadcastsInDim ⟨2, ![a, c]⟩ (![0, 1] : Fin 2 → Fin (⟨2, ![a, c]⟩ : Shape).rank))
    (r : Fin a) (k : Fin c) :
    broadcastInDim ⟨2, ![a, c]⟩ ![0, 1] h v (ix2 r k) = v (ix2 (0 : Fin 1) k) := by
  refine broadcastInDim_apply _ h v (ix2 r k) (ix2 (0 : Fin 1) k) fun ax => ?_
  match ax with
  | ⟨0, _⟩ => rfl
  | ⟨1, _⟩ =>
    show k.val = if c = 1 then 0 else k.val
    split
    · have := k.isLt; omega
    · rfl

/-! ## Reshapes -/

/-- `[a,n] → [a,b,c]` with `n = b·c`: at `(r, g, k)` the operand at `(r, q)`, `q = g·c + k`. -/
theorem shapeCast_an_abc_apply {a n b c : ℕ} (hn : n = b * c) (x : (⟨2, ![a, n]⟩ : Shape).Idx → α)
    (h : (⟨2, ![a, n]⟩ : Shape).ShapeCasts ⟨3, ![a, b, c]⟩) (r : Fin a) (g : Fin b) (k : Fin c) (q : Fin n)
    (hq : q.val = g.val * c + k.val) :
    shapeCast ⟨3, ![a, b, c]⟩ x h (ix3 r g k) = x (ix2 r q) :=
  shapeCast_apply x h _ _ (by
    rw [Shape.rowMajor_val_two, Shape.rowMajor_val_three]
    show r.val * n + q.val = (r.val * b + g.val) * c + k.val
    rw [hq, hn, Nat.add_mul, Nat.mul_assoc, Nat.add_assoc])

/-- `[n] → [b,c]`: at `(g, k)` the operand at `q = g·c + k`. -/
theorem shapeCast_n_bc_apply {n b c : ℕ} (x : (⟨1, ![n]⟩ : Shape).Idx → α)
    (h : (⟨1, ![n]⟩ : Shape).ShapeCasts ⟨2, ![b, c]⟩) (g : Fin b) (k : Fin c) (q : Fin n)
    (hq : q.val = g.val * c + k.val) :
    shapeCast ⟨2, ![b, c]⟩ x h (ix2 g k) = x (ix1 q) :=
  shapeCast_apply x h _ _ (by
    rw [Shape.rowMajor_val_one, Shape.rowMajor_val_two]
    exact hq)

/-- `[a,1,c] → [a,c]`: at `(r, k)` the operand at `(r, 0, k)`. -/
theorem shapeCast_a1c_ac_apply {a c : ℕ} (x : (⟨3, ![a, 1, c]⟩ : Shape).Idx → α)
    (h : (⟨3, ![a, 1, c]⟩ : Shape).ShapeCasts ⟨2, ![a, c]⟩) (r : Fin a) (k : Fin c) :
    shapeCast ⟨2, ![a, c]⟩ x h (ix2 r k) = x (ix3 r (0 : Fin 1) k) :=
  shapeCast_apply x h _ _ (by
    rw [Shape.rowMajor_val_three, Shape.rowMajor_val_two]
    show (r.val * 1 + 0) * c + k.val = r.val * c + k.val
    rw [Nat.mul_one, Nat.add_zero])

/-! ## A unit-thick slice of the middle axis -/

/-- `[a,b,c] → [a,1,c]` at offset `o` of the middle axis: at `(r, u, k)` the operand at `(r, g, k)`, `g = o`. -/
theorem slice_mid_apply {a b c : ℕ} (o : ℕ) (x : (⟨3, ![a, b, c]⟩ : Shape).Idx → α)
    (h : (⟨3, ![a, b, c]⟩ : Shape).Slices ![0, o, 0] ⟨3, ![a, 1, c]⟩) (r : Fin a) (u : Fin 1) (k : Fin c) (g : Fin b)
    (hg : g.val = o) :
    extractStridedSlice ⟨3, ![a, 1, c]⟩ ![0, o, 0] x h (ix3 r u k) = x (ix3 r g k) := by
  refine extractStridedSlice_apply _ x h (ix3 r u k) (ix3 r g k) fun ax => ?_
  match ax with
  | ⟨0, _⟩ => show r.val = 0 + r.val; omega
  | ⟨1, _⟩ => show g.val = o + u.val; omega
  | ⟨2, _⟩ => show k.val = 0 + k.val; omega

/-! ## Sums along the last axis -/

/-- Over `(r, g)`, the rank-3 index whose last coordinate is `k` is `(r, g, k)`. -/
theorem lift_last3 {a b c : ℕ} (h : (⟨3, ![a, b, c]⟩ : Shape).Reduces [(2 : Fin 3)] ⟨2, ![a, b]⟩) (r : Fin a) (g : Fin b)
    (k : Fin c) : h.lift (ix2 r g) k = ix3 r g k := by
  funext d
  refine Fin.ext ?_
  match d with
  | ⟨0, _⟩ => rfl
  | ⟨1, _⟩ => rfl
  | ⟨2, _⟩ => rfl

/-- Over `r`, the rank-2 index whose last coordinate is `k` is `(r, k)`. -/
theorem lift_last2 {a c : ℕ} (h : (⟨2, ![a, c]⟩ : Shape).Reduces [(1 : Fin 2)] ⟨1, ![a]⟩) (r : Fin a) (k : Fin c) :
    h.lift (ix1 r) k = ix2 r k := by
  funext d
  refine Fin.ext ?_
  match d with
  | ⟨0, _⟩ => rfl
  | ⟨1, _⟩ => rfl

/-- The host sum of a rank-3 array along its last axis, at `(r, g)`: the initial value plus `∑ k, x (r, g, k)`. -/
theorem reduceAdd_last3_apply {a b c : ℕ} {φ : FTy} {u : Shape} (x : FVec Ideal ⟨3, ![a, b, c]⟩ φ) (init : u.Idx → Ideal φ)
    (h' : (⟨3, ![a, b, c]⟩ : Shape).ReducesTo [(2 : Fin 3)] ⟨2, ![a, b]⟩) (hu : 0 < u.numel)
    (h : (⟨3, ![a, b, c]⟩ : Shape).Reduces [(2 : Fin 3)] ⟨2, ![a, b]⟩) (r : Fin a) (g : Fin b) :
    Host.reduceAdd x init h' hu (ix2 r g) = init (Shape.Idx.first hu) + ∑ k : Fin c, x (ix3 r g k) := by
  refine (hostReduceAdd_apply x init h' hu (ix2 r g)).trans ?_
  refine (Ideal.hostReduceAdd_single h' h x _ (ix2 r g)).trans ?_
  exact congrArg (_ + ·) (Finset.sum_congr rfl fun k _ => congrArg x (lift_last3 h r g k))

/-- The host sum of a rank-2 array along its last axis, at `r`: the initial value plus `∑ k, x (r, k)`. -/
theorem reduceAdd_last2_apply {a c : ℕ} {φ : FTy} {u : Shape} (x : FVec Ideal ⟨2, ![a, c]⟩ φ) (init : u.Idx → Ideal φ)
    (h' : (⟨2, ![a, c]⟩ : Shape).ReducesTo [(1 : Fin 2)] ⟨1, ![a]⟩) (hu : 0 < u.numel)
    (h : (⟨2, ![a, c]⟩ : Shape).Reduces [(1 : Fin 2)] ⟨1, ![a]⟩) (r : Fin a) :
    Host.reduceAdd x init h' hu (ix1 r) = init (Shape.Idx.first hu) + ∑ k : Fin c, x (ix2 r k) := by
  refine (hostReduceAdd_apply x init h' hu (ix1 r)).trans ?_
  refine (Ideal.hostReduceAdd_single h' h x _ (ix1 r)).trans ?_
  exact congrArg (_ + ·) (Finset.sum_congr rfl fun k _ => congrArg x (lift_last2 h r k))

/-! ## A product contracting one axis -/

/-- A host matrix product whose dimension numbers contract ONE axis of extent `n`, at an output index `j`:
    `∑ k : Fin n, lhs (L k) * rhs (R k)`, where `L k`, `R k` are the operand indices the dimension numbers assign to
    `j` and the contraction coordinate `k`. -/
theorem dotGeneral_read {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ k, D.lhsIdx j ((contrEquiv1 D n hr hs).symm k) = L k)
    (hr' : ∀ k, D.rhsIdx j ((contrEquiv1 D n hr hs).symm k) = R k) :
    Host.dotGeneral D prec lhs rhs j = ∑ k : Fin n, lhs (L k) * rhs (R k) := by
  simp only [Host.dotGeneral]
  rw [Ideal.dotGeneral_apply, ← Equiv.sum_comp (contrEquiv1 D n hr hs).symm]
  exact Finset.sum_congr rfl fun k _ => by rw [hl k, hr' k]

end Cert.HostRead

end
-- ==== Proof.LibPlainDot.lean ====
/-
  A plain matrix product read at an index. For the dimension numbers that contract the second axis of an `M × K`
  array with the first axis of a `K × N` array and keep the other two axes in order, both the `dot_general`
  of the two arrays and their `matmul` into a zero accumulator are, at the extended reals, the textbook sum
  `∑ k, X (r, k) · W (k, c)`: the contraction shape has one axis of extent `K`, its indices are re-indexed by `Fin K`,
  and each operand index is read coordinate by coordinate.
-/
import Idealize.ShloMosaic.PureOps.Ideal
import Idealize.ShloMosaic.PureOps.Ideal.Laws
import Idealize.ShloMosaic.Lib.ValueIdx

noncomputable section

open scoped BigOperators

namespace Cert.Proof.PlainDot

open Idealize.ShloMosaic Idealize.ShloMosaic.ValueIdx

variable {M K N : Nat}

/-- The left operand's row coordinate is the output's row coordinate: axis 0 of the left is its one free axis. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position: axis 1 of the left is the contracted one. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction position: axis 0 of the right is the contracted one. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the output's column coordinate: axis 1 of the right is its one free axis. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At contraction position `k` (put on the contraction shape's one axis) the left operand is read at `(r, k)`. -/
theorem lhsIdx_plain (i : (⟨2, ![M, N]⟩ : Shape).Idx) (k : Fin K) :
    (DotDims.plain M K N).lhsIdx i ((contrEquiv1 (DotDims.plain M K N) K rfl rfl).symm k) = ix2 (i 0) k := by
  have hk := contrEquiv1_symm_val (DotDims.plain M K N) K rfl rfl k
  funext a
  refine Fin.ext ?_
  match a with
  | ⟨0, _⟩ => exact lhs_row i _
  | ⟨1, _⟩ => exact (lhs_col i _).trans hk

/-- At contraction position `k` the right operand is read at `(k, c)`. -/
theorem rhsIdx_plain (i : (⟨2, ![M, N]⟩ : Shape).Idx) (k : Fin K) :
    (DotDims.plain M K N).rhsIdx i ((contrEquiv1 (DotDims.plain M K N) K rfl rfl).symm k) = ix2 k (i 1) := by
  have hk := contrEquiv1_symm_val (DotDims.plain M K N) K rfl rfl k
  funext a
  refine Fin.ext ?_
  match a with
  | ⟨0, _⟩ => exact (rhs_row i _).trans hk
  | ⟨1, _⟩ => exact rhs_col i _

/-- The sum over the contraction shape's indices of the operands' products is the sum over `k : Fin K` of
    `X (r, k) · W (k, c)`. -/
theorem sum_contr_plain {φ₁ φ₂ : FTy} (X : FVec Ideal ⟨2, ![M, K]⟩ φ₁) (W : FVec Ideal ⟨2, ![K, N]⟩ φ₂)
    (i : (⟨2, ![M, N]⟩ : Shape).Idx) :
    (∑ q : (DotDims.plain M K N).contr.Idx, X ((DotDims.plain M K N).lhsIdx i q) * W ((DotDims.plain M K N).rhsIdx i q))
      = ∑ k : Fin K, X (ix2 (i 0) k) * W (ix2 k (i 1)) := by
  rw [← Equiv.sum_comp (contrEquiv1 (DotDims.plain M K N) K rfl rfl).symm]
  refine Finset.sum_congr rfl fun k _ => ?_
  exact congrArg₂ (· * ·) (congrArg X (lhsIdx_plain i k)) (congrArg W (rhsIdx_plain i k))

/-- The `dot_general` with the plain dimension numbers, at the extended reals, is the matrix product:
    entry `(r, c)` is `∑ k, X (r, k) · W (k, c)`, whatever the precision and the schedule key. -/
theorem dotGeneral_plain {φ₁ φ₂ : FTy} (prec : Option ContractPrecision) (sched : HostSchedule)
    (X : FVec Ideal ⟨2, ![M, K]⟩ φ₁) (W : FVec Ideal ⟨2, ![K, N]⟩ φ₂) (i : (⟨2, ![M, N]⟩ : Shape).Idx) :
    FloatOps.dotGeneral (DotDims.plain M K N) prec sched X W i = ∑ k : Fin K, X (ix2 (i 0) k) * W (ix2 k (i 1)) := by
  rw [Ideal.dotGeneral_apply]
  exact sum_contr_plain X W i

/-- The `matmul` with the plain dimension numbers into the zero accumulator, at the extended reals, is the matrix
    product: entry `(r, c)` is `∑ k, X (r, k) · W (k, c)`. -/
theorem matmul_plain_zero {φ₁ φ₂ : FTy} (prec : Option ContractPrecision)
    (X : FVec Ideal ⟨2, ![M, K]⟩ φ₁) (W : FVec Ideal ⟨2, ![K, N]⟩ φ₂) (i : (⟨2, ![M, N]⟩ : Shape).Idx) :
    FloatOps.matmul (DotDims.plain M K N) prec X W (constant ⟨2, ![M, N]⟩ .f32 0x00000000#32) i
      = ∑ k : Fin K, X (ix2 (i 0) k) * W (ix2 k (i 1)) := by
  rw [Ideal.matmul_constant_zero_apply]
  exact sum_contr_plain X W i

end Cert.Proof.PlainDot

end
-- ==== Proof.LibGcnSpec.lean ====
/-
  Two layers of a graph convolution with symmetric degree normalisation, on the extended reals, in two arrangements,
  and that the two agree.

  The graph: `E` edges over `N` nodes; edge `a` reads its features from node `σ a` and is added into node `r`
  exactly when `land a r` holds (an edge whose target is out of range lands nowhere); `w a` is its weight and
  `dis u` the per-node scale (the inverse square root of the weighted in-degree, or zero).

  * The reference arrangement weights every edge by `(dis (σ a) · w a) · dis (δ a)`, where `δ a` is the target
    read back as a node (`δ a = r` whenever `land a r`), aggregates `X W` with those weights and adds the bias.
  * The other arrangement scales the rows of `X W` by `dis` BEFORE the edges read them, aggregates with the bare
    weights `w a`, and scales row `r` of the aggregate by `dis r` afterwards.

  They agree because a node's scale does not depend on the edge: `(∑ₐ tₐ) · dis r = ∑ₐ tₐ · dis r`. On the extended
  reals that law needs the factor to be a non-negative number other than `+∞` — which every `dis r` is, whatever
  the inputs: the inverse square root of a positive extended real is a non-negative real (`+∞ ↦ 0`), and elsewhere
  `dis` is zero. Products are only re-associated and commuted, which the extended reals allow without conditions.
  No entry of the inputs is asked to be finite.
-/
import Idealize.ShloMosaic.PureOps.Ideal

noncomputable section

open scoped BigOperators

namespace Cert.Proof.Gcn

open Idealize.ShloMosaic

/-! ## The per-node scale is a non-negative number below `+∞` -/

/-- The inverse square root of a positive extended real is non-negative and not `+∞`. -/
theorem rsqrt_nonneg_ne_top {x : EReal} (hx : 0 < x) : 0 ≤ Ideal.rsqrt x ∧ Ideal.rsqrt x ≠ ⊤ := by
  induction x using EReal.rec with
  | bot => exact absurd hx (by simp)
  | top => exact ⟨by simp, by simp⟩
  | coe r =>
    have hr : 0 < r := by exact_mod_cast hx
    rw [Ideal.rsqrt_coe, if_neg (not_lt.2 hr.le), if_neg hr.ne']
    exact ⟨by exact_mod_cast (inv_nonneg.2 (Real.sqrt_nonneg r)), EReal.coe_ne_top _⟩

/-- The guarded scale — the inverse square root where the degree is positive, zero elsewhere — is non-negative
    and not `+∞`. -/
theorem guarded_nonneg_ne_top (deg : EReal) :
    0 ≤ (if 0 < deg then Ideal.rsqrt deg else 0) ∧ (if 0 < deg then Ideal.rsqrt deg else 0) ≠ ⊤ := by
  by_cases h : 0 < deg
  · rw [if_pos h]; exact rsqrt_nonneg_ne_top h
  · rw [if_neg h]; exact ⟨le_rfl, EReal.zero_ne_top⟩

/-! ## A non-negative number below `+∞` distributes over a finite sum -/

theorem sum_mul_of_nonneg {ι : Type*} (s : Finset ι) (f : ι → EReal) {x : EReal} (hx : 0 ≤ x) (hx' : x ≠ ⊤) :
    (∑ i ∈ s, f i) * x = ∑ i ∈ s, f i * x := by
  classical
  induction s using Finset.induction_on with
  | empty => simp
  | insert a s ha ih =>
    rw [Finset.sum_insert ha, Finset.sum_insert ha, EReal.right_distrib_of_nonneg_of_ne_top hx hx', ih]

/-! ## The two arrangements -/

variable {N E K : ℕ}

/-- One aggregation: entry `(r, c)` is the sum over the edges landing on `r` of the source row's entry times
    the edge's weight (from zero, as the scatter starts from a zero array). -/
def agg (land : Fin E → Fin N → Prop) [∀ a r, Decidable (land a r)] (σ : Fin E → Fin N)
    (H : Fin N → Fin K → EReal) (v : Fin E → EReal) (r : Fin N) (c : Fin K) : EReal :=
  0 + ∑ a : Fin E, if land a r then H (σ a) c * v a else 0

/-- The matrix product `X W`. -/
def dense (X : Fin N → Fin K → EReal) (W : Fin K → Fin K → EReal) (u : Fin N) (c : Fin K) : EReal :=
  ∑ j : Fin K, X u j * W j c

/-- The reference's weight of an edge: `(dis (σ a) · w a) · dis (δ a)`. -/
def edgeNorm (σ δ : Fin E → Fin N) (dis : Fin N → EReal) (w : Fin E → EReal) (a : Fin E) : EReal :=
  (dis (σ a) * w a) * dis (δ a)

section
variable (land : Fin E → Fin N → Prop) [∀ a r, Decidable (land a r)] (σ δ : Fin E → Fin N)
  (dis : Fin N → EReal) (w : Fin E → EReal)
  (X : Fin N → Fin K → EReal) (W1 : Fin K → Fin K → EReal) (b1 : Fin K → EReal)
  (W2 : Fin K → Fin K → EReal) (b2 : Fin K → EReal)

/-- The reference's hidden layer: the first convolution, rectified. -/
def refHidden (u : Fin N) (j : Fin K) : EReal :=
  max (agg land σ (dense X W1) (edgeNorm σ δ dis w) u j + b1 j) 0

/-- The reference's output: the second convolution of the hidden layer. -/
def refOut (r : Fin N) (c : Fin K) : EReal :=
  agg land σ (dense (refHidden land σ δ dis w X W1 b1) W2) (edgeNorm σ δ dis w) r c + b2 c

/-- The first product with its rows already scaled. -/
def kerFirst (u : Fin N) (j : Fin K) : EReal := dense X W1 u j * dis u

/-- The other arrangement's hidden layer: the aggregate of the scaled rows with the bare weights, its rows scaled,
    the bias added, rectified. -/
def kerHidden (u : Fin N) (j : Fin K) : EReal :=
  max (agg land σ (kerFirst dis X W1) w u j * dis u + b1 j) 0

/-- The second product of the hidden layer, its rows scaled. -/
def kerSecond (u : Fin N) (c : Fin K) : EReal := dense (kerHidden land σ dis w X W1 b1) W2 u c * dis u

/-- The other arrangement's output. -/
def kerOut (r : Fin N) (c : Fin K) : EReal :=
  dis r * agg land σ (kerSecond land σ dis w X W1 b1 W2) w r c + b2 c

variable {land σ δ dis w}

/-- Scaling an aggregate's row by a non-negative number below `+∞` scales every edge's weight. -/
theorem agg_mul (H : Fin N → Fin K → EReal) (v : Fin E → EReal) (r : Fin N) (c : Fin K) {x : EReal}
    (hx : 0 ≤ x) (hx' : x ≠ ⊤) :
    agg land σ H v r c * x = agg land σ H (fun a => v a * x) r c := by
  unfold agg
  rw [zero_add, zero_add, sum_mul_of_nonneg _ _ hx hx']
  refine Finset.sum_congr rfl fun a _ => ?_
  by_cases h : land a r
  · rw [if_pos h, if_pos h, mul_assoc]
  · rw [if_neg h, if_neg h, zero_mul]

/-- THE LAW: aggregating rows scaled by `dis` with the bare weights and scaling row `r` of the result by `dis r`
    is aggregating the unscaled rows with the reference's weights. -/
theorem agg_scaled (hdis : ∀ u, 0 ≤ dis u ∧ dis u ≠ ⊤) (hδ : ∀ a r, land a r → δ a = r)
    (D : Fin N → Fin K → EReal) (r : Fin N) (c : Fin K) :
    agg land σ (fun u j => D u j * dis u) w r c * dis r = agg land σ D (edgeNorm σ δ dis w) r c := by
  rw [agg_mul _ _ _ _ (hdis r).1 (hdis r).2]
  unfold agg
  refine congrArg (0 + ·) (Finset.sum_congr rfl fun a _ => ?_)
  by_cases h : land a r
  · rw [if_pos h, if_pos h]
    unfold edgeNorm
    rw [hδ a r h]
    simp only [mul_assoc]
  · rw [if_neg h, if_neg h]

/-- The two hidden layers are one. -/
theorem kerHidden_eq (hdis : ∀ u, 0 ≤ dis u ∧ dis u ≠ ⊤) (hδ : ∀ a r, land a r → δ a = r) :
    kerHidden land σ dis w X W1 b1 = refHidden land σ δ dis w X W1 b1 := by
  funext u j
  unfold kerHidden refHidden
  rw [show kerFirst dis X W1 = fun u j => dense X W1 u j * dis u from rfl, agg_scaled hdis hδ]

/-- THE TWO ARRANGEMENTS AGREE, entry by entry. -/
theorem kerOut_eq_refOut (hdis : ∀ u, 0 ≤ dis u ∧ dis u ≠ ⊤) (hδ : ∀ a r, land a r → δ a = r)
    (r : Fin N) (c : Fin K) :
    kerOut land σ dis w X W1 b1 W2 b2 r c = refOut land σ δ dis w X W1 b1 W2 b2 r c := by
  unfold kerOut refOut
  rw [mul_comm,
    show kerSecond land σ dis w X W1 b1 W2 = fun u j => dense (kerHidden land σ dis w X W1 b1) W2 u j * dis u from rfl,
    agg_scaled hdis hδ, kerHidden_eq X W1 b1 hdis hδ]

end

end Cert.Proof.Gcn

end
-- ==== Proof.LibGraphRead.lean ====
/-
  The array operations of one graph-convolution layer, each composite read at an index on the extended reals.

  A layer over `N` nodes, `E` edges and `C` feature columns is written with whole-array operations: a row gather
  of the node features by the edges' source indices, a product with the edge weights spread over the columns, an
  accumulating row scatter by the edges' target indices into a zero array, a bias spread over the rows, a
  rectification against a zero array; the edge weights of the symmetric normalisation are products of two
  gathers of the per-node scale with the bare weights; the per-node scale is the inverse square root of the
  weighted in-degree where that is positive and zero elsewhere; and the features enter through a plain matrix
  product. Each lemma below reads ONE such composite at an index and names the result in the vocabulary of the
  specification (`Cert.Proof.Gcn`): `agg`, `edgeNorm`, `dense`, the guarded inverse square root.

  * `lands I a r`: edge `a`'s target index, read signed, is the node `r` — the condition under which the scatter
    adds edge `a`'s row into row `r`; an index outside `[0, N)` lands nowhere.
  * `aggregate_apply`: the scatter of the gathered, weighted rows into zeros is `Gcn.agg`.
  * `edgeNorm_apply`: the product of the two gathered scales with the weight is `Gcn.edgeNorm`.
  * `scale_apply`, `scale_ok`: the guarded inverse square root at a node, and that it is non-negative and not `+∞`.
  * `target_readback`: an edge that lands on `r` has `r` as the node its normalised target index names in a gather.
  * `bias_apply`, `relu_apply`: the bias row added to every row; the maximum with zero.
  * `dense_apply`: the plain matrix product is `Gcn.dense`.

  Everything is generic in the extents and in the index width; dimension numbers are records built from any proof of
  their well-formedness and shape side conditions are variables, so a program's own records and proofs unify.
-/
import Idealize.ShloMosaic.PureOps.Ideal
import Idealize.ShloMosaic.PureOps.Ideal.Laws
import Idealize.ShloMosaic.PureOps.Contract
import Idealize.ShloMosaic.Lib.ValueIdx
import Idealize.ShloMosaic.Lib.IdealHost
import Idealize.ShloMosaic.Lib.Pipeline.Value
import proofs.«155874_j48129403519234_2_alg».proof.Proof.LibScatterAdd
import proofs.«155874_j48129403519234_2_alg».proof.Proof.LibGatherRows
import proofs.«155874_j48129403519234_2_alg».proof.Proof.LibIndexWrap
import proofs.«155874_j48129403519234_2_alg».proof.Proof.LibHostRead
import proofs.«155874_j48129403519234_2_alg».proof.Proof.LibPlainDot
import proofs.«155874_j48129403519234_2_alg».proof.Proof.LibGcnSpec

noncomputable section

open scoped BigOperators

namespace Cert.Proof.GraphRead

open Idealize.ShloMosaic Idealize.ShloMosaic.ValueIdx Cert.GatherRows

variable {N E C w w' : Nat}

/-! ## Where an edge lands -/

/-- Edge `a` lands on node `r`: its target index, read signed, is `r`. An index that is negative or at least `N`
    lands on no node. -/
def lands (I : IVec ⟨2, ![E, 1]⟩ w) (a : Fin E) (r : Fin N) : Prop := (I (ix2 a 0)).toInt = (r.val : ℤ)

instance instDecidableLands (I : IVec ⟨2, ![E, 1]⟩ w) (a : Fin E) (r : Fin N) : Decidable (lands I a r) :=
  inferInstanceAs (Decidable ((I (ix2 a 0)).toInt = (r.val : ℤ)))

/-! ## Zero arrays -/

/-- The zero word of the 32-bit float format spread from a scalar over any shape reads `0` everywhere. -/
theorem bcast_zero_apply {t : Shape} (h0 : (⟨0, ![]⟩ : Shape).BroadcastsInDim t (![] : Fin 0 → Fin t.rank)) (j : t.Idx) :
    broadcastInDim t ![] h0 (constant (F := Ideal) ⟨0, ![]⟩ .f32 0x00000000#32) j = (0 : EReal) :=
  (broadcastInDim_apply _ h0 _ j ix0 (fun a => a.elim0)).trans Ideal.ofBits_zero_f32

/-- The zero integer word spread from a scalar over any shape reads the zero word everywhere. -/
theorem bcast_zero_word_apply {t : Shape} (h0 : (⟨0, ![]⟩ : Shape).BroadcastsInDim t (![] : Fin 0 → Fin t.rank)) (j : t.Idx) :
    broadcastInDim t ![] h0 (constantI ⟨0, ![]⟩ w 0#w) j = 0#w :=
  broadcastInDim_apply _ h0 _ j ix0 (fun a => a.elim0)

/-! ## The aggregation -/

/-- The accumulating row scatter, by the target indices `I` and into a zero array, of the rows of `H` gathered by the
    source indices `G` and multiplied by the per-edge weight `v` spread over the columns: entry `(r, c)` is the sum,
    over the edges landing on `r`, of the source row's entry in column `c` times the edge's weight. -/
theorem aggregate_apply (hN : 0 < N)
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (h0 : (⟨0, ![]⟩ : Shape).BroadcastsInDim ⟨2, ![N, C]⟩ (![] : Fin 0 → Fin (⟨2, ![N, C]⟩ : Shape).rank))
    (h1 : (⟨1, ![E]⟩ : Shape).BroadcastsInDim ⟨2, ![E, 1]⟩ (![0] : Fin 1 → Fin (⟨2, ![E, 1]⟩ : Shape).rank))
    (h2 : (⟨2, ![E, 1]⟩ : Shape).BroadcastsInDim ⟨2, ![E, C]⟩ (![0, 1] : Fin 2 → Fin (⟨2, ![E, C]⟩ : Shape).rank))
    (I : IVec ⟨2, ![E, 1]⟩ w) (G : IVec ⟨2, ![E, 1]⟩ w') (H : FVec Ideal ⟨2, ![N, C]⟩ .f32)
    (v : FVec Ideal ⟨1, ![E]⟩ .f32) (r : Fin N) (c : Fin C) :
    Host.scatterAdd (F := Ideal) (ScatterRows.dims2 wfs)
        (broadcastInDim ⟨2, ![N, C]⟩ ![] h0 (constant (F := Ideal) ⟨0, ![]⟩ .f32 0x00000000#32)) I
        (mulf (Host.gather (GatherRows.dims2 wfg) H G)
          (broadcastInDim ⟨2, ![E, C]⟩ ![0, 1] h2 (broadcastInDim ⟨2, ![E, 1]⟩ ![0] h1 v))) (ix2 r c)
      = Gcn.agg (lands I) (rowOf hN G) (fun u j => H (ix2 u j)) (fun a => v (ix1 a)) r c := by
  refine (ScatterRows.scatterAdd2_apply wfs _ I _ r c).trans ?_
  unfold Gcn.agg
  refine congrArg₂ (· + ·) (bcast_zero_apply h0 (ix2 r c)) (Finset.sum_congr rfl fun a _ => ?_)
  refine if_congr Iff.rfl ?_ rfl
  show Host.gather (GatherRows.dims2 wfg) H G (ix2 a c)
      * broadcastInDim ⟨2, ![E, C]⟩ ![0, 1] h2 (broadcastInDim ⟨2, ![E, 1]⟩ ![0] h1 v) (ix2 a c) = _
  rw [GatherRows.gather2_apply hN wfg H G a c, HostRead.bcast_a1_ac_apply _ h2 a c, HostRead.bcast_a_a1_apply v h1 a 0]

/-! ## The normalised edge weight -/

/-- The per-node scale gathered by the source indices, times the edge weight, times the scale gathered by the target
    indices: at edge `a` the product `(dis (σ a) · w a) · dis (δ a)`, `σ a` and `δ a` the nodes the two gathers read. -/
theorem edgeNorm_apply (hN : 0 < N)
    (wf1 : GatherDims.WF ⟨1, ![N]⟩ ⟨2, ![E, 1]⟩ ⟨1, ![E]⟩ [] [0] [] [0] [] 1 ![1])
    (dis : FVec Ideal ⟨1, ![N]⟩ .f32) (Gs : IVec ⟨2, ![E, 1]⟩ w) (Gd : IVec ⟨2, ![E, 1]⟩ w')
    (wv : FVec Ideal ⟨1, ![E]⟩ .f32) (a : Fin E) :
    mulf (mulf (Host.gather (GatherRows.dims1 wf1) dis Gs) wv) (Host.gather (GatherRows.dims1 wf1) dis Gd) (ix1 a)
      = Gcn.edgeNorm (rowOf hN Gs) (rowOf hN Gd) (fun u => dis (ix1 u)) (fun a => wv (ix1 a)) a := by
  show Host.gather (GatherRows.dims1 wf1) dis Gs (ix1 a) * wv (ix1 a) * Host.gather (GatherRows.dims1 wf1) dis Gd (ix1 a) = _
  rw [GatherRows.gather1_apply hN wf1 dis Gs a, GatherRows.gather1_apply hN wf1 dis Gd a]
  rfl

/-! ## The per-node scale -/

/-- The selection between the inverse square root of `deg` and a second array, by the test `deg > z`, at an index
    where `z` and the second array are zero: the inverse square root where `deg` is positive, zero elsewhere. -/
theorem guard_apply {s : Shape} (deg z z' : FVec Ideal s .f32) (i : s.Idx) (hz : z i = (0 : EReal)) (hz' : z' i = (0 : EReal)) :
    select (cmpf .ogt deg z) (Host.rsqrt deg) z' i = if 0 < deg i then Ideal.rsqrt (deg i) else 0 := by
  show Scalar.select (Ideal.cmp .ogt (deg i) (z i)) (Ideal.rsqrt (deg i)) (z' i) = _
  rw [hz, hz']
  by_cases hd : (0 : EReal) < deg i
  · rw [if_pos hd]
    have hc : Ideal.cmp .ogt (deg i) 0 = 1#1 := by
      show BitVec.ofBool (decide ((0 : EReal) < deg i)) = 1#1
      rw [decide_eq_true hd]; rfl
    rw [hc]; exact if_pos rfl
  · rw [if_neg hd]
    have hc : Ideal.cmp .ogt (deg i) 0 = 0#1 := by
      show BitVec.ofBool (decide ((0 : EReal) < deg i)) = 0#1
      rw [decide_eq_false hd]; rfl
    rw [hc]; exact if_neg (by decide)

/-- The per-node scale as the programs write it — the selection, by the test `deg > 0` against a zero array, between
    the inverse square root of `deg` and a zero array (its scalar passed through an identity conversion) — at node
    `u`, for ANY array `deg`: the inverse square root where `deg u` is positive, zero elsewhere. -/
theorem scale_apply (h : (⟨0, ![]⟩ : Shape).BroadcastsInDim ⟨1, ![N]⟩ (![] : Fin 0 → Fin (⟨1, ![N]⟩ : Shape).rank))
    (deg : FVec Ideal ⟨1, ![N]⟩ .f32) (u : Fin N) :
    select (cmpf .ogt deg (broadcastInDim ⟨1, ![N]⟩ ![] h (constant (F := Ideal) ⟨0, ![]⟩ .f32 0x00000000#32)))
        (Host.rsqrt deg)
        (broadcastInDim ⟨1, ![N]⟩ ![] h (id (constant (F := Ideal) ⟨0, ![]⟩ .f32 0x00000000#32))) (ix1 u)
      = if 0 < deg (ix1 u) then Ideal.rsqrt (deg (ix1 u)) else 0 :=
  guard_apply deg _ _ (ix1 u) (bcast_zero_apply h (ix1 u)) (bcast_zero_apply h (ix1 u))

/-- The per-node scale is a non-negative number other than `+∞`, whatever `deg` is. -/
theorem scale_ok (h : (⟨0, ![]⟩ : Shape).BroadcastsInDim ⟨1, ![N]⟩ (![] : Fin 0 → Fin (⟨1, ![N]⟩ : Shape).rank))
    (deg : FVec Ideal ⟨1, ![N]⟩ .f32) (u : Fin N) :
    (0 : EReal) ≤ select (cmpf .ogt deg (broadcastInDim ⟨1, ![N]⟩ ![] h (constant (F := Ideal) ⟨0, ![]⟩ .f32 0x00000000#32)))
        (Host.rsqrt deg)
        (broadcastInDim ⟨1, ![N]⟩ ![] h (id (constant (F := Ideal) ⟨0, ![]⟩ .f32 0x00000000#32))) (ix1 u)
      ∧ select (cmpf .ogt deg (broadcastInDim ⟨1, ![N]⟩ ![] h (constant (F := Ideal) ⟨0, ![]⟩ .f32 0x00000000#32)))
        (Host.rsqrt deg)
        (broadcastInDim ⟨1, ![N]⟩ ![] h (id (constant (F := Ideal) ⟨0, ![]⟩ .f32 0x00000000#32))) (ix1 u) ≠ (⊤ : EReal) := by
  rw [scale_apply h deg u]
  exact Gcn.guarded_nonneg_ne_top (deg (ix1 u))

/-! ## The target read back as a node -/

/-- An edge that lands on `r` — its target index `d a`, read signed, is `r` — has `r` as the node a gather reads
    through the NORMALISED target index `where (d < z) (d + n) d`, at an edge where `z` is the zero word: the index
    is non-negative there, so the normalisation leaves it, and it is in range, so the gather's clamp leaves it. -/
theorem target_readback_of_zero (hN : 0 < N)
    (h1 : (⟨1, ![E]⟩ : Shape).BroadcastsInDim ⟨2, ![E, 1]⟩ (![0] : Fin 1 → Fin (⟨2, ![E, 1]⟩ : Shape).rank))
    (d z n : IVec ⟨1, ![E]⟩ w) (a : Fin E) (r : Fin N) (hz : z (ix1 a) = 0#w)
    (hl : lands (broadcastInDim ⟨2, ![E, 1]⟩ ![0] h1 d) a r) :
    rowOf hN (broadcastInDim ⟨2, ![E, 1]⟩ ![0] h1 (select (cmpi .slt d z) (addi d n) d)) a = r := by
  have hd : (d (ix1 a)).toInt = (r.val : ℤ) := by
    have e := HostRead.bcast_a_a1_apply d h1 a 0
    unfold lands at hl
    rw [e] at hl
    exact hl
  refine rowOf_eq hN _ a r ?_
  rw [HostRead.bcast_a_a1_apply _ h1 a 0, IndexWrap.wrap_of_nonneg d z n (ix1 a) hz (by rw [hd]; exact Int.natCast_nonneg _)]
  exact hd

/-- The same with the comparand written as the programs write it, the zero word spread from a scalar. -/
theorem target_readback (hN : 0 < N)
    (h0 : (⟨0, ![]⟩ : Shape).BroadcastsInDim ⟨1, ![E]⟩ (![] : Fin 0 → Fin (⟨1, ![E]⟩ : Shape).rank))
    (h1 : (⟨1, ![E]⟩ : Shape).BroadcastsInDim ⟨2, ![E, 1]⟩ (![0] : Fin 1 → Fin (⟨2, ![E, 1]⟩ : Shape).rank))
    (d n : IVec ⟨1, ![E]⟩ w) (a : Fin E) (r : Fin N)
    (hl : lands (broadcastInDim ⟨2, ![E, 1]⟩ ![0] h1 d) a r) :
    rowOf hN (broadcastInDim ⟨2, ![E, 1]⟩ ![0] h1
      (select (cmpi .slt d (broadcastInDim ⟨1, ![E]⟩ ![] h0 (constantI ⟨0, ![]⟩ w 0#w))) (addi d n) d)) a = r :=
  target_readback_of_zero hN h1 d _ n a r (bcast_zero_word_apply h0 (ix1 a)) hl

/-! ## Bias and rectification -/

/-- A bias vector given a unit leading axis, spread over the rows and added: entry `(r, c)` gains `b c`. -/
theorem bias_apply
    (h1 : (⟨1, ![C]⟩ : Shape).BroadcastsInDim ⟨2, ![1, C]⟩ (![1] : Fin 1 → Fin (⟨2, ![1, C]⟩ : Shape).rank))
    (h2 : (⟨2, ![1, C]⟩ : Shape).BroadcastsInDim ⟨2, ![N, C]⟩ (![0, 1] : Fin 2 → Fin (⟨2, ![N, C]⟩ : Shape).rank))
    (A : FVec Ideal ⟨2, ![N, C]⟩ .f32) (b : FVec Ideal ⟨1, ![C]⟩ .f32) (r : Fin N) (c : Fin C) :
    addf A (broadcastInDim ⟨2, ![N, C]⟩ ![0, 1] h2 (broadcastInDim ⟨2, ![1, C]⟩ ![1] h1 b)) (ix2 r c)
      = A (ix2 r c) + b (ix1 c) := by
  show A (ix2 r c) + broadcastInDim ⟨2, ![N, C]⟩ ![0, 1] h2 (broadcastInDim ⟨2, ![1, C]⟩ ![1] h1 b) (ix2 r c) = _
  rw [HostRead.bcast_1c_ac_apply _ h2 r c, HostRead.bcast_c_1c_apply b h1 0 c]

/-- The maximum with a zero array: entry `(r, c)` is `max (x (r, c)) 0`. -/
theorem relu_apply
    (h0 : (⟨0, ![]⟩ : Shape).BroadcastsInDim ⟨2, ![N, C]⟩ (![] : Fin 0 → Fin (⟨2, ![N, C]⟩ : Shape).rank))
    (x : FVec Ideal ⟨2, ![N, C]⟩ .f32) (r : Fin N) (c : Fin C) :
    maximumf x (broadcastInDim ⟨2, ![N, C]⟩ ![] h0 (constant (F := Ideal) ⟨0, ![]⟩ .f32 0x00000000#32)) (ix2 r c)
      = max (x (ix2 r c)) 0 := by
  show max (x (ix2 r c)) (broadcastInDim ⟨2, ![N, C]⟩ ![] h0 (constant (F := Ideal) ⟨0, ![]⟩ .f32 0x00000000#32) (ix2 r c)) = _
  rw [bcast_zero_apply h0 (ix2 r c)]

/-! ## The matrix product -/

/-- The plain product's dimension numbers, from any proof of their well-formedness. -/
abbrev dimsDot (wf : DotDims.WF ⟨2, ![N, C]⟩ ⟨2, ![C, C]⟩ ⟨2, ![N, C]⟩ [1] [0] [0] [1] [] []) :
    DotDims ⟨2, ![N, C]⟩ ⟨2, ![C, C]⟩ ⟨2, ![N, C]⟩ := ⟨[1], [0], [0], [1], [], [], wf⟩

/-- The host's product of an `N × C` array with a `C × C` array, contracting the first's columns with the second's
    rows: entry `(r, c)` is `∑ j, X (r, j) · W (j, c)`. -/
theorem dense_apply (prec : Option ContractPrecision) (X : FVec Ideal ⟨2, ![N, C]⟩ .f32) (W : FVec Ideal ⟨2, ![C, C]⟩ .f32)
    (r : Fin N) (c : Fin C) :
    Host.dotGeneral (F := Ideal) (DotDims.plain N C C) prec X W (ix2 r c)
      = Gcn.dense (fun u j => X (ix2 u j)) (fun i j => W (ix2 i j)) r c :=
  PlainDot.dotGeneral_plain prec .single X W (ix2 r c)

/-- The same for dimension numbers given as a record built from any proof of their well-formedness. -/
theorem dense_apply' (wf : DotDims.WF ⟨2, ![N, C]⟩ ⟨2, ![C, C]⟩ ⟨2, ![N, C]⟩ [1] [0] [0] [1] [] [])
    (prec : Option ContractPrecision) (X : FVec Ideal ⟨2, ![N, C]⟩ .f32) (W : FVec Ideal ⟨2, ![C, C]⟩ .f32)
    (r : Fin N) (c : Fin C) :
    Host.dotGeneral (F := Ideal) (dimsDot wf) prec X W (ix2 r c)
      = Gcn.dense (fun u j => X (ix2 u j)) (fun i j => W (ix2 i j)) r c :=
  dense_apply prec X W r c

end Cert.Proof.GraphRead

end
-- ==== Proof.LibSgcStep.lean ====
/-
  One step of neighbourhood averaging with symmetric degree scaling, in two arrangements, as whole-array terms.

  Over N nodes, E edges and C feature columns: edge a reads node (rowOf G a) and is added into node r exactly when its
  target index lands on r. With dis the per-node scale,

  * the first arrangement scales the rows of H by dis before the edges read them, adds the gathered rows into a zero
    array, and scales row r of the sum by dis r:          dis r · Σₐ H (σ a, c) · dis (σ a);
  * the second weights edge a by dis (σ a) · dis (δ a), δ a the target read back as a node, and adds the weighted
    gathered rows into a zero array:                      Σₐ H (σ a, c) · (dis (σ a) · dis (δ a)).

  They are one array: an edge landing on r has δ a = r, products only re-associate and commute, and a factor that is
  a non-negative number below +∞ distributes over a finite sum of extended reals. Nothing is asked of H.

  Generic in N, E, C and the index widths; the dimension records are built from any proofs of their side conditions
  (`ScatterRows.dims2`, `GatherRows.dims2`, `GatherRows.dims1`), so a program's own records unify. `stepK` / `stepR` are the
  two whole-array terms, `stepK_apply` / `stepR_apply` read them at (r, c), `stepK_eq_stepR` is their equality as arrays
  (hypotheses: the scale is non-negative and not +∞ at every node — `Cert.Proof.GraphRead.scale_ok` gives it for the guarded
  inverse square root of any array — and an edge landing on r is read back as r — `Cert.Proof.GraphRead.target_readback`);
  `prop_eq` is the law over abstract index types.
  (imports LibGraphRead.lean, which imports LibScatterAdd, LibGatherRows, LibIndexWrap, LibHostRead, LibPlainDot, LibGcnSpec:
  copy all.)
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import proofs.«155874_j48129403519234_2_alg».proof.Proof.LibGraphRead

noncomputable section

open scoped BigOperators

namespace Cert.Proof.Sgc

open Idealize.ShloMosaic Idealize.ShloMosaic.ValueIdx Cert.GatherRows Cert.Proof.GraphRead

/-! ## The law, over abstract index types -/

/-- Scaling the sum over the edges landing on r by dis r is weighting each such edge by dis of its target. -/
theorem prop_eq {N E C : ℕ} (land : Fin E → Fin N → Prop) [∀ a r, Decidable (land a r)] (σ δ : Fin E → Fin N)
    (dis : Fin N → EReal) (hdis : ∀ u, 0 ≤ dis u ∧ dis u ≠ ⊤) (hδ : ∀ a r, land a r → δ a = r)
    (H : Fin N → Fin C → EReal) (r : Fin N) (c : Fin C) :
    dis r * (0 + ∑ a : Fin E, if land a r then H (σ a) c * dis (σ a) else 0)
      = 0 + ∑ a : Fin E, if land a r then H (σ a) c * (dis (σ a) * dis (δ a)) else 0 := by
  rw [zero_add, zero_add, mul_comm, Gcn.sum_mul_of_nonneg _ _ (hdis r).1 (hdis r).2]
  refine Finset.sum_congr rfl fun a _ => ?_
  by_cases h : land a r
  · rw [if_pos h, if_pos h, hδ a r h, mul_assoc]
  · rw [if_neg h, if_neg h, zero_mul]

variable {N E C w w' : Nat}

/-! ## The two arrangements as array terms -/

/-- The first arrangement: scale, gather, add into zeros, scale. -/
def stepK (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (h0 : (⟨0, ![]⟩ : Shape).BroadcastsInDim ⟨2, ![N, C]⟩ (![] : Fin 0 → Fin (⟨2, ![N, C]⟩ : Shape).rank))
    (h1 : (⟨1, ![N]⟩ : Shape).BroadcastsInDim ⟨2, ![N, 1]⟩ (![0] : Fin 1 → Fin (⟨2, ![N, 1]⟩ : Shape).rank))
    (h2 : (⟨2, ![N, 1]⟩ : Shape).BroadcastsInDim ⟨2, ![N, C]⟩ (![0, 1] : Fin 2 → Fin (⟨2, ![N, C]⟩ : Shape).rank))
    (dis : FVec Ideal ⟨1, ![N]⟩ .f32) (I : IVec ⟨2, ![E, 1]⟩ w) (G : IVec ⟨2, ![E, 1]⟩ w')
    (H : FVec Ideal ⟨2, ![N, C]⟩ .f32) : FVec Ideal ⟨2, ![N, C]⟩ .f32 :=
  mulf (broadcastInDim ⟨2, ![N, C]⟩ ![0, 1] h2 (broadcastInDim ⟨2, ![N, 1]⟩ ![0] h1 dis))
    (Host.scatterAdd (F := Ideal) (ScatterRows.dims2 wfs)
      (broadcastInDim ⟨2, ![N, C]⟩ ![] h0 (constant (F := Ideal) ⟨0, ![]⟩ .f32 0x00000000#32)) I
      (Host.gather (GatherRows.dims2 wfg)
        (mulf H (broadcastInDim ⟨2, ![N, C]⟩ ![0, 1] h2 (broadcastInDim ⟨2, ![N, 1]⟩ ![0] h1 dis))) G))

/-- The second arrangement: gather, weight each edge by the product of the two gathered scales, add into zeros. -/
def stepR (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (wf1 : GatherDims.WF ⟨1, ![N]⟩ ⟨2, ![E, 1]⟩ ⟨1, ![E]⟩ [] [0] [] [0] [] 1 ![1])
    (h0 : (⟨0, ![]⟩ : Shape).BroadcastsInDim ⟨2, ![N, C]⟩ (![] : Fin 0 → Fin (⟨2, ![N, C]⟩ : Shape).rank))
    (e1 : (⟨1, ![E]⟩ : Shape).BroadcastsInDim ⟨2, ![E, 1]⟩ (![0] : Fin 1 → Fin (⟨2, ![E, 1]⟩ : Shape).rank))
    (e2 : (⟨2, ![E, 1]⟩ : Shape).BroadcastsInDim ⟨2, ![E, C]⟩ (![0, 1] : Fin 2 → Fin (⟨2, ![E, C]⟩ : Shape).rank))
    (dis : FVec Ideal ⟨1, ![N]⟩ .f32) (I : IVec ⟨2, ![E, 1]⟩ w) (G Gd : IVec ⟨2, ![E, 1]⟩ w')
    (H : FVec Ideal ⟨2, ![N, C]⟩ .f32) : FVec Ideal ⟨2, ![N, C]⟩ .f32 :=
  Host.scatterAdd (F := Ideal) (ScatterRows.dims2 wfs)
    (broadcastInDim ⟨2, ![N, C]⟩ ![] h0 (constant (F := Ideal) ⟨0, ![]⟩ .f32 0x00000000#32)) I
    (mulf (Host.gather (GatherRows.dims2 wfg) H G)
      (broadcastInDim ⟨2, ![E, C]⟩ ![0, 1] e2 (broadcastInDim ⟨2, ![E, 1]⟩ ![0] e1
        (mulf (Host.gather (GatherRows.dims1 wf1) dis G) (Host.gather (GatherRows.dims1 wf1) dis Gd)))))

/-! ## Read at an index -/

theorem stepK_apply (hN : 0 < N) (wfs) (wfg) (h0) (h1) (h2)
    (dis : FVec Ideal ⟨1, ![N]⟩ .f32) (I : IVec ⟨2, ![E, 1]⟩ w) (G : IVec ⟨2, ![E, 1]⟩ w')
    (H : FVec Ideal ⟨2, ![N, C]⟩ .f32) (r : Fin N) (c : Fin C) :
    stepK wfs wfg h0 h1 h2 dis I G H (ix2 r c)
      = dis (ix1 r) * (0 + ∑ a : Fin E, if lands I a r
          then H (ix2 (rowOf hN G a) c) * dis (ix1 (rowOf hN G a)) else 0) := by
  have hB : ∀ (u : Fin N) (k : Fin C),
      broadcastInDim ⟨2, ![N, C]⟩ ![0, 1] h2 (broadcastInDim ⟨2, ![N, 1]⟩ ![0] h1 dis) (ix2 u k) = dis (ix1 u) :=
    fun u k => (HostRead.bcast_a1_ac_apply _ h2 u k).trans (HostRead.bcast_a_a1_apply dis h1 u 0)
  unfold stepK
  refine (mulf_apply _ _ _).trans (congrArg₂ (· * ·) (hB r c) ?_)
  refine (ScatterRows.scatterAdd2_apply wfs _ I _ r c).trans ?_
  refine congrArg₂ (· + ·) (bcast_zero_apply h0 (ix2 r c)) (Finset.sum_congr rfl fun a _ => ?_)
  refine if_congr Iff.rfl ?_ rfl
  refine (GatherRows.gather2_apply hN wfg _ G a c).trans ?_
  exact (mulf_apply _ _ _).trans (congrArg (H (ix2 (rowOf hN G a) c) * ·) (hB _ c))

theorem stepR_apply (hN : 0 < N) (wfs) (wfg) (wf1) (h0) (e1) (e2)
    (dis : FVec Ideal ⟨1, ![N]⟩ .f32) (I : IVec ⟨2, ![E, 1]⟩ w) (G Gd : IVec ⟨2, ![E, 1]⟩ w')
    (H : FVec Ideal ⟨2, ![N, C]⟩ .f32) (r : Fin N) (c : Fin C) :
    stepR wfs wfg wf1 h0 e1 e2 dis I G Gd H (ix2 r c)
      = 0 + ∑ a : Fin E, if lands I a r
          then H (ix2 (rowOf hN G a) c) * (dis (ix1 (rowOf hN G a)) * dis (ix1 (rowOf hN Gd a))) else 0 := by
  unfold stepR
  refine (aggregate_apply hN wfs wfg h0 e1 e2 I G H _ r c).trans ?_
  unfold Gcn.agg
  refine congrArg (0 + ·) (Finset.sum_congr rfl fun a _ => ?_)
  refine if_congr Iff.rfl ?_ rfl
  refine congrArg (H (ix2 (rowOf hN G a) c) * ·) ?_
  refine (mulf_apply _ _ _).trans ?_
  rw [GatherRows.gather1_apply hN wf1 dis G a, GatherRows.gather1_apply hN wf1 dis Gd a]

/-- THE TWO ARRANGEMENTS ARE ONE ARRAY, when the scale is a non-negative number below +∞ at every node and an edge
    that lands on r has r as the node its read-back target index names. -/
theorem stepK_eq_stepR (hN : 0 < N) (wfs) (wfg) (wf1) (h0) (h1) (h2) (e1) (e2)
    (dis : FVec Ideal ⟨1, ![N]⟩ .f32) (I : IVec ⟨2, ![E, 1]⟩ w) (G Gd : IVec ⟨2, ![E, 1]⟩ w')
    (hdis : ∀ u : Fin N, (0 : EReal) ≤ dis (ix1 u) ∧ dis (ix1 u) ≠ (⊤ : EReal))
    (hback : ∀ (a : Fin E) (r : Fin N), lands I a r → rowOf hN Gd a = r)
    (H : FVec Ideal ⟨2, ![N, C]⟩ .f32) :
    stepK wfs wfg h0 h1 h2 dis I G H = stepR wfs wfg wf1 h0 e1 e2 dis I G Gd H := by
  funext j
  obtain ⟨r, c, rfl⟩ : ∃ (r : Fin N) (c : Fin C), j = ix2 r c := ⟨j 0, j 1, eq_ix2 j⟩
  rw [stepK_apply hN, stepR_apply hN]
  exact prop_eq (lands I) (rowOf hN G) (rowOf hN Gd) (fun u => dis (ix1 u)) hdis hback
    (fun u k => H (ix2 u k)) r c

end Cert.Proof.Sgc

end
-- ==== Proof.KHostA.lean ====
/-
  The kernel program's host operations before its first region, read back stage by stage at the extended reals.

  The source and target index vectors (the edge list's two rows, each followed by the self-loop 0 … N-1), the per-node scale
  (the inverse square root of the in-degree where that is positive, zero elsewhere) are the same terms of the edge array as the
  reference program computes, so they are named by the reference's stages. The node features entering the first region are two
  propagation steps in the scale-gather-add-scale arrangement (Cert.Proof.Sgc.stepK) applied to the input features; the other
  two operands of the region are the transposed weight array and the bias as a one-row array.
-/
import proofs.«155874_j48129403519234_2_alg».proof.Proof.Gen.KernelIdeal.Frame
import proofs.«155874_j48129403519234_2_alg».proof.Proof.RefRead
import proofs.«155874_j48129403519234_2_alg».proof.Proof.LibSgcStep
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.Read

/-- Reads what a one-pass rewriting of a fold of host operations left unread (the operands inside a concatenation's list). -/
macro "finish_results" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

variable (m : (ℓ : Loc nD τ sig) → Buf (Elt Ideal) ℓ) (ρ : Dev nD → PrngReg)

set_option maxHeartbeats 2000000 in
/-- The source index vector. -/
theorem W1_v3 (c : Dev nD) : W1 m ρ c (Proc.devRef .tc main_v3) = val_main_v3 (F := Ideal) (m ((c : Thread nD τ).loc main_arg1)) := by
  show StableHlo.after hostOps0 (W0 m ρ c) (Proc.devRef .tc main_v3) = _
  after_results_simp <;> (finish_results; rfl)

set_option maxHeartbeats 2000000 in
/-- The target index vector. -/
theorem W1_v6 (c : Dev nD) : W1 m ρ c (Proc.devRef .tc main_v6) = val_main_v6 (F := Ideal) (m ((c : Thread nD τ).loc main_arg1)) := by
  show StableHlo.after hostOps0 (W0 m ρ c) (Proc.devRef .tc main_v6) = _
  after_results_simp <;> (finish_results; rfl)

set_option maxHeartbeats 2000000 in
/-- Where the in-degree is positive. -/
theorem W1_v12 (c : Dev nD) : W1 m ρ c (Proc.devRef .tc main_v12) = val_main_v12 (F := Ideal) (m ((c : Thread nD τ).loc main_arg1)) := by
  show StableHlo.after hostOps0 (W0 m ρ c) (Proc.devRef .tc main_v12) = _
  after_results_simp <;> (finish_results; rfl)

set_option maxHeartbeats 2000000 in
/-- The inverse square root of the in-degree. -/
theorem W1_v13 (c : Dev nD) : W1 m ρ c (Proc.devRef .tc main_v13) = val_main_v13 (F := Ideal) (m ((c : Thread nD τ).loc main_arg1)) := by
  show StableHlo.after hostOps0 (W0 m ρ c) (Proc.devRef .tc main_v13) = _
  after_results_simp <;> (finish_results; rfl)

set_option maxHeartbeats 2000000 in
/-- The zero the scale takes where the in-degree is not positive. -/
theorem W1_cst_2 (c : Dev nD) : W1 m ρ c (Proc.devRef .tc main_cst_2) = val_main_cst_2 (F := Ideal) := by
  show StableHlo.after hostOps0 (W0 m ρ c) (Proc.devRef .tc main_cst_2) = _
  after_results_simp <;> (finish_results; rfl)

set_option maxHeartbeats 2000000 in
/-- The input features are as launched. -/
theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> (finish_results; rfl)

/-- A buffer the three operations of the guarded selection do not write keeps its contents. -/
theorem W2_keep (c : Dev nD) (r : Ref sig .tc) (h1 : r ≠ main_call0_v0) (h2 : r ≠ main_call0_v1) (h3 : r ≠ main_v14) :
    W2 m ρ c (Proc.devRef .tc r) = W1 m ρ c (Proc.devRef .tc r) := by
  show StableHlo.after hostOps0_1 (W1 m ρ c) (Proc.devRef .tc r) = _
  generalize W1 m ρ c = w1
  simp only [hostOps0_1, after_cons, after_nil, TRef.unary, TRef.ternary]
  rw [ternary_result_ne (h := h3), unary_result_ne (h := h2), unary_result_ne (h := h1)]

set_option maxHeartbeats 2000000 in
/-- THE PER-NODE SCALE is the reference's. -/
theorem W2_v14 (c : Dev nD) : W2 m ρ c (Proc.devRef .tc main_v14) = val_main_v14 (F := Ideal) (m ((c : Thread nD τ).loc main_arg1)) := by
  have e12 := W1_v12 m ρ c
  have e13 := W1_v13 m ρ c
  have e2 := W1_cst_2 m ρ c
  have raw : W2 m ρ c (Proc.devRef .tc main_v14)
      = select (W1 m ρ c (Proc.devRef .tc main_v12)) (W1 m ρ c (Proc.devRef .tc main_v13))
          (broadcastInDim S50000 ![] bcast_S_S50000 (id (W1 m ρ c (Proc.devRef .tc main_cst_2)))) := by
    show StableHlo.after hostOps0_1 (W1 m ρ c) (Proc.devRef .tc main_v14) = _
    generalize W1 m ρ c = w1
    after_results_simp <;> rfl
  rw [raw, e12, e13, e2]
  rfl

/-- The dimension records' side conditions, for the two arrangements' terms. -/
theorem wfs : ScatterDims.WF S50000x128 S650000x1 S650000x128 [1] [0] [0] 1 := scatter_S50000x128_S650000x1_S650000x128_1_0_0_1.wf
theorem wfg : GatherDims.WF S50000x128 S650000x1 S650000x128 [1] [0] [] [0] [] 1 ![1, 128] :=
  gather_S50000x128_S650000x1_S650000x128_1_0_n_n_0_1_1128.wf

/-- One propagation step in the kernel's arrangement, over the reference's names for the scale and the index vectors. -/
abbrev stepK (x1 : (⟨S2x600000, .i32⟩ : BufTy).Contents (Elt Ideal)) (H : FVec Ideal S50000x128 .f32) : FVec Ideal S50000x128 .f32 :=
  Cert.Proof.Sgc.stepK (N := 50000) (E := 650000) (C := 128) wfs wfg bcast_S_S50000x128 bcast_S50000_S50000x1_0
    bcast_S50000x1_S50000x128_0_1 (val_main_v14 (F := Ideal) x1) (val_main_v41 (F := Ideal) x1) (val_main_v35 (F := Ideal) x1) H

set_option maxHeartbeats 4000000 in
/-- THE NODE FEATURES ENTERING THE FIRST REGION: two propagation steps of the input features. -/
theorem W3_v46 (c : Dev nD) : W3 m ρ c (Proc.devRef .tc main_v46)
    = stepK (m ((c : Thread nD τ).loc main_arg1)) (stepK (m ((c : Thread nD τ).loc main_arg1)) (m ((c : Thread nD τ).loc main_arg0))) := by
  have e14 := (W2_v14 m ρ c)
  have e3 := (W2_keep m ρ c main_v3 (by decide) (by decide) (by decide)).trans (W1_v3 m ρ c)
  have e6 := (W2_keep m ρ c main_v6 (by decide) (by decide) (by decide)).trans (W1_v6 m ρ c)
  have e0 := (W2_keep m ρ c main_arg0 (by decide) (by decide) (by decide)).trans (W1_arg0 m ρ c)
  show StableHlo.after hostOps0_2 (W2 m ρ c) (Proc.devRef .tc main_v46) = _
  generalize W2 m ρ c = w2 at e14 e3 e6 e0 ⊢
  after_results_simp
  rw [e14, e3, e6, e0]
  rfl

end Cert.KernelIdeal.Hand

end
-- ==== Proof.KArgs.lean ====
/-
  The kernel program's argument arrays, read back through the fold of its host operations: no host operation and no
  region writes one, so at the entry of the first region, and at the entry of the second, each still holds what it was
  launched with.
-/
import proofs.«155874_j48129403519234_2_alg».proof.Proof.Gen.KernelIdeal.Frame
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 2000000 in
/-- Argument 0 at the first region's entry is as launched. -/
theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl

set_option maxHeartbeats 2000000 in
/-- Argument 1 at the first region's entry is as launched. -/
theorem W3_arg1 (c : Dev nD) : W3 m ρ c (Proc.devRef .tc main_arg1) = m ((c : Thread nD τ).loc main_arg1) := by
  show StableHlo.after hostOps0_2 (StableHlo.after hostOps0_1 (StableHlo.after hostOps0 (W0 m ρ c))) (Proc.devRef .tc main_arg1) = _
  after_results_simp <;> rfl

set_option maxHeartbeats 2000000 in
/-- Argument 2 at the first region's entry is as launched. -/
theorem W3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl

set_option maxHeartbeats 2000000 in
/-- Argument 3 at the first region's entry is as launched. -/
theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl

set_option maxHeartbeats 2000000 in
/-- Argument 4 at the first region's entry is as launched. -/
theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl

set_option maxHeartbeats 2000000 in
/-- Argument 5 at the first region's entry is as launched. -/
theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl

set_option maxHeartbeats 2000000 in
/-- Argument 6 at the first region's entry is as launched. -/
theorem W3_arg6 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp <;> rfl

set_option maxHeartbeats 2000000 in
/-- Argument 7 at the first region's entry is as launched. -/
theorem W3_arg7 (c : Dev nD) : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results_simp <;> rfl

set_option maxHeartbeats 2000000 in
/-- Argument 8 at the first region's entry is as launched. -/
theorem W3_arg8 (c : Dev nD) : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  after_results_simp <;> rfl

set_option maxHeartbeats 2000000 in
/-- Argument 2 at the second region's entry is as launched. -/
theorem W9_arg2 (c : Dev nD) : W9 m ρ c (Proc.devRef .tc main_arg2) = m ((c : Thread nD τ).loc main_arg2) := by
  have h : W9 m ρ c (Proc.devRef .tc main_arg2) = W4 m ρ c (Proc.devRef .tc main_arg2) := by
    show StableHlo.after hostOps1_4 (StableHlo.after hostOps1_3 (StableHlo.after hostOps1_2 (StableHlo.after hostOps1_1
      (StableHlo.after hostOps1 (W4 m ρ c))))) (Proc.devRef .tc main_arg2) = _
    after_results_simp
  exact h.trans ((W4_of_ne m ρ c main_arg2 (by decide)).trans (W3_arg2 m ρ c))

set_option maxHeartbeats 2000000 in
/-- Argument 5 at the second region's entry is as launched. -/
theorem W9_arg5 (c : Dev nD) : W9 m ρ c (Proc.devRef .tc main_arg5) = m ((c : Thread nD τ).loc main_arg5) := by
  have h : W9 m ρ c (Proc.devRef .tc main_arg5) = W4 m ρ c (Proc.devRef .tc main_arg5) := by
    show StableHlo.after hostOps1_4 (StableHlo.after hostOps1_3 (StableHlo.after hostOps1_2 (StableHlo.after hostOps1_1
      (StableHlo.after hostOps1 (W4 m ρ c))))) (Proc.devRef .tc main_arg5) = _
    after_results_simp
  exact h.trans ((W4_of_ne m ρ c main_arg5 (by decide)).trans (W3_arg5 m ρ c))

set_option maxHeartbeats 2000000 in
/-- Argument 6 at the second region's entry is as launched. -/
theorem W9_arg6 (c : Dev nD) : W9 m ρ c (Proc.devRef .tc main_arg6) = m ((c : Thread nD τ).loc main_arg6) := by
  have h : W9 m ρ c (Proc.devRef .tc main_arg6) = W4 m ρ c (Proc.devRef .tc main_arg6) := by
    show StableHlo.after hostOps1_4 (StableHlo.after hostOps1_3 (StableHlo.after hostOps1_2 (StableHlo.after hostOps1_1
      (StableHlo.after hostOps1 (W4 m ρ c))))) (Proc.devRef .tc main_arg6) = _
    after_results_simp
  exact h.trans ((W4_of_ne m ρ c main_arg6 (by decide)).trans (W3_arg6 m ρ c))

set_option maxHeartbeats 2000000 in
/-- Argument 7 at the second region's entry is as launched. -/
theorem W9_arg7 (c : Dev nD) : W9 m ρ c (Proc.devRef .tc main_arg7) = m ((c : Thread nD τ).loc main_arg7) := by
  have h : W9 m ρ c (Proc.devRef .tc main_arg7) = W4 m ρ c (Proc.devRef .tc main_arg7) := by
    show StableHlo.after hostOps1_4 (StableHlo.after hostOps1_3 (StableHlo.after hostOps1_2 (StableHlo.after hostOps1_1
      (StableHlo.after hostOps1 (W4 m ρ c))))) (Proc.devRef .tc main_arg7) = _
    after_results_simp
  exact h.trans ((W4_of_ne m ρ c main_arg7 (by decide)).trans (W3_arg7 m ρ c))

set_option maxHeartbeats 2000000 in
/-- Argument 8 at the second region's entry is as launched. -/
theorem W9_arg8 (c : Dev nD) : W9 m ρ c (Proc.devRef .tc main_arg8) = m ((c : Thread nD τ).loc main_arg8) := by
  have h : W9 m ρ c (Proc.devRef .tc main_arg8) = W4 m ρ c (Proc.devRef .tc main_arg8) := by
    show StableHlo.after hostOps1_4 (StableHlo.after hostOps1_3 (StableHlo.after hostOps1_2 (StableHlo.after hostOps1_1
      (StableHlo.after hostOps1 (W4 m ρ c))))) (Proc.devRef .tc main_arg8) = _
    after_results_simp
  exact h.trans ((W4_of_ne m ρ c main_arg8 (by decide)).trans (W3_arg8 m ρ c))

end Cert.KernelIdeal.Hand

end
-- ==== Proof.KHostB.lean ====
/-
  The kernel program's host operations around its two regions, read back at the extended reals: the transposed weight arrays
  and the bias vectors as one-row arrays (the regions' small operands), and the rows of the first region's result gathered by
  the label edges' endpoints. Each endpoint vector is one row of the label array padded with 4800 zeros to 204800 entries
  (so that the second region's blocks tile it), normalised (a negative index gets the node count added) and given a unit axis.
-/
import proofs.«155874_j48129403519234_2_alg».proof.Proof.Gen.KernelIdeal.Frame
import proofs.«155874_j48129403519234_2_alg».proof.Proof.KArgs
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- One row of the label array, as a vector, padded with 4800 zeros. -/
def eliPad (off : Fin 2 → Nat) (hs : S2x200000.Slices off S1x200000)
    (x2 : (⟨S2x200000, .i32⟩ : BufTy).Contents (Elt Ideal)) : (⟨S204800, .i32⟩ : BufTy).Contents (Elt Ideal) :=
  pad S204800 ![0] ![4800] ![0] (shapeCast S200000 (extractStridedSlice S1x200000 off x2 hs) shapeCasts_S1x200000_S200000)
    (id (constantI S_ 32 0#32)) pads_S200000_S204800_048000 h_S_

/-- An index vector normalised (a negative index gets 50000 added) and given a unit second axis. -/
def normIdx (P : (⟨S204800, .i32⟩ : BufTy).Contents (Elt Ideal)) : (⟨S204800x1, .i32⟩ : BufTy).Contents (Elt Ideal) :=
  broadcastInDim S204800x1 ![0] bcast_S204800_S204800x1_0
    (select (cmpi .slt P (broadcastInDim S204800 ![] bcast_S_S204800 (constantI S_ 32 0#32)))
      (addi P (broadcastInDim S204800 ![] bcast_S_S204800 (constantI S_ 32 50000#32))) P)

set_option maxHeartbeats 2000000 in
/-- The first region's weight operand: the transposed weight array. -/
theorem W3_v47 (c : Dev nD) : W3 m ρ c (Proc.devRef .tc main_v47)
    = transpose S128x128 [1, 0] (m ((c : Thread nD τ).loc main_arg3)) transposes_S128x128_S128x128_1_0 := by
  show StableHlo.after hostOps0_2 (StableHlo.after hostOps0_1 (StableHlo.after hostOps0 (W0 m ρ c))) (Proc.devRef .tc main_v47) = _
  after_results_simp <;> rfl

set_option maxHeartbeats 2000000 in
/-- The first region's bias operand: the bias vector as a one-row array. -/
theorem W3_v48 (c : Dev nD) : W3 m ρ c (Proc.devRef .tc main_v48)
    = shapeCast S1x128 (m ((c : Thread nD τ).loc main_arg4)) shapeCasts_S128_S1x128 := by
  show StableHlo.after hostOps0_2 (StableHlo.after hostOps0_1 (StableHlo.after hostOps0 (W0 m ρ c))) (Proc.devRef .tc main_v48) = _
  after_results_simp <;> rfl

/-- The label array is as launched when the first region is left. -/
theorem W4_arg (c : Dev nD) (k : Ref sig .tc) (hk : ∀ w, Pipeline.arrRef spec0 w ≠ k) :
    W4 m ρ c (Proc.devRef .tc k) = W3 m ρ c (Proc.devRef .tc k) := W4_of_ne m ρ c k hk

set_option maxHeartbeats 4000000 in
/-- The rows of the first region's result at the label edges' first endpoints. -/
theorem W9_v62 (c : Dev nD) : W9 m ρ c (Proc.devRef .tc main_v62)
    = Host.gather gather_S50000x128_S204800x1_S204800x128_1_0_n_n_0_1_1128 (W4 m ρ c (Proc.devRef .tc main_v49))
        (normIdx (eliPad ![0, 0] slices_S2x200000_S1x200000_0_0 (m ((c : Thread nD τ).loc main_arg2)))) := by
  have e2 : W4 m ρ c (Proc.devRef .tc main_arg2) = m ((c : Thread nD τ).loc main_arg2) :=
    (W4_of_ne m ρ c main_arg2 (by decide)).trans (W3_arg2 m ρ c)
  show StableHlo.after hostOps1_4 (StableHlo.after hostOps1_3 (StableHlo.after hostOps1_2 (StableHlo.after hostOps1_1
    (StableHlo.after hostOps1 (W4 m ρ c))))) (Proc.devRef .tc main_v62) = _
  generalize W4 m ρ c = w4 at e2 ⊢
  after_results_simp
  rw [e2]
  try rfl

set_option maxHeartbeats 4000000 in
/-- The rows of the first region's result at the label edges' second endpoints. -/
theorem W9_v69 (c : Dev nD) : W9 m ρ c (Proc.devRef .tc main_v69)
    = Host.gather gather_S50000x128_S204800x1_S204800x128_1_0_n_n_0_1_1128 (W4 m ρ c (Proc.devRef .tc main_v49))
        (normIdx (eliPad ![1, 0] slices_S2x200000_S1x200000_1_0 (m ((c : Thread nD τ).loc main_arg2)))) := by
  have e2 : W4 m ρ c (Proc.devRef .tc main_arg2) = m ((c : Thread nD τ).loc main_arg2) :=
    (W4_of_ne m ρ c main_arg2 (by decide)).trans (W3_arg2 m ρ c)
  show StableHlo.after hostOps1_4 (StableHlo.after hostOps1_3 (StableHlo.after hostOps1_2 (StableHlo.after hostOps1_1
    (StableHlo.after hostOps1 (W4 m ρ c))))) (Proc.devRef .tc main_v69) = _
  generalize W4 m ρ c = w4 at e2 ⊢
  after_results_simp
  rw [e2]
  try rfl

set_option maxHeartbeats 4000000 in
/-- The second region's weight operand: the transposed hidden-layer weight array. -/
theorem W9_v70 (c : Dev nD) : W9 m ρ c (Proc.devRef .tc main_v70)
    = transpose S128x64 [1, 0] (m ((c : Thread nD τ).loc main_arg5)) transposes_S64x128_S128x64_1_0 := by
  have e5 : W4 m ρ c (Proc.devRef .tc main_arg5) = m ((c : Thread nD τ).loc main_arg5) :=
    (W4_of_ne m ρ c main_arg5 (by decide)).trans (W3_arg5 m ρ c)
  show StableHlo.after hostOps1_4 (StableHlo.after hostOps1_3 (StableHlo.after hostOps1_2 (StableHlo.after hostOps1_1
    (StableHlo.after hostOps1 (W4 m ρ c))))) (Proc.devRef .tc main_v70) = _
  generalize W4 m ρ c = w4 at e5 ⊢
  after_results_simp
  rw [e5]
  try rfl

set_option maxHeartbeats 4000000 in
/-- The hidden layer's bias as a one-row array. -/
theorem W9_v71 (c : Dev nD) : W9 m ρ c (Proc.devRef .tc main_v71)
    = shapeCast S1x64 (m ((c : Thread nD τ).loc main_arg6)) shapeCasts_S64_S1x64 := by
  have e6 : W4 m ρ c (Proc.devRef .tc main_arg6) = m ((c : Thread nD τ).loc main_arg6) :=
    (W4_of_ne m ρ c main_arg6 (by decide)).trans (W3_arg6 m ρ c)
  show StableHlo.after hostOps1_4 (StableHlo.after hostOps1_3 (StableHlo.after hostOps1_2 (StableHlo.after hostOps1_1
    (StableHlo.after hostOps1 (W4 m ρ c))))) (Proc.devRef .tc main_v71) = _
  generalize W4 m ρ c = w4 at e6 ⊢
  after_results_simp
  rw [e6]
  try rfl

set_option maxHeartbeats 4000000 in
/-- The output bias as a one-by-one array. -/
theorem W9_v72 (c : Dev nD) : W9 m ρ c (Proc.devRef .tc main_v72)
    = shapeCast S1x1 (m ((c : Thread nD τ).loc main_arg8)) shapeCasts_S1_S1x1 := by
  have e8 : W4 m ρ c (Proc.devRef .tc main_arg8) = m ((c : Thread nD τ).loc main_arg8) :=
    (W4_of_ne m ρ c main_arg8 (by decide)).trans (W3_arg8 m ρ c)
  show StableHlo.after hostOps1_4 (StableHlo.after hostOps1_3 (StableHlo.after hostOps1_2 (StableHlo.after hostOps1_1
    (StableHlo.after hostOps1 (W4 m ρ c))))) (Proc.devRef .tc main_v72) = _
  generalize W4 m ρ c = w4 at e8 ⊢
  after_results_simp
  rw [e8]
  try rfl

end Cert.KernelIdeal.Hand

end
-- ==== Proof.Region0.lean ====
/-
  The first kernel region, read as one array. Its grid has ten points; point t loads rows 5000 t … 5000 t + 4999 of the
  node features H (an N × 128 array), the whole 128 × 128 weight array Wt and the 1 × 128 bias row b, and writes back
  the same rows of the result. Entry (r, o) of what it writes is (Σₖ H (r, k) · Wt (k, o)) + b (0, o): the matrix unit's
  product into a zero accumulator is that sum at the extended reals, the roundings to the 16-bit format on the way in and
  out do not change an extended real, and the bias row is spread over the rows. The ten blocks tile the array, so the
  array the region leaves is that one function of the three arrays it found.
-/
import proofs.«155874_j48129403519234_2_alg».proof.Proof.Gen.KernelIdeal.Frame
import proofs.«155874_j48129403519234_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl

/-- The dense layer as one function of the three arrays: entry (r, o) is (Σₖ H (r, k) · Wt (k, o)) + b (0, o). -/
def lin (Hh : S50000x128.Idx → EReal) (Wt : S128x128.Idx → EReal) (b : S1x128.Idx → EReal) : S50000x128.Idx → EReal :=
  fun i => (∑ k : Fin 128, Hh (ix2 (i 0) k) * Wt (ix2 k (i 1))) + b (ix2 (0 : Fin 1) (i 1))

/-- What the body stores, at row p and column q of its block, from the three blocks it loaded. -/
theorem pay0_apply (x0 : Vec Ideal S5000x128 .f32) (x1 : Vec Ideal S128x128 .f32) (x2 : Vec Ideal S1x128 .f32)
    (p : Fin 5000) (q : Fin 128) :
    k0_pay1 x0 x1 x2 (ix2 p q) = (∑ k : Fin 128, x0 (ix2 p k) * x1 (ix2 k q)) + x2 (ix2 (0 : Fin 1) q) := by
  unfold k0_pay1
  refine (addf_apply _ _ _).trans (congrArg₂ (· + ·) ?_ ?_)
  · refine (Cert.Proof.PlainDot.matmul_plain_zero (M := 5000) (K := 128) (N := 128) none _ _ (ix2 p q)).trans ?_
    simp only [shapeCast_self]
    rfl
  · refine (broadcastTo_1b_ab_apply _ broadcasts_S1x128_S5000x128 p q).trans ?_
    rw [shapeCast_self]

/-- The printed index maps over the grid: the row blocks move with the point, the weight and bias blocks stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-- WHAT POINT t WRITES BACK is block t of the dense layer of the arrays as the region finds them. -/
theorem flushed0_eq (c : Dev nD) (t : Fin cfg0.N) :
    (dat0 V c).flushed 3 t
      = ((cfg0.win 3).blk t).view.read (Elt Ideal) (lin (V c main_v46) (V c main_v47) (V c main_v48)) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128x128) hz2,
    View.ld_unit_zero (S := S1x128) hz2]
  obtain ⟨e0, e1, e2, e3, e4, e5, e6, e7⟩ := idx_facts0 t
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q)
      = lin (V c main_v46) (V c main_v47) (V c main_v48) (((cfg0.win 3).blk t).view.emb (ix2 p q))
  refine (pay0_apply (iblk0 V c 0 t) (iblk0 V c 1 t) (iblk0 V c 2 t) p q).trans ?_
  unfold lin
  refine congrArg₂ (· + ·) (Finset.sum_congr rfl fun k _ => congrArg₂ (· * ·) ?_ ?_) ?_
  · show V c main_v46 (((cfg0.win 0).blk t).view.emb (ix2 p k))
        = V c main_v46 (ix2 ((((cfg0.win 3).blk t).view.emb (ix2 p q)) 0) k)
    refine congrArg (V c main_v46) (funext fun a => Fin.ext ?_)
    match a with
    | ⟨0, _⟩ =>
      show win0_0.index t (0 : Fin 2) * 5000 + 1 * p.val = win0_3.index t (0 : Fin 2) * 5000 + 1 * p.val
      rw [e0, e6]
    | ⟨1, _⟩ =>
      show win0_0.index t (1 : Fin 2) * 128 + 1 * k.val = k.val
      rw [e1]; omega
  · show V c main_v47 (((cfg0.win 1).blk t).view.emb (ix2 k q))
        = V c main_v47 (ix2 k ((((cfg0.win 3).blk t).view.emb (ix2 p q)) 1))
    refine congrArg (V c main_v47) (funext fun a => Fin.ext ?_)
    match a with
    | ⟨0, _⟩ =>
      show win0_1.index t (0 : Fin 2) * 128 + 1 * k.val = k.val
      rw [e2]; omega
    | ⟨1, _⟩ =>
      show win0_1.index t (1 : Fin 2) * 128 + 1 * q.val = win0_3.index t (1 : Fin 2) * 128 + 1 * q.val
      rw [e3, e7]
  · show V c main_v48 (((cfg0.win 2).blk t).view.emb (ix2 (0 : Fin 1) q))
        = V c main_v48 (ix2 (0 : Fin 1) ((((cfg0.win 3).blk t).view.emb (ix2 p q)) 1))
    refine congrArg (V c main_v48) (funext fun a => Fin.ext ?_)
    match a with
    | ⟨0, _⟩ =>
      show win0_2.index t (0 : Fin 2) * 1 + 1 * 0 = 0
      rw [e4]
    | ⟨1, _⟩ =>
      show win0_2.index t (1 : Fin 2) * 128 + 1 * q.val = win0_3.index t (1 : Fin 2) * 128 + 1 * q.val
      rw [e5, e7]

/-- An index of the result array is in point t's block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v49).slice (win0_3.rect t)).set ↔ _
  rw [View.set_slice_whole, Rect.mem_set_unit]
  exact Iff.rfl

/-- Row r of the result lies in the block of point r / 5000. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  have hlt : (i 0).val / 5000 < cfg0.N := by rw [hN]; omega
  obtain ⟨e0, e1, e2, e3, e4, e5, e6, e7⟩ := idx_facts0 ⟨(i 0).val / 5000, hlt⟩
  refine ⟨⟨(i 0).val / 5000, hlt⟩, flush0_3 _, ?_⟩
  rw [mem_blk0]
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    rw [e6]
    show (i 0).val / 5000 * 5000 ≤ (i 0).val ∧ (i 0).val < (i 0).val / 5000 * 5000 + 5000
    omega
  | ⟨1, _⟩ =>
    show win0_3.index ⟨(i 0).val / 5000, hlt⟩ (1 : Fin 2) * 128 ≤ (i 1).val
      ∧ (i 1).val < win0_3.index ⟨(i 0).val / 5000, hlt⟩ (1 : Fin 2) * 128 + 128
    rw [e7]
    omega

/-- THE ARRAY the first region leaves: the dense layer of the three arrays it found. -/
theorem final0 (c : Dev nD) :
    (dat0 V c).arrAt 3 cfg0.N = lin (V c main_v46) (V c main_v47) (V c main_v48) :=
  (dat0 V c).arrAt_eq_of_cover 3 (lin (V c main_v46) (V c main_v47) (V c main_v48))
    (fun t _ => flushed0_eq V c t) (fun i => cover0 i)

end

end Cert.KernelIdeal.Hand

end
-- ==== Proof.LibColumns.lean ====
/-
  Column forms of three layout operations, read at an index of literal coordinates.

  A sum over the lanes of an `a × b` array keeps one entry per row; kernels then give that column vector a unit second
  axis (`[a] → [a, 1]`) and spread it back over the lanes (`[a, 1] → [a, b]`). Read at an index:

  * `shapeCast_a_a1_apply`: the cast of `x : [a]` to `[a, 1]` at `(r, u)` is `x r`, whatever the unit coordinate `u`;
  * `broadcastTo_a1_ab_apply`: the broadcast of `v : [a, 1]` to `[a, b]` at `(r, c)` is `v (r, 0)`;
  * `shapeCast_a1_1a_apply`: the cast of a column `x : [a, 1]` to a row `[1, a]` at `(u, c)` is `x (c, 0)`;
  * `lift_rows`: over a row index `r`, the source index with lane `k` put back is `(r, k)`;
  * `multiReduction_add_rows`: at the extended reals the lane sum of `x : [a, b]` at row `r` is `∑ k, x (r, k)`.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Proof.Columns

open Idealize.ShloMosaic Idealize.ShloMosaic.ValueIdx

variable {α : Type}

/-- An `[a]` array cast to `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` cast to a row `[1, a]` reads, at `(u, c)`, the operand at `(c, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (c : Fin a) : shapeCast ⟨2, ![1, a]⟩ x h (ix2 u c) = x (ix2 c (0 : Fin 1)) :=
  shapeCast_apply x h _ _ (by
    have hu : u.val = 0 := by omega
    rw [Shape.rowMajor_val_two, Shape.rowMajor_val_two]
    show c.val * 1 + 0 = u.val * a + c.val
    rw [hu, Nat.zero_mul, Nat.zero_add, Nat.mul_one, Nat.add_zero])

/-- An `[a, 1]` array broadcast to `[a, b]` reads, at `(r, c)`, the operand's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Over the row index `r`, the source index whose lane coordinate is `k` is `(r, k)`. -/
theorem lift_rows {a b : ℕ} (h : (⟨2, ![a, b]⟩ : Shape).Reduces [(1 : Fin 2)] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lanes of an `a × b` array, at the extended reals and at row `r`, is `∑ k, x (r, k)`. The
    accumulator fact is taken in the form a printed program carries it. -/
theorem multiReduction_add_rows {a b : ℕ} {φ : FTy} (x : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (r : Fin a) :
    multiReduction .add [(1 : Fin 2)] ⟨1, ![a]⟩ x acc h hφ hacc (ix1 r) = ∑ k : Fin b, x (ix2 r k) := by
  refine (Ideal.multiReduction_add_single x acc h hφ hacc (ix1 r)).trans ?_
  exact Finset.sum_congr rfl fun k _ => congrArg x (lift_rows h r k)

end Cert.Proof.Columns

end
-- ==== Proof.Region1.lean ====
/-
  The second kernel region, read as one array. Its grid has twenty-five points; point t loads rows 8192 t … 8192 t + 8191
  of the two gathered embedding arrays Z0 and Z1 (204800 × 128 each), the whole 128 × 64 weight array W, the 1 × 64 bias row
  b1, the 1 × 64 output row w2 and the 1 × 1 bias b2, and writes back entries 8192 t … 8192 t + 8191 of the result. Entry i is

      (Σⱼ max ((Σₖ (Z0 (i, k) · Z1 (i, k)) · W (k, j)) + b1 (0, j)) 0 · w2 (0, j)) + b2 (0, 0):

  the widenings and roundings between the 16-bit and 32-bit formats do not change an extended real, the matrix unit's product
  into a zero accumulator and the lane sum from a zero accumulator are plain sums there, and the rows b1, w2 and the entry b2
  are spread over the block. The blocks tile the result, so the array the region leaves is that one function of what it found.
-/
import proofs.«155874_j48129403519234_2_alg».proof.Proof.Gen.KernelIdeal.Frame
import proofs.«155874_j48129403519234_2_alg».proof.Proof.LibPlainDot
import proofs.«155874_j48129403519234_2_alg».proof.Proof.LibColumns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

theorem hz2' : (![0, 0] : Fin 2 → Nat) = fun _ => 0 := funext fun a => by fin_cases a <;> rfl
theorem hz1 : (![0] : Fin 1 → Nat) = fun _ => 0 := funext fun a => by fin_cases a; rfl

/-- A column [a, 1] cast to a vector [a] reads, at r, the column's entry of row r. -/
theorem shapeCast_a1_a_apply {α : Type} {a : ℕ} (x : (⟨2, ![a, 1]⟩ : Shape).Idx → α)
    (h : (⟨2, ![a, 1]⟩ : Shape).ShapeCasts ⟨1, ![a]⟩) (r : Fin a) :
    shapeCast ⟨1, ![a]⟩ x h (ix1 r) = x (ix2 r (0 : Fin 1)) :=
  shapeCast_apply x h _ _ (by
    rw [Shape.rowMajor_val_two, Shape.rowMajor_val_one]
    show r.val * 1 + 0 = r.val
    rw [Nat.mul_one, Nat.add_zero])

/-- The decoder as one function of the six arrays. -/
def dec (Z0 Z1 : S204800x128.Idx → EReal) (W : S128x64.Idx → EReal) (b1 w2 : S1x64.Idx → EReal)
    (b2 : S1x1.Idx → EReal) : S204800.Idx → EReal :=
  fun i => (∑ j : Fin 64, max ((∑ k : Fin 128, (Z0 (ix2 (i 0) k) * Z1 (ix2 (i 0) k)) * W (ix2 k j))
      + b1 (ix2 (0 : Fin 1) j)) 0 * w2 (ix2 (0 : Fin 1) j)) + b2 (ix2 (0 : Fin 1) (0 : Fin 1))

/-- What the body stores, at entry r of its block, from the six blocks it loaded. -/
theorem pay1_apply (x0 x1 : Vec Ideal S8192x128 .bf16) (x2 : Vec Ideal S128x64 .f32) (x3 x4 : Vec Ideal S1x64 .f32)
    (x5 : Vec Ideal S1x1 .f32) (r : Fin 8192) :
    k1_pay1 x0 x1 x2 x3 x4 x5 (ix1 r)
      = (∑ j : Fin 64, max ((∑ k : Fin 128, (x0 (ix2 r k) * x1 (ix2 r k)) * x2 (ix2 k j))
          + x3 (ix2 (0 : Fin 1) j)) 0 * x4 (ix2 (0 : Fin 1) j)) + x5 (ix2 (0 : Fin 1) (0 : Fin 1)) := by
  unfold k1_pay1
  try dsimp only
  refine (shapeCast_a1_a_apply _ shapeCasts_S8192x1_S8192 r).trans ?_
  refine (addf_apply _ _ _).trans (congrArg₂ (· + ·) ?_ ?_)
  · refine (Cert.Proof.Columns.shapeCast_a_a1_apply _ shapeCasts_S8192_S8192x1 r 0).trans ?_
    refine (Cert.Proof.Columns.multiReduction_add_rows _ 0x00000000#32 reduces_S8192x64_S8192 (.inl rfl) rfl r).trans ?_
    refine Finset.sum_congr rfl fun j _ => ?_
    refine (mulf_apply _ _ _).trans (congrArg₂ (· * ·) ?_ ?_)
    · refine (maximumf_apply _ _ _).trans (congrArg₂ max ?_ Ideal.ofBits_zero_f32)
      refine (addf_apply _ _ _).trans (congrArg₂ (· + ·) ?_ ?_)
      · refine (Cert.Proof.PlainDot.matmul_plain_zero (M := 8192) (K := 128) (N := 64) none _ _ (ix2 r j)).trans ?_
        simp only [shapeCast_self]
        rfl
      · refine (broadcastTo_1b_ab_apply _ broadcasts_S1x64_S8192x64 r j).trans ?_
        rw [shapeCast_self]
    · exact broadcastTo_1b_ab_apply x4 broadcasts_S1x64_S8192x64 r j
  · refine (broadcastTo_1b_ab_apply _ broadcasts_S1x1_S8192x1 r (0 : Fin 1)).trans ?_
    rw [shapeCast_self]

/-- The printed index maps over the grid: the row blocks move with the point, the others stay. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 1) = t.val :=
  (by decide +kernel : ∀ t : Fin grid1.N, _)

section
variable (V : (c : Dev nD) → (b : Ref sig .tc) → Buf (Elt Ideal) ((c : Thread nD τ).loc b))

set_option maxHeartbeats 4000000 in
/-- WHAT POINT t WRITES BACK is block t of the decoder of the arrays as the region finds them. -/
theorem flushed1_eq (c : Dev nD) (t : Fin cfg1.N) :
    (dat1 V c).flushed 6 t
      = ((cfg1.win 6).blk t).view.read (Elt Ideal)
          (dec (V c main_v62) (V c main_v69) (V c main_v70) (V c main_v71) (V c main_arg7) (V c main_v72)) := by
  show (cfg1.win 6).cut (grid1.coords t) ((dat1 V c).after 6 t) = _
  rw [after1_6]
  unfold out1_6
  rw [View.canon_unit_zero hz1]
  simp only [View.ld_unit_zero (S := S8192x128) hz2', View.ld_unit_zero (S := S128x64) hz2',
    View.ld_unit_zero (S := S1x64) hz2', View.ld_unit_zero (S := S1x1) hz2']
  obtain ⟨e0, e1, e2, e3, e4, e5, e6, e7, e8, e9, e10, e11, e12⟩ := idx_facts1 t
  funext j
  obtain ⟨r, rfl⟩ : ∃ (r : Fin 8192), j = ix1 r := ⟨j 0, eq_ix1 j⟩
  show k1_pay1 (iblk1 V c 0 t) (iblk1 V c 1 t) (iblk1 V c 2 t) (iblk1 V c 3 t) (iblk1 V c 4 t) (iblk1 V c 5 t) (ix1 r)
      = dec (V c main_v62) (V c main_v69) (V c main_v70) (V c main_v71) (V c main_arg7) (V c main_v72)
          (((cfg1.win 6).blk t).view.emb (ix1 r))
  refine (pay1_apply (iblk1 V c 0 t) (iblk1 V c 1 t) (iblk1 V c 2 t) (iblk1 V c 3 t) (iblk1 V c 4 t) (iblk1 V c 5 t) r).trans ?_
  unfold dec
  have hrow : ∀ k : Fin 128, ((cfg1.win 0).blk t).view.emb (ix2 r k)
      = ix2 ((((cfg1.win 6).blk t).view.emb (ix1 r)) 0) k := fun k => funext fun a => Fin.ext (by
    match a with
    | ⟨0, _⟩ =>
      show win1_0.index t (0 : Fin 2) * 8192 + 1 * r.val = win1_6.index t (0 : Fin 1) * 8192 + 1 * r.val
      rw [e0, e12]
    | ⟨1, _⟩ =>
      show win1_0.index t (1 : Fin 2) * 128 + 1 * k.val = k.val
      rw [e1]; omega)
  have hrow' : ∀ k : Fin 128, ((cfg1.win 1).blk t).view.emb (ix2 r k)
      = ix2 ((((cfg1.win 6).blk t).view.emb (ix1 r)) 0) k := fun k => funext fun a => Fin.ext (by
    match a with
    | ⟨0, _⟩ =>
      show win1_1.index t (0 : Fin 2) * 8192 + 1 * r.val = win1_6.index t (0 : Fin 1) * 8192 + 1 * r.val
      rw [e2, e12]
    | ⟨1, _⟩ =>
      show win1_1.index t (1 : Fin 2) * 128 + 1 * k.val = k.val
      rw [e3]; omega)
  have h0 : ∀ k : Fin 128, iblk1 V c 0 t (ix2 r k) = V c main_v62 (ix2 ((((cfg1.win 6).blk t).view.emb (ix1 r)) 0) k) :=
    fun k => congrArg (V c main_v62) (hrow k)
  have h1 : ∀ k : Fin 128, iblk1 V c 1 t (ix2 r k) = V c main_v69 (ix2 ((((cfg1.win 6).blk t).view.emb (ix1 r)) 0) k) :=
    fun k => congrArg (V c main_v69) (hrow' k)
  have h2 : ∀ (k : Fin 128) (j : Fin 64), iblk1 V c 2 t (ix2 k j) = V c main_v70 (ix2 k j) := fun k j => by
    show V c main_v70 (((cfg1.win 2).blk t).view.emb (ix2 k j)) = V c main_v70 (ix2 k j)
    refine congrArg (V c main_v70) (funext fun a => Fin.ext ?_)
    match a with
    | ⟨0, _⟩ =>
      show win1_2.index t (0 : Fin 2) * 128 + 1 * k.val = k.val
      rw [e4]; omega
    | ⟨1, _⟩ =>
      show win1_2.index t (1 : Fin 2) * 64 + 1 * j.val = j.val
      rw [e5]; omega
  have h3 : ∀ j : Fin 64, iblk1 V c 3 t (ix2 (0 : Fin 1) j) = V c main_v71 (ix2 (0 : Fin 1) j) := fun j => by
    show V c main_v71 (((cfg1.win 3).blk t).view.emb (ix2 (0 : Fin 1) j)) = V c main_v71 (ix2 (0 : Fin 1) j)
    refine congrArg (V c main_v71) (funext fun a => Fin.ext ?_)
    match a with
    | ⟨0, _⟩ =>
      show win1_3.index t (0 : Fin 2) * 1 + 1 * 0 = 0
      rw [e6]
    | ⟨1, _⟩ =>
      show win1_3.index t (1 : Fin 2) * 64 + 1 * j.val = j.val
      rw [e7]; omega
  have h4 : ∀ j : Fin 64, iblk1 V c 4 t (ix2 (0 : Fin 1) j) = V c main_arg7 (ix2 (0 : Fin 1) j) := fun j => by
    show V c main_arg7 (((cfg1.win 4).blk t).view.emb (ix2 (0 : Fin 1) j)) = V c main_arg7 (ix2 (0 : Fin 1) j)
    refine congrArg (V c main_arg7) (funext fun a => Fin.ext ?_)
    match a with
    | ⟨0, _⟩ =>
      show win1_4.index t (0 : Fin 2) * 1 + 1 * 0 = 0
      rw [e8]
    | ⟨1, _⟩ =>
      show win1_4.index t (1 : Fin 2) * 64 + 1 * j.val = j.val
      rw [e9]; omega
  have h5 : iblk1 V c 5 t (ix2 (0 : Fin 1) (0 : Fin 1)) = V c main_v72 (ix2 (0 : Fin 1) (0 : Fin 1)) := by
    show V c main_v72 (((cfg1.win 5).blk t).view.emb (ix2 (0 : Fin 1) (0 : Fin 1))) = V c main_v72 (ix2 (0 : Fin 1) (0 : Fin 1))
    refine congrArg (V c main_v72) (funext fun a => Fin.ext ?_)
    match a with
    | ⟨0, _⟩ =>
      show win1_5.index t (0 : Fin 2) * 1 + 1 * 0 = 0
      rw [e10]
    | ⟨1, _⟩ =>
      show win1_5.index t (1 : Fin 2) * 1 + 1 * 0 = 0
      rw [e11]
  rw [h5]
  refine congrArg (· + V c main_v72 (ix2 (0 : Fin 1) (0 : Fin 1))) (Finset.sum_congr rfl fun j _ => ?_)
  rw [h3 j, h4 j]
  refine congrArg (fun z => max (z + V c main_v71 (ix2 (0 : Fin 1) j)) 0 * V c main_arg7 (ix2 (0 : Fin 1) j))
    (Finset.sum_congr rfl fun k _ => ?_)
  rw [h0 k, h1 k, h2 k j]

/-- An index of the result array is in point t's block iff it is in the block's range. -/
theorem mem_blk1 (t : Fin cfg1.N) (i : S204800.Idx) :
    i ∈ ((cfg1.win 6).blk t).view.set ↔ ∀ a : Fin 1, win1_6.index t a * S8192.size a ≤ (i a).val
      ∧ (i a).val < win1_6.index t a * S8192.size a + S8192.size a := by
  show i ∈ ((View.whole main_v73).slice (win1_6.rect t)).set ↔ _
  rw [View.set_slice_whole, Rect.mem_set_unit]
  exact Iff.rfl

/-- Entry i of the result lies in the block of point i / 8192. -/
theorem cover1 (i : S204800.Idx) :
    ∃ t : Fin cfg1.N, (cfg1.win 6).flush t = true ∧ i ∈ ((cfg1.win 6).blk t).view.set := by
  have hi0 : (i 0).val < 204800 := (i 0).isLt
  have hN : cfg1.N = 25 := N_1
  have hlt : (i 0).val / 8192 < cfg1.N := by rw [hN]; omega
  obtain ⟨e0, e1, e2, e3, e4, e5, e6, e7, e8, e9, e10, e11, e12⟩ := idx_facts1 ⟨(i 0).val / 8192, hlt⟩
  refine ⟨⟨(i 0).val / 8192, hlt⟩, flush1_6 _, ?_⟩
  rw [mem_blk1]
  intro a
  match a with
  | ⟨0, _⟩ =>
    show win1_6.index ⟨(i 0).val / 8192, hlt⟩ (0 : Fin 1) * 8192 ≤ (i 0).val
      ∧ (i 0).val < win1_6.index ⟨(i 0).val / 8192, hlt⟩ (0 : Fin 1) * 8192 + 8192
    rw [e12]
    show (i 0).val / 8192 * 8192 ≤ (i 0).val ∧ (i 0).val < (i 0).val / 8192 * 8192 + 8192
    omega

/-- THE ARRAY the second region leaves: the decoder of the six arrays it found. -/
theorem final1 (c : Dev nD) :
    (dat1 V c).arrAt 6 cfg1.N
      = dec (V c main_v62) (V c main_v69) (V c main_v70) (V c main_v71) (V c main_arg7) (V c main_v72) :=
  (dat1 V c).arrAt_eq_of_cover 6
    (dec (V c main_v62) (V c main_v69) (V c main_v70) (V c main_v71) (V c main_arg7) (V c main_v72))
    (fun t _ => flushed1_eq V c t) (fun i => cover1 i)

end

end Cert.KernelIdeal.Hand

end
-- ==== Proof.KValue.lean ====
/-
  The kernel program's result as one function of its argument arrays, at the extended reals: two propagation steps of the
  input features, the dense layer (the first region's array), its rows gathered by the label edges' padded endpoints, the
  decoder over the gathered rows (the second region's array), and the first 200000 entries of that.
-/
import proofs.«155874_j48129403519234_2_alg».proof.Proof.KRun
import proofs.«155874_j48129403519234_2_alg».proof.Proof.KHostA
import proofs.«155874_j48129403519234_2_alg».proof.Proof.KHostB
import proofs.«155874_j48129403519234_2_alg».proof.Proof.Region0
import proofs.«155874_j48129403519234_2_alg».proof.Proof.Region1
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

/-- The first region leaves the dense layer of what its three operands held at entry. -/
theorem W4_v49 (c : Dev nD) : W4 m ρ c (Proc.devRef .tc main_v49)
    = lin (W3 m ρ c (Proc.devRef .tc main_v46)) (W3 m ρ c (Proc.devRef .tc main_v47)) (W3 m ρ c (Proc.devRef .tc main_v48)) :=
  (W4_arr m ρ c 3).trans (final0 (V3 m ρ) c)

/-- The second region leaves the decoder of what its six operands held at entry. -/
theorem W10_v73 (c : Dev nD) : W10 m ρ c (Proc.devRef .tc main_v73)
    = dec (W9 m ρ c (Proc.devRef .tc main_v62)) (W9 m ρ c (Proc.devRef .tc main_v69)) (W9 m ρ c (Proc.devRef .tc main_v70))
        (W9 m ρ c (Proc.devRef .tc main_v71)) (W9 m ρ c (Proc.devRef .tc main_arg7)) (W9 m ρ c (Proc.devRef .tc main_v72)) :=
  (W10_arr m ρ c 6).trans (final1 (V9 m ρ) c)

/-- The result is the first 200000 entries of the second region's array. -/
theorem W11_v74 (c : Dev nD) : W11 m ρ c (Proc.devRef .tc main_v74)
    = extractStridedSlice S200000 ![0] (W10 m ρ c (Proc.devRef .tc main_v73)) slices_S204800_S200000_0 := by
  show StableHlo.after hostOps2 (W10 m ρ c) (Proc.devRef .tc main_v74) = _
  generalize W10 m ρ c = w10
  after_results_simp

/-- The embeddings: the dense layer of two propagation steps of the features. -/
def embK (x0 : (⟨S50000x128, .f32⟩ : BufTy).Contents (Elt Ideal)) (x1 : (⟨S2x600000, .i32⟩ : BufTy).Contents (Elt Ideal))
    (x3 : (⟨S128x128, .f32⟩ : BufTy).Contents (Elt Ideal)) (x4 : (⟨S128, .f32⟩ : BufTy).Contents (Elt Ideal)) : S50000x128.Idx → EReal :=
  lin (stepK x1 (stepK x1 x0)) (transpose S128x128 [1, 0] x3 transposes_S128x128_S128x128_1_0)
    (shapeCast S1x128 x4 shapeCasts_S128_S1x128)

/-- THE KERNEL PROGRAM'S RESULT as a function of its argument arrays. -/
def outK (x0 : (⟨S50000x128, .f32⟩ : BufTy).Contents (Elt Ideal)) (x1 : (⟨S2x600000, .i32⟩ : BufTy).Contents (Elt Ideal))
    (x2 : (⟨S2x200000, .i32⟩ : BufTy).Contents (Elt Ideal)) (x3 : (⟨S128x128, .f32⟩ : BufTy).Contents (Elt Ideal))
    (x4 : (⟨S128, .f32⟩ : BufTy).Contents (Elt Ideal)) (x5 : (⟨S64x128, .f32⟩ : BufTy).Contents (Elt Ideal))
    (x6 : (⟨S64, .f32⟩ : BufTy).Contents (Elt Ideal)) (x7 : (⟨S1x64, .f32⟩ : BufTy).Contents (Elt Ideal))
    (x8 : (⟨S1, .f32⟩ : BufTy).Contents (Elt Ideal)) : S200000.Idx → EReal :=
  extractStridedSlice S200000 ![0]
    (dec (Host.gather gather_S50000x128_S204800x1_S204800x128_1_0_n_n_0_1_1128 (embK x0 x1 x3 x4)
            (normIdx (eliPad ![0, 0] slices_S2x200000_S1x200000_0_0 x2)))
         (Host.gather gather_S50000x128_S204800x1_S204800x128_1_0_n_n_0_1_1128 (embK x0 x1 x3 x4)
            (normIdx (eliPad ![1, 0] slices_S2x200000_S1x200000_1_0 x2)))
         (transpose S128x64 [1, 0] x5 transposes_S64x128_S128x64_1_0) (shapeCast S1x64 x6 shapeCasts_S64_S1x64) x7
         (shapeCast S1x1 x8 shapeCasts_S1_S1x1))
    slices_S204800_S200000_0

/-- The fold of the kernel program's stretches and regions, read at the result's buffer, is that function. -/
theorem kernel_value (c : Dev nD) : W11 m ρ c (Proc.devRef .tc main_v74)
    = outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [W11_v74, W10_v73, W9_v62, W9_v69, W9_v70, W9_v71, W9_v72, W9_arg7, W4_v49, W3_v46, W3_v47, W3_v48]
  rfl

/-- THE KERNEL PROGRAM'S RUN, read: the result array at `outK` of the argument arrays, the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v74) = outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (kernel_value m ρ c), (h c).2⟩) (run_value m ρ)

end Cert.KernelIdeal.Hand

end
-- ==== Proof.LibStages.lean ====
/-
  Reading a straight line of host operations back in stages.

  The contents a line of operations leaves are a fold of the operations' results over the contents it starts from, so a
  line cut in two anywhere is read back in two steps: the head part from the starting contents, then the tail part from
  what the head part leaves. Cutting a long line into short stages, each read back once over ARBITRARY starting
  contents, keeps every term as small as one stage.
-/
import Idealize.ShloMosaic.Lib.StableHlo.Run

noncomputable section

namespace Idealize.ShloMosaic.StableHlo

variable {τ : Topo} {sig : RefSig} {Val : EltTy → Type}

/-- The contents after two lines run one after the other: the second line's, from what the first leaves. -/
theorem after_append (A B : List (HloOp τ sig Val)) (V : Valuation τ sig Val) :
    after (A ++ B) V = after B (after A V) := by
  induction A generalizing V with
  | nil => rfl
  | cons a A ih => exact ih (a.result V)

/-- A line cut after its first `n` operations: the rest, from what the first `n` leave. -/
theorem after_take_drop (n : Nat) (ops : List (HloOp τ sig Val)) (V : Valuation τ sig Val) :
    after ops V = after (ops.drop n) (after (ops.take n) V) := by
  rw [← after_append, List.take_append_drop]

end Idealize.ShloMosaic.StableHlo

end
-- ==== Proof.RefValue.lean ====
/-
  The reference program's run, read back: the result buffer ends at the composition of the program's stages (the reference's
  own operations, one value per operation, as functions of the argument arrays), and the arguments end unchanged. The fold of
  the 115 host operations is read in eight consecutive stages, each from ARBITRARY starting contents of which only the few
  buffers the later stages read are known; what a stage leaves in those buffers is the next stage's knowledge.
-/
import proofs.«155874_j48129403519234_2_alg».proof.Proof.RefRun
import proofs.«155874_j48129403519234_2_alg».proof.Proof.RefRead
import proofs.«155874_j48129403519234_2_alg».proof.Proof.LibStages
import Idealize.ShloMosaic.Lib.StableHlo.Run

set_option maxRecDepth 16384

noncomputable section

namespace Cert.ReferenceIdeal.Hand

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

/-- Reads what a one-pass rewriting of a fold of host operations left unread (the operands inside a concatenation's list). -/
macro "finish_results" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

variable (m : (ℓ : Loc nD τ sig) → Buf (Elt Ideal) ℓ)

set_option maxHeartbeats 40000000 in
/-- THE RESULT BUFFER after the reference's operations holds the last stage's value of the argument arrays. -/
theorem value (c : Dev nD) :
    after (ops (F := Ideal)) (launchContents m c) (Proc.devRef .tc main_v91)
      = val_main_v91 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [ops_eq]
  simp only [after_append]
  generalize hV : launchContents m c = V0
  have a0_0 : V0 (Proc.devRef .tc main_arg0) = (m ((c.tc : Thread nD τ).loc main_arg0)) := by rw [← hV]
  have a0_2 : V0 (Proc.devRef .tc main_arg2) = (m ((c.tc : Thread nD τ).loc main_arg2)) := by rw [← hV]
  have a0_3 : V0 (Proc.devRef .tc main_arg3) = (m ((c.tc : Thread nD τ).loc main_arg3)) := by rw [← hV]
  have a0_4 : V0 (Proc.devRef .tc main_arg4) = (m ((c.tc : Thread nD τ).loc main_arg4)) := by rw [← hV]
  have a0_5 : V0 (Proc.devRef .tc main_arg5) = (m ((c.tc : Thread nD τ).loc main_arg5)) := by rw [← hV]
  have a0_6 : V0 (Proc.devRef .tc main_arg6) = (m ((c.tc : Thread nD τ).loc main_arg6)) := by rw [← hV]
  have a0_7 : V0 (Proc.devRef .tc main_arg7) = (m ((c.tc : Thread nD τ).loc main_arg7)) := by rw [← hV]
  have a0_8 : V0 (Proc.devRef .tc main_arg8) = (m ((c.tc : Thread nD τ).loc main_arg8)) := by rw [← hV]
  have a0_1 : V0 (Proc.devRef .tc main_arg1) = (m ((c.tc : Thread nD τ).loc main_arg1)) := by rw [← hV]
  -- stage 1: the index vectors, the in-degree's sign and inverse square root
  generalize h1 : after ops_s1 V0 = W1
  have b3 : W1 (Proc.devRef .tc main_v3) = val_main_v3 (F := Ideal) (m ((c.tc : Thread nD τ).loc main_arg1)) := by
    rw [← h1]; after_results_simp <;> (finish_results; rw [a0_1]; rfl)
  have b6 : W1 (Proc.devRef .tc main_v6) = val_main_v6 (F := Ideal) (m ((c.tc : Thread nD τ).loc main_arg1)) := by
    rw [← h1]; after_results_simp <;> (finish_results; rw [a0_1]; rfl)
  have b12 : W1 (Proc.devRef .tc main_v12) = val_main_v12 (F := Ideal) (m ((c.tc : Thread nD τ).loc main_arg1)) := by
    rw [← h1]; after_results_simp <;> (finish_results; rw [a0_1]; rfl)
  have b13 : W1 (Proc.devRef .tc main_v13) = val_main_v13 (F := Ideal) (m ((c.tc : Thread nD τ).loc main_arg1)) := by
    rw [← h1]; after_results_simp <;> (finish_results; rw [a0_1]; rfl)
  have bc2 : W1 (Proc.devRef .tc main_cst_2) = val_main_cst_2 (F := Ideal) := by
    rw [← h1]; after_results_simp <;> rfl
  have a1_0 : W1 (Proc.devRef .tc main_arg0) = (m ((c.tc : Thread nD τ).loc main_arg0)) := by rw [← h1]; after_results_simp; exact a0_0
  have a1_2 : W1 (Proc.devRef .tc main_arg2) = (m ((c.tc : Thread nD τ).loc main_arg2)) := by rw [← h1]; after_results_simp; exact a0_2
  have a1_3 : W1 (Proc.devRef .tc main_arg3) = (m ((c.tc : Thread nD τ).loc main_arg3)) := by rw [← h1]; after_results_simp; exact a0_3
  have a1_4 : W1 (Proc.devRef .tc main_arg4) = (m ((c.tc : Thread nD τ).loc main_arg4)) := by rw [← h1]; after_results_simp; exact a0_4
  have a1_5 : W1 (Proc.devRef .tc main_arg5) = (m ((c.tc : Thread nD τ).loc main_arg5)) := by rw [← h1]; after_results_simp; exact a0_5
  have a1_6 : W1 (Proc.devRef .tc main_arg6) = (m ((c.tc : Thread nD τ).loc main_arg6)) := by rw [← h1]; after_results_simp; exact a0_6
  have a1_7 : W1 (Proc.devRef .tc main_arg7) = (m ((c.tc : Thread nD τ).loc main_arg7)) := by rw [← h1]; after_results_simp; exact a0_7
  have a1_8 : W1 (Proc.devRef .tc main_arg8) = (m ((c.tc : Thread nD τ).loc main_arg8)) := by rw [← h1]; after_results_simp; exact a0_8
  clear h1 hV a0_0 a0_1 a0_2 a0_3 a0_4 a0_5 a0_6 a0_7 a0_8
  -- stage 2: the guarded scale
  generalize h2 : after ops_s2 W1 = W2
  have c14 : W2 (Proc.devRef .tc main_v14) = val_main_v14 (F := Ideal) (m ((c.tc : Thread nD τ).loc main_arg1)) := by
    have raw : W2 (Proc.devRef .tc main_v14)
        = select (W1 (Proc.devRef .tc main_v12)) (W1 (Proc.devRef .tc main_v13))
            (broadcastInDim S50000 ![] bcast_S_S50000 (id (W1 (Proc.devRef .tc main_cst_2)))) := by
      rw [← h2]; after_results_simp <;> rfl
    rw [raw, b12, b13, bc2]; rfl
  have c3 : W2 (Proc.devRef .tc main_v3) = val_main_v3 (F := Ideal) (m ((c.tc : Thread nD τ).loc main_arg1)) := by rw [← h2]; after_results_simp; exact b3
  have c6 : W2 (Proc.devRef .tc main_v6) = val_main_v6 (F := Ideal) (m ((c.tc : Thread nD τ).loc main_arg1)) := by rw [← h2]; after_results_simp; exact b6
  have a2_0 : W2 (Proc.devRef .tc main_arg0) = (m ((c.tc : Thread nD τ).loc main_arg0)) := by rw [← h2]; after_results_simp; exact a1_0
  have a2_2 : W2 (Proc.devRef .tc main_arg2) = (m ((c.tc : Thread nD τ).loc main_arg2)) := by rw [← h2]; after_results_simp; exact a1_2
  have a2_3 : W2 (Proc.devRef .tc main_arg3) = (m ((c.tc : Thread nD τ).loc main_arg3)) := by rw [← h2]; after_results_simp; exact a1_3
  have a2_4 : W2 (Proc.devRef .tc main_arg4) = (m ((c.tc : Thread nD τ).loc main_arg4)) := by rw [← h2]; after_results_simp; exact a1_4
  have a2_5 : W2 (Proc.devRef .tc main_arg5) = (m ((c.tc : Thread nD τ).loc main_arg5)) := by rw [← h2]; after_results_simp; exact a1_5
  have a2_6 : W2 (Proc.devRef .tc main_arg6) = (m ((c.tc : Thread nD τ).loc main_arg6)) := by rw [← h2]; after_results_simp; exact a1_6
  have a2_7 : W2 (Proc.devRef .tc main_arg7) = (m ((c.tc : Thread nD τ).loc main_arg7)) := by rw [← h2]; after_results_simp; exact a1_7
  have a2_8 : W2 (Proc.devRef .tc main_arg8) = (m ((c.tc : Thread nD τ).loc main_arg8)) := by rw [← h2]; after_results_simp; exact a1_8
  clear h2 b3 b6 b12 b13 bc2 a1_0 a1_2 a1_3 a1_4 a1_5 a1_6 a1_7 a1_8
  -- stage 3: the edge weights
  generalize h3 : after ops_s3 W2 = W3
  have d29 : W3 (Proc.devRef .tc main_v29) = val_main_v29 (F := Ideal) (m ((c.tc : Thread nD τ).loc main_arg1)) := by
    rw [← h3]; after_results_simp; rw [c14, c3, c6]; rfl
  have d3 : W3 (Proc.devRef .tc main_v3) = val_main_v3 (F := Ideal) (m ((c.tc : Thread nD τ).loc main_arg1)) := by rw [← h3]; after_results_simp; exact c3
  have d6 : W3 (Proc.devRef .tc main_v6) = val_main_v6 (F := Ideal) (m ((c.tc : Thread nD τ).loc main_arg1)) := by rw [← h3]; after_results_simp; exact c6
  have a3_0 : W3 (Proc.devRef .tc main_arg0) = (m ((c.tc : Thread nD τ).loc main_arg0)) := by rw [← h3]; after_results_simp; exact a2_0
  have a3_2 : W3 (Proc.devRef .tc main_arg2) = (m ((c.tc : Thread nD τ).loc main_arg2)) := by rw [← h3]; after_results_simp; exact a2_2
  have a3_3 : W3 (Proc.devRef .tc main_arg3) = (m ((c.tc : Thread nD τ).loc main_arg3)) := by rw [← h3]; after_results_simp; exact a2_3
  have a3_4 : W3 (Proc.devRef .tc main_arg4) = (m ((c.tc : Thread nD τ).loc main_arg4)) := by rw [← h3]; after_results_simp; exact a2_4
  have a3_5 : W3 (Proc.devRef .tc main_arg5) = (m ((c.tc : Thread nD τ).loc main_arg5)) := by rw [← h3]; after_results_simp; exact a2_5
  have a3_6 : W3 (Proc.devRef .tc main_arg6) = (m ((c.tc : Thread nD τ).loc main_arg6)) := by rw [← h3]; after_results_simp; exact a2_6
  have a3_7 : W3 (Proc.devRef .tc main_arg7) = (m ((c.tc : Thread nD τ).loc main_arg7)) := by rw [← h3]; after_results_simp; exact a2_7
  have a3_8 : W3 (Proc.devRef .tc main_arg8) = (m ((c.tc : Thread nD τ).loc main_arg8)) := by rw [← h3]; after_results_simp; exact a2_8
  clear h3 c14 c3 c6 a2_0 a2_2 a2_3 a2_4 a2_5 a2_6 a2_7 a2_8
  -- stage 4: the first propagation step
  generalize h4 : after ops_s4 W3 = W4
  have e42 : W4 (Proc.devRef .tc main_v42) = val_main_v42 (F := Ideal) (m ((c.tc : Thread nD τ).loc main_arg0)) (m ((c.tc : Thread nD τ).loc main_arg1)) := by
    rw [← h4]; after_results_simp; rw [d29, d3, d6, a3_0]; rfl
  have e29 : W4 (Proc.devRef .tc main_v29) = val_main_v29 (F := Ideal) (m ((c.tc : Thread nD τ).loc main_arg1)) := by rw [← h4]; after_results_simp; exact d29
  have e3 : W4 (Proc.devRef .tc main_v3) = val_main_v3 (F := Ideal) (m ((c.tc : Thread nD τ).loc main_arg1)) := by rw [← h4]; after_results_simp; exact d3
  have e6 : W4 (Proc.devRef .tc main_v6) = val_main_v6 (F := Ideal) (m ((c.tc : Thread nD τ).loc main_arg1)) := by rw [← h4]; after_results_simp; exact d6
  have a4_2 : W4 (Proc.devRef .tc main_arg2) = (m ((c.tc : Thread nD τ).loc main_arg2)) := by rw [← h4]; after_results_simp; exact a3_2
  have a4_3 : W4 (Proc.devRef .tc main_arg3) = (m ((c.tc : Thread nD τ).loc main_arg3)) := by rw [← h4]; after_results_simp; exact a3_3
  have a4_4 : W4 (Proc.devRef .tc main_arg4) = (m ((c.tc : Thread nD τ).loc main_arg4)) := by rw [← h4]; after_results_simp; exact a3_4
  have a4_5 : W4 (Proc.devRef .tc main_arg5) = (m ((c.tc : Thread nD τ).loc main_arg5)) := by rw [← h4]; after_results_simp; exact a3_5
  have a4_6 : W4 (Proc.devRef .tc main_arg6) = (m ((c.tc : Thread nD τ).loc main_arg6)) := by rw [← h4]; after_results_simp; exact a3_6
  have a4_7 : W4 (Proc.devRef .tc main_arg7) = (m ((c.tc : Thread nD τ).loc main_arg7)) := by rw [← h4]; after_results_simp; exact a3_7
  have a4_8 : W4 (Proc.devRef .tc main_arg8) = (m ((c.tc : Thread nD τ).loc main_arg8)) := by rw [← h4]; after_results_simp; exact a3_8
  clear h4 d29 d3 d6 a3_0 a3_2 a3_3 a3_4 a3_5 a3_6 a3_7 a3_8
  -- stage 5: the second propagation step
  generalize h5 : after ops_s5 W4 = W5
  have f55 : W5 (Proc.devRef .tc main_v55) = val_main_v55 (F := Ideal) (m ((c.tc : Thread nD τ).loc main_arg0)) (m ((c.tc : Thread nD τ).loc main_arg1)) := by
    rw [← h5]; after_results_simp; rw [e42, e29, e3, e6]; rfl
  have a5_2 : W5 (Proc.devRef .tc main_arg2) = (m ((c.tc : Thread nD τ).loc main_arg2)) := by rw [← h5]; after_results_simp; exact a4_2
  have a5_3 : W5 (Proc.devRef .tc main_arg3) = (m ((c.tc : Thread nD τ).loc main_arg3)) := by rw [← h5]; after_results_simp; exact a4_3
  have a5_4 : W5 (Proc.devRef .tc main_arg4) = (m ((c.tc : Thread nD τ).loc main_arg4)) := by rw [← h5]; after_results_simp; exact a4_4
  have a5_5 : W5 (Proc.devRef .tc main_arg5) = (m ((c.tc : Thread nD τ).loc main_arg5)) := by rw [← h5]; after_results_simp; exact a4_5
  have a5_6 : W5 (Proc.devRef .tc main_arg6) = (m ((c.tc : Thread nD τ).loc main_arg6)) := by rw [← h5]; after_results_simp; exact a4_6
  have a5_7 : W5 (Proc.devRef .tc main_arg7) = (m ((c.tc : Thread nD τ).loc main_arg7)) := by rw [← h5]; after_results_simp; exact a4_7
  have a5_8 : W5 (Proc.devRef .tc main_arg8) = (m ((c.tc : Thread nD τ).loc main_arg8)) := by rw [← h5]; after_results_simp; exact a4_8
  clear h5 e42 e29 e3 e6 a4_2 a4_3 a4_4 a4_5 a4_6 a4_7 a4_8
  -- stage 6: the dense layer, the endpoint gathers, the hidden layer before its rectification
  generalize h6 : after ops_s6 W5 = W6
  have g84 : W6 (Proc.devRef .tc main_v84) = val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
    rw [← h6]; after_results_simp; rw [f55, a5_2, a5_3, a5_4, a5_5, a5_6]; rfl
  have a6_7 : W6 (Proc.devRef .tc main_arg7) = (m ((c.tc : Thread nD τ).loc main_arg7)) := by rw [← h6]; after_results_simp; exact a5_7
  have a6_8 : W6 (Proc.devRef .tc main_arg8) = (m ((c.tc : Thread nD τ).loc main_arg8)) := by rw [← h6]; after_results_simp; exact a5_8
  clear h6 f55 a5_2 a5_3 a5_4 a5_5 a5_6 a5_7 a5_8
  -- stage 7: the rectification
  generalize h7 : after ops_s7 W6 = W7
  have i85 : W7 (Proc.devRef .tc main_v85) = val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
    have raw : W7 (Proc.devRef .tc main_v85)
        = maximumf (W6 (Proc.devRef .tc main_v84))
            (broadcastInDim S200000x64 ![] bcast_S_S200000x64 (constant (F := Ideal) S_ .f32 0x00000000#32)) := by
      rw [← h7]; after_results_simp <;> rfl
    rw [raw, g84]; rfl
  have a7_7 : W7 (Proc.devRef .tc main_arg7) = (m ((c.tc : Thread nD τ).loc main_arg7)) := by rw [← h7]; after_results_simp; exact a6_7
  have a7_8 : W7 (Proc.devRef .tc main_arg8) = (m ((c.tc : Thread nD τ).loc main_arg8)) := by rw [← h7]; after_results_simp; exact a6_8
  clear h7 g84 a6_7 a6_8
  -- stage 8: the output layer
  after_results_simp
  rw [i85, a7_7, a7_8]
  rfl

set_option maxHeartbeats 4000000 in
/-- The argument buffers after the reference's operations are as launched. -/
theorem kept (c : Dev nD) :
    after (ops (F := Ideal)) (launchContents m c) (Proc.devRef .tc main_arg0) = (m ((c.tc : Thread nD τ).loc main_arg0))
    ∧ after (ops (F := Ideal)) (launchContents m c) (Proc.devRef .tc main_arg1) = (m ((c.tc : Thread nD τ).loc main_arg1))
    ∧ after (ops (F := Ideal)) (launchContents m c) (Proc.devRef .tc main_arg2) = (m ((c.tc : Thread nD τ).loc main_arg2))
    ∧ after (ops (F := Ideal)) (launchContents m c) (Proc.devRef .tc main_arg3) = (m ((c.tc : Thread nD τ).loc main_arg3))
    ∧ after (ops (F := Ideal)) (launchContents m c) (Proc.devRef .tc main_arg4) = (m ((c.tc : Thread nD τ).loc main_arg4))
    ∧ after (ops (F := Ideal)) (launchContents m c) (Proc.devRef .tc main_arg5) = (m ((c.tc : Thread nD τ).loc main_arg5))
    ∧ after (ops (F := Ideal)) (launchContents m c) (Proc.devRef .tc main_arg6) = (m ((c.tc : Thread nD τ).loc main_arg6))
    ∧ after (ops (F := Ideal)) (launchContents m c) (Proc.devRef .tc main_arg7) = (m ((c.tc : Thread nD τ).loc main_arg7))
    ∧ after (ops (F := Ideal)) (launchContents m c) (Proc.devRef .tc main_arg8) = (m ((c.tc : Thread nD τ).loc main_arg8))
    := by
  refine ⟨?_, ?_, ?_, ?_, ?_, ?_, ?_, ?_, ?_⟩ <;> (after_results_simp <;> rfl)

end Cert.ReferenceIdeal.Hand

end
-- ==== Proof.Bridge.lean ====
/-
  The kernel program's result and the reference's last stage are one function of the argument arrays.

  Entry e of either is the decoder's score of the embeddings of label edge e's two endpoints:

      score e = (Σⱼ max ((Σₖ (Z (u₀, k) · Z (u₁, k)) · W (k, j)) + b₁ j) 0 · w₂ j) + b₂,
      Z (u, k) = (Σₗ H (u, l) · Wᵀ (l, k)) + b k,

  H the node features after two propagation steps, u₀ and u₁ the nodes the edge's endpoint indices name (normalised, then
  clamped by the gather). The two programs differ in three ways, none of which changes an entry:
  * the propagation step's arrangement (scale-gather-add-scale against weighted gather-add): Cert.Proof.Sgc;
  * the kernel pads the endpoint vectors with zeros to 204800 entries and drops the padded entries of the result at the end:
    below 200000 the padded vector reads the vector;
  * the reference writes the output layer as a product with the transposed 1 × 64 row, adds the bias, and sums over an axis
    of extent one from zero: a sum over one term from zero is the term.
-/
import proofs.«155874_j48129403519234_2_alg».proof.Proof.KValue
import proofs.«155874_j48129403519234_2_alg».proof.Proof.RefRead
import proofs.«155874_j48129403519234_2_alg».proof.Proof.LibSgcStep
import Idealize.ShloMosaic.Lib.ValueLayout

set_option maxRecDepth 16384

noncomputable section

open scoped BigOperators

namespace Cert.Proof.Bridge

open Idealize.ShloMosaic Idealize.ShloMosaic.ValueIdx Cert.GatherRows Cert.Proof.GraphRead
open Cert.ReferenceIdeal.Read

abbrev X0 := FVec Ideal ⟨2, ![50000, 128]⟩ .f32
abbrev X1 := IVec ⟨2, ![2, 600000]⟩ 32
abbrev X2 := IVec ⟨2, ![2, 200000]⟩ 32
abbrev X3 := FVec Ideal ⟨2, ![128, 128]⟩ .f32
abbrev X4 := FVec Ideal ⟨1, ![128]⟩ .f32
abbrev X5 := FVec Ideal ⟨2, ![64, 128]⟩ .f32
abbrev X6 := FVec Ideal ⟨1, ![64]⟩ .f32
abbrev X7 := FVec Ideal ⟨2, ![1, 64]⟩ .f32
abbrev X8 := FVec Ideal ⟨1, ![1]⟩ .f32

theorem hN : 0 < 50000 := by norm_num

/-! ## The common formula -/

/-- Row u of the embeddings, column k. -/
def embAt (H : X0) (Wt : X3) (b : X4) (u : Fin 50000) (k : Fin 128) : EReal :=
  (∑ l : Fin 128, H (ix2 u l) * Wt (ix2 l k)) + b (ix1 k)

/-- The decoder's score of two embedding rows. -/
def scoreAt (z0 z1 : Fin 128 → EReal) (W : FVec Ideal ⟨2, ![128, 64]⟩ .f32) (b1 : X6) (w2 : X7) (b2 : X8) : EReal :=
  (∑ j : Fin 64, max ((∑ k : Fin 128, (z0 k * z1 k) * W (ix2 k j)) + b1 (ix1 j)) 0 * w2 (ix2 (0 : Fin 1) j))
    + b2 (ix1 (0 : Fin 1))

/-- The host's product of an M × K array with a K × N array, at (r, c). -/
theorem hostDot_apply {M K N : ℕ} (prec : Option ContractPrecision) (X : FVec Ideal ⟨2, ![M, K]⟩ .f32)
    (W : FVec Ideal ⟨2, ![K, N]⟩ .f32) (r : Fin M) (c : Fin N) :
    Host.dotGeneral (F := Ideal) (DotDims.plain M K N) prec X W (ix2 r c) = ∑ k : Fin K, X (ix2 r k) * W (ix2 k c) :=
  Cert.Proof.PlainDot.dotGeneral_plain prec .single X W (ix2 r c)

/-- A sum over one term is the term. -/
theorem sum_fin_one {M : Type*} [AddCommMonoid M] (f : Fin 1 → M) : ∑ k : Fin 1, f k = f 0 := by
  rw [Fin.sum_univ_succ, Fin.sum_univ_zero, add_zero]

/-! ## The propagation steps -/

set_option maxHeartbeats 4000000 in
/-- Two steps in the kernel's arrangement are the reference's two steps. -/
theorem hops_eq (x0 : X0) (x1 : X1) :
    Cert.KernelIdeal.Hand.stepK x1 (Cert.KernelIdeal.Hand.stepK x1 x0) = val_main_v55 (F := Ideal) x0 x1 := by
  have hdis : ∀ u : Fin 50000, (0 : EReal) ≤ val_main_v14 (F := Ideal) x1 (ix1 u)
      ∧ val_main_v14 (F := Ideal) x1 (ix1 u) ≠ (⊤ : EReal) :=
    fun u => scale_ok Cert.ReferenceIdeal.Gen.bcast_S_S50000 (val_main_v10 (F := Ideal) x1) u
  have hback : ∀ (a : Fin 650000) (r : Fin 50000), lands (val_main_v41 (F := Ideal) x1) a r
      → rowOf hN (val_main_v27 (F := Ideal) x1) a = r :=
    fun a r hl => target_readback hN Cert.ReferenceIdeal.Gen.bcast_S_S650000 Cert.ReferenceIdeal.Gen.bcast_S650000_S650000x1_0
      (val_main_v6 (F := Ideal) x1) (val_main_v24 (F := Ideal)) a r hl
  have key : ∀ H : X0, Cert.KernelIdeal.Hand.stepK x1 H
      = Cert.Proof.Sgc.stepR (N := 50000) (E := 650000) (C := 128)
          Cert.ReferenceIdeal.Gen.scatter_S50000x128_S650000x1_S650000x128_1_0_0_1_wf
          Cert.ReferenceIdeal.Gen.gather_S50000x128_S650000x1_S650000x128_1_0_n_n_0_1_1128_wf
          Cert.ReferenceIdeal.Gen.gather_S50000_S650000x1_S650000_n_0_n_n_0_1_1_wf
          Cert.ReferenceIdeal.Gen.bcast_S_S50000x128 Cert.ReferenceIdeal.Gen.bcast_S650000_S650000x1_0
          Cert.ReferenceIdeal.Gen.bcast_S650000x1_S650000x128_0_1
          (val_main_v14 (F := Ideal) x1) (val_main_v41 (F := Ideal) x1) (val_main_v35 (F := Ideal) x1)
          (val_main_v27 (F := Ideal) x1) H :=
    fun H => Cert.Proof.Sgc.stepK_eq_stepR hN _ _ _ _ _ _ _ _ _ _ _ _ hdis hback H
  rw [key, key]
  rfl

/-! ## The endpoint rows -/

/-- The normalisation of one index word: a negative word gets 50000 added. -/
def nrm (v : BitVec 32) : BitVec 32 := Scalar.select (IntOp.cmpi .slt v 0#32) (IntOp.addi v 50000#32) v

/-- A vector padded with zeros above reads the vector below its extent. -/
theorem pad_low_apply (x : IVec ⟨1, ![200000]⟩ 32) (v : IVec ⟨0, ![]⟩ 32)
    (h : (⟨1, ![200000]⟩ : Shape).Pads ![0] ![4800] ![0] ⟨1, ![204800]⟩) (hu : 0 < (⟨0, ![]⟩ : Shape).numel)
    (e : Fin 200000) (e' : Fin 204800) (he : e'.val = e.val) :
    pad ⟨1, ![204800]⟩ ![0] ![4800] ![0] x v h hu (ix1 e') = x (ix1 e) := by
  unfold pad
  have hlt := e.isLt
  split
  · refine congrArg x (funext fun a => Fin.ext ?_)
    match a with
    | ⟨0, _⟩ =>
      show (e'.val - 0) / (0 + 1) = e.val
      rw [he]; omega
  · rename_i hin
    exfalso
    apply hin
    intro a
    match a with
    | ⟨0, _⟩ =>
      show 0 ≤ e'.val ∧ (e'.val - 0) % (0 + 1) = 0 ∧ (e'.val - 0) / (0 + 1) < 200000
      omega

/-- The node a start index names depends on the index word only. -/
theorem rowOf_congr {E E' w : ℕ} (G : IVec ⟨2, ![E, 1]⟩ w) (G' : IVec ⟨2, ![E', 1]⟩ w) (a : Fin E) (a' : Fin E')
    (h : G (ix2 a 0) = G' (ix2 a' 0)) : rowOf hN G a = rowOf hN G' a' := by
  apply Fin.ext
  show min (G (ix2 a 0)).toInt.toNat (50000 - 1) = min (G' (ix2 a' 0)).toInt.toNat (50000 - 1)
  rw [h]

/-- Below 200000 the kernel's padded, normalised endpoint vector names the node the reference's names. -/
theorem row_eq (off : Fin 2 → ℕ) (hs : (⟨2, ![2, 200000]⟩ : Shape).Slices off ⟨2, ![1, 200000]⟩)
    (hc : (⟨2, ![1, 200000]⟩ : Shape).ShapeCasts ⟨1, ![200000]⟩)
    (h0 : (⟨0, ![]⟩ : Shape).BroadcastsInDim ⟨1, ![200000]⟩ (![] : Fin 0 → Fin (⟨1, ![200000]⟩ : Shape).rank))
    (h1 : (⟨1, ![200000]⟩ : Shape).BroadcastsInDim ⟨2, ![200000, 1]⟩ (![0] : Fin 1 → Fin (⟨2, ![200000, 1]⟩ : Shape).rank))
    (x2 : X2) (e : Fin 200000) (e' : Fin 204800) (he : e'.val = e.val) :
    rowOf hN (Cert.KernelIdeal.Hand.normIdx (Cert.KernelIdeal.Hand.eliPad off hs x2)) e'
      = rowOf hN (broadcastInDim ⟨2, ![200000, 1]⟩ ![0] h1
          (select (cmpi .slt (shapeCast ⟨1, ![200000]⟩ (extractStridedSlice ⟨2, ![1, 200000]⟩ off x2 hs) hc)
              (broadcastInDim ⟨1, ![200000]⟩ ![] h0 (constantI ⟨0, ![]⟩ 32 0#32)))
            (addi (shapeCast ⟨1, ![200000]⟩ (extractStridedSlice ⟨2, ![1, 200000]⟩ off x2 hs) hc)
              (broadcastInDim ⟨1, ![200000]⟩ ![] h0 (constantI ⟨0, ![]⟩ 32 50000#32)))
            (shapeCast ⟨1, ![200000]⟩ (extractStridedSlice ⟨2, ![1, 200000]⟩ off x2 hs) hc))) e := by
  refine rowOf_congr _ _ e' e ?_
  have hk : Cert.KernelIdeal.Hand.normIdx (Cert.KernelIdeal.Hand.eliPad off hs x2) (ix2 e' 0)
      = nrm (Cert.KernelIdeal.Hand.eliPad off hs x2 (ix1 e')) := by
    unfold Cert.KernelIdeal.Hand.normIdx
    refine (HostRead.bcast_a_a1_apply _ _ e' 0).trans ?_
    rfl
  have hr : broadcastInDim ⟨2, ![200000, 1]⟩ ![0] h1
          (select (cmpi .slt (shapeCast ⟨1, ![200000]⟩ (extractStridedSlice ⟨2, ![1, 200000]⟩ off x2 hs) hc)
              (broadcastInDim ⟨1, ![200000]⟩ ![] h0 (constantI ⟨0, ![]⟩ 32 0#32)))
            (addi (shapeCast ⟨1, ![200000]⟩ (extractStridedSlice ⟨2, ![1, 200000]⟩ off x2 hs) hc)
              (broadcastInDim ⟨1, ![200000]⟩ ![] h0 (constantI ⟨0, ![]⟩ 32 50000#32)))
            (shapeCast ⟨1, ![200000]⟩ (extractStridedSlice ⟨2, ![1, 200000]⟩ off x2 hs) hc)) (ix2 e 0)
      = nrm (shapeCast ⟨1, ![200000]⟩ (extractStridedSlice ⟨2, ![1, 200000]⟩ off x2 hs) hc (ix1 e)) := by
    refine (HostRead.bcast_a_a1_apply _ h1 e 0).trans ?_
    rfl
  rw [hk, hr]
  refine congrArg nrm ?_
  unfold Cert.KernelIdeal.Hand.eliPad
  exact pad_low_apply _ _ _ _ e e' he

/-! ## The kernel's result at an entry -/

/-- Row u of the kernel's embeddings array, column k. -/
theorem embK_apply (x0 : X0) (x1 : X1) (x3 : X3) (x4 : X4) (u : Fin 50000) (k : Fin 128) :
    Cert.KernelIdeal.Hand.embK x0 x1 x3 x4 (ix2 u k)
      = embAt (Cert.KernelIdeal.Hand.stepK x1 (Cert.KernelIdeal.Hand.stepK x1 x0))
          (transpose ⟨2, ![128, 128]⟩ [1, 0] x3 Cert.KernelIdeal.Gen.transposes_S128x128_S128x128_1_0) x4 u k := by
  unfold Cert.KernelIdeal.Hand.embK Cert.KernelIdeal.Hand.lin embAt
  refine congrArg₂ (· + ·) rfl ?_
  exact shapeCast_a_1a_apply x4 _ 0 k

/-- The first 200000 entries of a 204800-entry vector read the vector. -/
theorem slice_low_apply {α : Type} (x : (⟨1, ![204800]⟩ : Shape).Idx → α)
    (h : (⟨1, ![204800]⟩ : Shape).Slices ![0] ⟨1, ![200000]⟩) (e : Fin 200000) (e' : Fin 204800) (he : e'.val = e.val) :
    extractStridedSlice ⟨1, ![200000]⟩ ![0] x h (ix1 e) = x (ix1 e') :=
  extractStridedSlice_apply (s := ⟨1, ![204800]⟩) (t := ⟨1, ![200000]⟩) ![0] x h (ix1 e) (ix1 e') (fun a => by
    match a with
    | ⟨0, _⟩ =>
      show e'.val = 0 + e.val
      omega)

set_option maxHeartbeats 4000000 in
/-- THE KERNEL'S RESULT AT ENTRY e. -/
theorem outK_apply (x0 : X0) (x1 : X1) (x2 : X2) (x3 : X3) (x4 : X4) (x5 : X5) (x6 : X6) (x7 : X7) (x8 : X8)
    (e : Fin 200000) (e' : Fin 204800) (he : e'.val = e.val) :
    Cert.KernelIdeal.Hand.outK x0 x1 x2 x3 x4 x5 x6 x7 x8 (ix1 e)
      = scoreAt
          (embAt (Cert.KernelIdeal.Hand.stepK x1 (Cert.KernelIdeal.Hand.stepK x1 x0))
            (transpose ⟨2, ![128, 128]⟩ [1, 0] x3 Cert.KernelIdeal.Gen.transposes_S128x128_S128x128_1_0) x4
            (rowOf hN (Cert.KernelIdeal.Hand.normIdx (Cert.KernelIdeal.Hand.eliPad ![0, 0]
              Cert.KernelIdeal.Gen.slices_S2x200000_S1x200000_0_0 x2)) e'))
          (embAt (Cert.KernelIdeal.Hand.stepK x1 (Cert.KernelIdeal.Hand.stepK x1 x0))
            (transpose ⟨2, ![128, 128]⟩ [1, 0] x3 Cert.KernelIdeal.Gen.transposes_S128x128_S128x128_1_0) x4
            (rowOf hN (Cert.KernelIdeal.Hand.normIdx (Cert.KernelIdeal.Hand.eliPad ![1, 0]
              Cert.KernelIdeal.Gen.slices_S2x200000_S1x200000_1_0 x2)) e'))
          (transpose ⟨2, ![128, 64]⟩ [1, 0] x5 Cert.KernelIdeal.Gen.transposes_S64x128_S128x64_1_0) x6 x7 x8 := by
  unfold Cert.KernelIdeal.Hand.outK
  refine (slice_low_apply _ _ e e' he).trans ?_
  unfold Cert.KernelIdeal.Hand.dec scoreAt
  have hg : ∀ (G : IVec ⟨2, ![204800, 1]⟩ 32) (a : Fin 204800) (k : Fin 128),
      Host.gather Cert.KernelIdeal.gather_S50000x128_S204800x1_S204800x128_1_0_n_n_0_1_1128
          (Cert.KernelIdeal.Hand.embK x0 x1 x3 x4) G (ix2 a k)
        = embAt (Cert.KernelIdeal.Hand.stepK x1 (Cert.KernelIdeal.Hand.stepK x1 x0))
            (transpose ⟨2, ![128, 128]⟩ [1, 0] x3 Cert.KernelIdeal.Gen.transposes_S128x128_S128x128_1_0) x4
            (rowOf hN G a) k := fun G a k =>
    (GatherRows.gather2_apply hN Cert.KernelIdeal.Gen.gather_S50000x128_S204800x1_S204800x128_1_0_n_n_0_1_1128_wf
      (Cert.KernelIdeal.Hand.embK x0 x1 x3 x4) G a k).trans (embK_apply x0 x1 x3 x4 _ k)
  have hb1 : ∀ j : Fin 64, shapeCast ⟨2, ![1, 64]⟩ x6 Cert.KernelIdeal.Gen.shapeCasts_S64_S1x64 (ix2 (0 : Fin 1) j) = x6 (ix1 j) :=
    fun j => shapeCast_a_1a_apply x6 _ 0 j
  have hb2 : shapeCast ⟨2, ![1, 1]⟩ x8 Cert.KernelIdeal.Gen.shapeCasts_S1_S1x1 (ix2 (0 : Fin 1) (0 : Fin 1)) = x8 (ix1 (0 : Fin 1)) :=
    shapeCast_a_1a_apply x8 _ 0 0
  show (∑ j : Fin 64, max ((∑ k : Fin 128, (_ * _) * _) + _) 0 * _) + _ = _
  rw [hb2]
  refine congrArg (· + x8 (ix1 (0 : Fin 1))) (Finset.sum_congr rfl fun j _ => ?_)
  rw [hb1 j]
  refine congrArg (fun z => max (z + x6 (ix1 j)) 0 * x7 (ix2 (0 : Fin 1) j)) (Finset.sum_congr rfl fun k _ => ?_)
  rw [hg, hg]
  try rfl

/-! ## The reference's last stage at an entry -/

/-- Row u of the reference's embeddings array, column k. -/
theorem v60_apply (x0 : X0) (x1 : X1) (x3 : X3) (x4 : X4) (u : Fin 50000) (k : Fin 128) :
    val_main_v60 (F := Ideal) x0 x1 x3 x4 (ix2 u k)
      = embAt (val_main_v55 (F := Ideal) x0 x1) (val_main_v56 (F := Ideal) x3) x4 u k := by
  unfold val_main_v60 embAt
  refine (addf_apply _ _ _).trans (congrArg₂ (· + ·) ?_ ?_)
  · unfold val_main_v57
    exact hostDot_apply (M := 50000) (K := 128) (N := 128) none _ _ u k
  · unfold val_main_v59 val_main_v58
    exact (HostRead.bcast_1c_ac_apply _ _ u k).trans (HostRead.bcast_c_1c_apply x4 _ 0 k)

set_option maxHeartbeats 4000000 in
/-- THE REFERENCE'S RESULT AT ENTRY e. -/
theorem v91_apply (x0 : X0) (x1 : X1) (x2 : X2) (x3 : X3) (x4 : X4) (x5 : X5) (x6 : X6) (x7 : X7) (x8 : X8)
    (e : Fin 200000) :
    val_main_v91 (F := Ideal) x0 x1 x2 x3 x4 x5 x6 x7 x8 (ix1 e)
      = scoreAt
          (embAt (val_main_v55 (F := Ideal) x0 x1) (val_main_v56 (F := Ideal) x3) x4 (rowOf hN (val_main_v68 (F := Ideal) x2) e))
          (embAt (val_main_v55 (F := Ideal) x0 x1) (val_main_v56 (F := Ideal) x3) x4 (rowOf hN (val_main_v77 (F := Ideal) x2) e))
          (val_main_v80 (F := Ideal) x5) x6 x7 x8 := by
  rw [val_main_v91_apply, sum_fin_one]
  have hc : val_main_cst_16 (F := Ideal) (Shape.Idx.first Cert.ReferenceIdeal.Gen.h_S_) = (0 : EReal) := Ideal.ofBits_zero_f32
  have hidx : idx_main_v91 (ix1 e) 0 = ix2 e (0 : Fin 1) :=
    funext fun a => Fin.ext (by match a with | ⟨0, _⟩ => rfl | ⟨1, _⟩ => rfl)
  rw [hc, zero_add, hidx]
  unfold val_main_v90 scoreAt
  refine (addf_apply _ _ _).trans (congrArg₂ (· + ·) ?_ ?_)
  · unfold val_main_v87
    refine (hostDot_apply (M := 200000) (K := 64) (N := 1) none _ _ e 0).trans (Finset.sum_congr rfl fun j _ => ?_)
    refine congrArg₂ (· * ·) ?_ ?_
    · unfold val_main_v85
      refine (maximumf_apply _ _ _).trans (congrArg₂ max ?_ ?_)
      · unfold val_main_v84
        refine (addf_apply _ _ _).trans (congrArg₂ (· + ·) ?_ ?_)
        · unfold val_main_v81
          refine (hostDot_apply (M := 200000) (K := 128) (N := 64) none _ _ e j).trans (Finset.sum_congr rfl fun k _ => ?_)
          refine congrArg (· * val_main_v80 (F := Ideal) x5 (ix2 k j)) ?_
          unfold val_main_v79
          refine (mulf_apply _ _ _).trans (congrArg₂ (· * ·) ?_ ?_)
          · unfold val_main_v69
            exact (GatherRows.gather2_apply hN Cert.ReferenceIdeal.Gen.gather_S50000x128_S200000x1_S200000x128_1_0_n_n_0_1_1128_wf
              _ _ e k).trans (v60_apply x0 x1 x3 x4 _ k)
          · unfold val_main_v78
            exact (GatherRows.gather2_apply hN Cert.ReferenceIdeal.Gen.gather_S50000x128_S200000x1_S200000x128_1_0_n_n_0_1_1128_wf
              _ _ e k).trans (v60_apply x0 x1 x3 x4 _ k)
        · unfold val_main_v83 val_main_v82
          exact (HostRead.bcast_1c_ac_apply _ _ e j).trans (HostRead.bcast_c_1c_apply x6 _ 0 j)
      · unfold val_main_call1_v0 val_main_call1_cst
        exact bcast_zero_apply _ (ix2 e j)
    · rw [val_main_v86_apply]
      refine congrArg x7 (funext fun a => Fin.ext ?_)
      match a with
      | ⟨0, _⟩ => rfl
      | ⟨1, _⟩ => rfl
  · unfold val_main_v89 val_main_v88
    exact (HostRead.bcast_1c_ac_apply _ _ e 0).trans (HostRead.bcast_c_1c_apply x8 _ 0 0)

/-! ## One function -/

set_option maxHeartbeats 4000000 in
/-- THE KERNEL PROGRAM'S RESULT IS THE REFERENCE'S LAST STAGE, as functions of the argument arrays. -/
theorem out_eq (x0 : X0) (x1 : X1) (x2 : X2) (x3 : X3) (x4 : X4) (x5 : X5) (x6 : X6) (x7 : X7) (x8 : X8) :
    Cert.KernelIdeal.Hand.outK x0 x1 x2 x3 x4 x5 x6 x7 x8 = val_main_v91 (F := Ideal) x0 x1 x2 x3 x4 x5 x6 x7 x8 := by
  funext i
  obtain ⟨e, rfl⟩ : ∃ e : Fin 200000, i = ix1 e := ⟨i 0, eq_ix1 i⟩
  have he : (⟨e.val, by have := e.isLt; omega⟩ : Fin 204800).val = e.val := rfl
  rw [outK_apply x0 x1 x2 x3 x4 x5 x6 x7 x8 e ⟨e.val, by have := e.isLt; omega⟩ he, v91_apply, hops_eq]
  have r0 := row_eq ![0, 0] Cert.KernelIdeal.Gen.slices_S2x200000_S1x200000_0_0
    Cert.ReferenceIdeal.Gen.shapeCasts_S1x200000_S200000 Cert.ReferenceIdeal.Gen.bcast_S_S200000
    Cert.ReferenceIdeal.Gen.bcast_S200000_S200000x1_0 x2 e ⟨e.val, by have := e.isLt; omega⟩ he
  have r1 := row_eq ![1, 0] Cert.KernelIdeal.Gen.slices_S2x200000_S1x200000_1_0
    Cert.ReferenceIdeal.Gen.shapeCasts_S1x200000_S200000 Cert.ReferenceIdeal.Gen.bcast_S_S200000
    Cert.ReferenceIdeal.Gen.bcast_S200000_S200000x1_0 x2 e ⟨e.val, by have := e.isLt; omega⟩ he
  rw [r0, r1]
  rfl

end Cert.Proof.Bridge

end
-- ==== Proof.lean ====
/-
  The kernel computes a simplified graph convolution's link scores: two steps of neighbourhood averaging with symmetric degree
  scaling (over the edge list with self-loops added), a dense layer, and a two-layer decoder on the product of the embeddings
  of each label edge's endpoints. The reference computes the same with every edge weighted by the product of its two endpoints'
  scales; the kernel scales the rows before the edges read them and the sums after. At the extended reals the two agree entry
  by entry: a scale is a non-negative number below +∞ whatever the inputs are (the inverse square root of a positive count, or
  zero), so it distributes over the finite sum of an aggregation; everything else is a re-association or a re-tiling.

  * Both programs' results as functions of the argument arrays: the kernel's (Proof/KValue.lean: the run's last contents,
    read through the two regions' arrays and the host operations around them), the reference's (Proof/RefValue.lean: the fold
    of its operations read in stages as the composition of its stages).
  * That the two functions are one (Proof/Bridge.lean, over Proof/LibSgcStep.lean's law for the propagation step).
  * The frames: the two kernel programs' are the launch-to-return runs of their segments; the reference's is its run with the
    result dropped. No rewrite was applied when the kernel was idealized, so nothing is owed for it.
-/
import proofs.«155874_j48129403519234_2_alg».proof.Defs
import proofs.«155874_j48129403519234_2_alg».proof.Proof.Gen.Kernel
import proofs.«155874_j48129403519234_2_alg».proof.Proof.Gen.Kernel.Frame
import proofs.«155874_j48129403519234_2_alg».proof.Proof.Gen.KernelIdeal
import proofs.«155874_j48129403519234_2_alg».proof.Proof.Gen.KernelIdeal.Frame
import proofs.«155874_j48129403519234_2_alg».proof.Proof.Gen.ReferenceIdeal
import proofs.«155874_j48129403519234_2_alg».proof.Proof.Gen.Pre_finite_inputs
import proofs.«155874_j48129403519234_2_alg».proof.Proof.KValue
import proofs.«155874_j48129403519234_2_alg».proof.Proof.RefRun
import proofs.«155874_j48129403519234_2_alg».proof.Proof.RefValue
import proofs.«155874_j48129403519234_2_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and leaves its arguments as launched: its run, the result dropped. -/
theorem frame_ri : Cert.frame_ReferenceIdeal := fun m ρ _ =>
  (θ_run Cert.ReferenceIdeal.defs _ _).mono (fun r h c =>
    have k := Cert.ReferenceIdeal.Hand.kept m c
    ⟨(h c Cert.ReferenceIdeal.main_arg0).trans k.1, (h c Cert.ReferenceIdeal.main_arg1).trans k.2.1,
     (h c Cert.ReferenceIdeal.main_arg2).trans k.2.2.1, (h c Cert.ReferenceIdeal.main_arg3).trans k.2.2.2.1,
     (h c Cert.ReferenceIdeal.main_arg4).trans k.2.2.2.2.1, (h c Cert.ReferenceIdeal.main_arg5).trans k.2.2.2.2.2.1,
     (h c Cert.ReferenceIdeal.main_arg6).trans k.2.2.2.2.2.2.1, (h c Cert.ReferenceIdeal.main_arg7).trans k.2.2.2.2.2.2.2.1,
     (h c Cert.ReferenceIdeal.main_arg8).trans k.2.2.2.2.2.2.2.2⟩)
    (Cert.ReferenceIdeal.Value.run_fold (F := Ideal) m ρ)

/-- The idealization rewrote nothing. -/
theorem preserves : Cert.preserves_Kernel_KernelIdeal := trivial

/-- From memories agreeing on the arguments both idealized programs run, and end with one result: the kernel's array is its
    function of the arguments, the reference's its last stage, and the two are one function. -/
theorem algebraic : Cert.algebraic_KernelIdeal_ReferenceIdeal := by
  intro m ρ m' ρ' _ hagree
  refine ⟨fun c => Cert.KernelIdeal.Hand.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Hand.run m ρ, ?_⟩
  refine (θ_run Cert.ReferenceIdeal.defs _ _).mono (fun r h c => ?_) (Cert.ReferenceIdeal.Value.run_fold (F := Ideal) m' ρ')
  have k := Cert.ReferenceIdeal.Hand.kept m' c
  obtain ⟨g0, g1, g2, g3, g4, g5, g6, g7, g8⟩ := hagree c
  refine ⟨?_, (h c Cert.ReferenceIdeal.main_arg0).trans k.1, (h c Cert.ReferenceIdeal.main_arg1).trans k.2.1,
     (h c Cert.ReferenceIdeal.main_arg2).trans k.2.2.1, (h c Cert.ReferenceIdeal.main_arg3).trans k.2.2.2.1,
     (h c Cert.ReferenceIdeal.main_arg4).trans k.2.2.2.2.1, (h c Cert.ReferenceIdeal.main_arg5).trans k.2.2.2.2.2.1,
     (h c Cert.ReferenceIdeal.main_arg6).trans k.2.2.2.2.2.2.1, (h c Cert.ReferenceIdeal.main_arg7).trans k.2.2.2.2.2.2.2.1,
     (h c Cert.ReferenceIdeal.main_arg8).trans k.2.2.2.2.2.2.2.2⟩
  rw [h c Cert.ReferenceIdeal.main_v91, Cert.ReferenceIdeal.Hand.value m' c, g0, g1, g2, g3, g4, g5, g6, g7, g8]
  exact (Cert.Proof.Bridge.out_eq _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
